-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4096x4096 : Shape := ⟨3, ![4, 4096, 4096]⟩
abbrev S256x1024 : Shape := ⟨2, ![256, 1024]⟩
abbrev S256 : Shape := ⟨1, ![256]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256x1024 .f32) (main_arg9 : FVec F S256 .f32) (main_v33 : IVec S_ 1) : IVec S_ 1 :=
  let main_v34 : FVec F S256x1024 .f32 := Host.absf main_arg8
  let main_cst_12 : FVec F S_ .f32 := constant S_ .f32 0x7F800000#32
  let main_v35 : FVec F S256x1024 .f32 := broadcastInDim S256x1024 ![] bcast_S_S256x1024 main_cst_12
  let main_v36 : IVec S256x1024 1 := cmpf .olt main_v34 main_v35
  let main_c_13 : IVec S_ 1 := constantI S_ 1 1#1
  let main_v37 : IVec S_ 1 := (fun x v => Host.reduce IntOp.andi x v reducesTo_S256x1024_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S256 .f32) (main_arg6 : FVec F S256x1024 .f32) (main_arg7 : FVec F S256 .f32) (main_arg8 : FVec F S256x1024 .f32) (main_arg9 : FVec F S256 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1024 .f32 := Host.absf main_arg6
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S4x4096x1024 .f32) (main_arg1 : FVec F S4x4096x1024 .f32) (main_arg2 : FVec F S4x4096x1024 .f32) (main_arg3 : IVec S4x4096x4096 32) (main_arg4 : FVec F S256x1024 .f32) (main_arg5 : FVec F S256 .f32) (main_arg6 : FVec F S256x1024 .f32) (main_arg7 : FVec F S256 .f32) (main_arg8 : FVec F S256x1024 .f32) (main_arg9 : FVec F S256 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S256x1024 .f32 := Host.absf main_arg4
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg5 main_arg6 main_arg7 main_arg8 main_arg9 main_v13 main_v16
-- ==== Kernel.lean ====
abbrev S4x4096x1024 : Shape := ⟨3, ![4, 4096, 1024]⟩
abbrev S4x4096x4096 : Shape := ⟨3, ![4, 4096, 4096]⟩
abbrev S256x1024 : Shape := ⟨2, ![256, 1024]⟩
abbrev S256 : Shape := ⟨1, ![256]⟩
abbrev S16384x1024 : Shape := ⟨2, ![16384, 1024]⟩
abbrev S16384x256 : Shape := ⟨2, ![16384, 256]⟩
abbrev S512x1024 : Shape := ⟨2, ![512, 1024]⟩
abbrev S512x256 : Shape := ⟨2, ![512, 256]⟩
abbrev S1x256 : Shape := ⟨2, ![1, 256]⟩
abbrev S4x4096x256 : Shape := ⟨3, ![4, 4096, 256]⟩
abbrev S4x512x256 : Shape := ⟨3, ![4, 512, 256]⟩
abbrev S4x512x512 : Shape := ⟨3, ![4, 512, 512]⟩
abbrev S4x512x1 : Shape := ⟨3, ![4, 512, 1]⟩
abbrev S4x512 : Shape := ⟨2, ![4, 512]⟩

abbrev nBuf : Space → Nat
  | .hbm => 20
  | .vmem => 31
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x4096, .i32⟩
  | .hbm, ⟨4, _⟩ => ⟨S256x1024, .f32⟩
  | .hbm, ⟨5, _⟩ => ⟨S256, .f32⟩
  | .hbm, ⟨6, _⟩ => ⟨S256x1024, .f32⟩
  | .hbm, ⟨7, _⟩ => ⟨S256, .f32⟩
  | .hbm, ⟨8, _⟩ => ⟨S256x1024, .f32⟩
  | .hbm, ⟨9, _⟩ => ⟨S256, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x256, .bf16⟩
  | .hbm, ⟨14, _⟩ => ⟨S16384x256, .bf16⟩
  | .hbm, ⟨15, _⟩ => ⟨S16384x256, .bf16⟩
  | .hbm, ⟨16, _⟩ => ⟨S4x4096x256, .bf16⟩
  | .hbm, ⟨17, _⟩ => ⟨S4x4096x256, .bf16⟩
  | .hbm, ⟨18, _⟩ => ⟨S4x4096x256, .bf16⟩
  | .hbm, ⟨19, _⟩ => ⟨S4x4096x256, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S4x512x256, .bf16⟩
  | .local _ .vmem, ⟨19, _⟩ => ⟨S4x512x256, .bf16⟩
  | .local _ .vmem, ⟨20, _⟩ => ⟨S4x512x256, .bf16⟩
  | .local _ .vmem, ⟨21, _⟩ => ⟨S4x512x256, .bf16⟩
  | .local _ .vmem, ⟨22, _⟩ => ⟨S4x512x256, .bf16⟩
  | .local _ .vmem, ⟨23, _⟩ => ⟨S4x512x256, .bf16⟩
  | .local _ .vmem, ⟨24, _⟩ => ⟨S4x512x512, .i32⟩
  | .local _ .vmem, ⟨25, _⟩ => ⟨S4x512x512, .i32⟩
  | .local _ .vmem, ⟨26, _⟩ => ⟨S4x512x256, .f32⟩
  | .local _ .vmem, ⟨27, _⟩ => ⟨S4x512x256, .f32⟩
  | .local _ .vmem, ⟨28, _⟩ => ⟨S4x512x1, .f32⟩
  | .local _ .vmem, ⟨29, _⟩ => ⟨S4x512x1, .f32⟩
  | .local _ .vmem, ⟨30, _⟩ => ⟨S4x512x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_39 : BitVec 32 := 0#32
  let v49 : BitVec 1 := Scalar.cmpi .ne v48 c0_i32_39
  v49

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4x512x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S4x4096x1024_S16384x1024 : S4x4096x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  shapeCasts_S16384x256_S4x4096x256 : S16384x256.ShapeCasts S4x4096x256
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  inb_S4x512x512_S4x512x512_0_0_0 : ∀ a, (![0, 0, 0] : Fin 3 → Nat) a + S4x512x512.size a ≤ S4x512x512.size a
  h_S4x512x512 : 0 < S4x512x512.numel
  reduces_S4x512x512_S4x512 : S4x512x512.Reduces [2] S4x512
  shapeCasts_S4x512_S4x512x1 : S4x512.ShapeCasts S4x512x1
  broadcasts_S4x512x1_S4x512x512 : S4x512x1.Broadcasts S4x512x512
  broadcasts_S4x512x1_S4x512x256 : S4x512x1.Broadcasts S4x512x256
  dot_S512x1024_S256x1024_S512x256_1_1_0_0_n_n_wf : DotDims.WF S512x1024 S256x1024 S512x256 [1] [1] [0] [0] [] []
  dot_S4x512x256_S4x512x256_S4x512x512_2_2_1_1_0_0_wf : DotDims.WF S4x512x256 S4x512x256 S4x512x512 [2] [2] [1] [1] [0] [0]
  dot_S4x512x512_S4x512x256_S4x512x256_2_1_1_2_0_0_wf : DotDims.WF S4x512x512 S4x512x256 S4x512x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .f32 = 32 ∨ (Rect.block (s := S256x1024) S256x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S16384x256.size a
  hwx0_9 : ∀ i : grid0.Coords, EltTy.bits .bf16 = 32 ∨ (Rect.block (s := S16384x256) S512x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S16384x256.size a
  hwx0_10 : ∀ i : grid0.Coords, EltTy.bits .bf16 = 32 ∨ (Rect.block (s := S16384x256) S512x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S16384x256.size a
  hwx0_11 : ∀ i : grid0.Coords, EltTy.bits .bf16 = 32 ∨ (Rect.block (s := S16384x256) S512x256.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x256.size a ≤ S4x4096x256.size a
  hwx1_0 : ∀ i : grid1.Coords, EltTy.bits .bf16 = 32 ∨ (Rect.block (s := S4x4096x256) S4x512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x256.size a ≤ S4x4096x256.size a
  hwx1_1 : ∀ i : grid1.Coords, EltTy.bits .bf16 = 32 ∨ (Rect.block (s := S4x4096x256) S4x512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512x256.size a ≤ S4x4096x256.size a
  hwx1_2 : ∀ i : grid1.Coords, EltTy.bits .bf16 = 32 ∨ (Rect.block (s := S4x4096x256) S4x512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x512x512.size a ≤ S4x4096x4096.size a
  hwx1_3 : ∀ i : grid1.Coords, EltTy.bits .i32 = 32 ∨ (Rect.block (s := S4x4096x4096) S4x512x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x512x256.size a ≤ S4x4096x256.size a
  hwx1_4 : ∀ i : grid1.Coords, EltTy.bits .f32 = 32 ∨ (Rect.block (s := S4x4096x256) S4x512x256.size (cc1_transform_4 i) (hinb1_4 i)).WholeWords (EltTy.packing .f32)

variable [Facts₀]

def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S4x512x256_S4x512x256_S4x512x512_2_2_1_1_0_0 : DotDims S4x512x256 S4x512x256 S4x512x512 where
  lhsContracting := [2]
  rhsContracting := [2]
  lhsNonContracting := [1]
  rhsNonContracting := [1]
  lhsBatch := [0]
  rhsBatch := [0]
  wf := dot_S4x512x256_S4x512x256_S4x512x512_2_2_1_1_0_0_wf
def dot_S4x512x512_S4x512x256_S4x512x256_2_1_1_2_0_0 : DotDims S4x512x512 S4x512x256 S4x512x256 where
  lhsContracting := [2]
  rhsContracting := [1]
  lhsNonContracting := [1]
  rhsNonContracting := [2]
  lhsBatch := [0]
  rhsBatch := [0]
  wf := dot_S4x512x512_S4x512x256_S4x512x256_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_0) S512x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_1) S512x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_2) S512x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v4) S4x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4x512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S4x512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S4x512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S4x4096x4096 : Shape := ⟨3, ![4, 4096, 4096]⟩
abbrev S256x1024 : Shape := ⟨2, ![256, 1024]⟩
abbrev S256 : Shape := ⟨1, ![256]⟩
abbrev S4x4096x256 : Shape := ⟨3, ![4, 4096, 256]⟩
abbrev S1x1x256 : Shape := ⟨3, ![1, 1, 256]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x4096, .i32⟩
  | .hbm, ⟨4, _⟩ => ⟨S256x1024, .f32⟩
  | .hbm, ⟨5, _⟩ => ⟨S256, .f32⟩
  | .hbm, ⟨6, _⟩ => ⟨S256x1024, .f32⟩
  | .hbm, ⟨7, _⟩ => ⟨S256, .f32⟩
  | .hbm, ⟨8, _⟩ => ⟨S256x1024, .f32⟩
  | .hbm, ⟨9, _⟩ => ⟨S256, .f32⟩
  | .hbm, ⟨10, _⟩ => ⟨S4x4096x256, .f32⟩
  | .hbm, ⟨11, _⟩ => ⟨S1x1x256, .f32⟩
  | .hbm, ⟨12, _⟩ => ⟨S4x4096x256, .f32⟩
  | .hbm, ⟨13, _⟩ => ⟨S4x4096x256, .f32⟩
  | .hbm, ⟨14, _⟩ => ⟨S4x4096x256, .f32⟩
  | .hbm, ⟨15, _⟩ => ⟨S1x1x256, .f32⟩
  | .hbm, ⟨16, _⟩ => ⟨S4x4096x256, .f32⟩
  | .hbm, ⟨17, _⟩ => ⟨S4x4096x256, .f32⟩
  | .hbm, ⟨18, _⟩ => ⟨S4x4096x256, .f32⟩
  | .hbm, ⟨19, _⟩ => ⟨S1x1x256, .f32⟩
  | .hbm, ⟨20, _⟩ => ⟨S4x4096x256, .f32⟩
  | .hbm, ⟨21, _⟩ => ⟨S4x4096x256, .f32⟩
  | .hbm, ⟨22, _⟩ => ⟨S4x4096x4096, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S_, .i32⟩
  | .hbm, ⟨27, _⟩ => ⟨S4x4096x4096, .i32⟩
  | .hbm, ⟨28, _⟩ => ⟨S4x4096x4096, .i1⟩
  | .hbm, ⟨29, _⟩ => ⟨S_, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S4x4096x4096, .f32⟩
  | .hbm, ⟨45, _⟩ => ⟨S4x4096x4096, .f32⟩
  | .hbm, ⟨46, _⟩ => ⟨S4x4096x256, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_call0_v0 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S256x1024_S4x4096x256_2_1_01_0_n_n_wf : DotDims.WF S4x4096x1024 S256x1024 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x1024_S256x1024_S4x4096x256_2_1_01_0_n_n : DotDims S4x4096x1024 S256x1024 S4x4096x256 where
  lhsContracting := [2]
  rhsContracting := [1]
  lhsNonContracting := [0, 1]
  rhsNonContracting := [0]
  lhsBatch := []
  rhsBatch := []
  wf := dot_S4x4096x1024_S256x1024_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.Region0.lean ====
import proofs.«133710_j6906307412546_2_alg».proof.Proof.Gen.KernelIdeal.Launch
import proofs.«133710_j6906307412546_2_alg».proof.Proof.Gen.KernelIdeal.Skeleton
import proofs.«133710_j6906307412546_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection region: what its body leaves, and the body obligation

The first TensorCore region of the program computes the three linear projections in one call.  Its grid
has 32 points; at point `t` the body reads rows `512 t … 512 t + 511` of each of the three reshaped
activations (windows 0, 1, 2), the three whole weight matrices (windows 3, 4, 5) and the three whole bias
vectors (windows 6, 7, 8), and writes rows `512 t … 512 t + 511` of the three projected arrays
(windows 9, 10, 11).  Each output block is one whole-block store of a pure function of three of the
loads: output 9 of windows 0, 3, 6; output 10 of windows 1, 4, 7; output 11 of windows 2, 5, 8.

Everything is stated at a parameter `V`, the TensorCore's buffer contents when the region is entered,
and at any float instance `F`.
-/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for any proof
    data whose array is `V`'s and whose body leaves the block in place: unfetched, the block index has not moved. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for any proof
    data whose array is `V`'s and whose body leaves the block in place: unfetched, the block index has not moved. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_0 : Rect S512x1024 := Rect.unit (s := S512x1024) ![0, 0] S512x1024.size inb_S512x1024_S512x1024_0_0
abbrev r0_1 : Rect S256x1024 := Rect.unit (s := S256x1024) ![0, 0] S256x1024.size inb_S256x1024_S256x1024_0_0
abbrev r0_2 : Rect S256 := Rect.unit (s := S256) ![0] S256.size inb_S256_S256_0
abbrev r0_3 : Rect S512x256 := Rect.unit (s := S512x256) ![0, 0] S512x256.size inb_S512x256_S512x256_0_0

/-! ## What the body leaves in each output window's buffer -/

/-- Window 9's staging buffer after the body: its one whole-block store, of the projection of the activation
    block `x0` by the weight `x3` and the bias `x6`. -/
def out0_9 (x0 : Vec F S512x1024 .f32) (x3 : Vec F S256x1024 .f32) (x6 : Vec F S256 .f32) : Vec F S512x256 .bf16 :=
  View.canon [⟨r0_3, k0_pay1 (View.ld x0 r0_0) (View.ld x3 r0_1) (View.ld x6 r0_2)⟩]

/-- The store is of the whole buffer, so it covers it. -/
theorem cover0_9 (p0 : Vec F S512x256 .bf16) (y : S512x256.Idx) :
    ∃ pc ∈ ([⟨r0_3, p0⟩] : List (View.Piece (Elt F) S512x256 .bf16)), y ∈ pc.1.set :=
  View.cover_of_tiled [⟨r0_3, p0⟩] S512x256.size (by rfl) y

/-- Window 10's staging buffer after the body: its one whole-block store, of the projection of the activation
    block `x1` by the weight `x4` and the bias `x7`. -/
def out0_10 (x1 : Vec F S512x1024 .f32) (x4 : Vec F S256x1024 .f32) (x7 : Vec F S256 .f32) : Vec F S512x256 .bf16 :=
  View.canon [⟨r0_3, k0_pay2 (View.ld x1 r0_0) (View.ld x4 r0_1) (View.ld x7 r0_2)⟩]

/-- The store is of the whole buffer, so it covers it. -/
theorem cover0_10 (p0 : Vec F S512x256 .bf16) (y : S512x256.Idx) :
    ∃ pc ∈ ([⟨r0_3, p0⟩] : List (View.Piece (Elt F) S512x256 .bf16)), y ∈ pc.1.set :=
  View.cover_of_tiled [⟨r0_3, p0⟩] S512x256.size (by rfl) y

/-- Window 11's staging buffer after the body: its one whole-block store, of the projection of the activation
    block `x2` by the weight `x5` and the bias `x8`. -/
def out0_11 (x2 : Vec F S512x1024 .f32) (x5 : Vec F S256x1024 .f32) (x8 : Vec F S256 .f32) : Vec F S512x256 .bf16 :=
  View.canon [⟨r0_3, k0_pay3 (View.ld x2 r0_0) (View.ld x5 r0_1) (View.ld x8 r0_2)⟩]

/-- The store is of the whole buffer, so it covers it. -/
theorem cover0_11 (p0 : Vec F S512x256 .bf16) (y : S512x256.Idx) :
    ∃ pc ∈ ([⟨r0_3, p0⟩] : List (View.Piece (Elt F) S512x256 .bf16)), y ∈ pc.1.set :=
  View.cover_of_tiled [⟨r0_3, p0⟩] S512x256.size (by rfl) y

/-! ## The body's triple -/

set_option maxHeartbeats 4000000 in
/-- The kernel body on whole staging memrefs, the inputs' at read contents `xW` and the outputs' at anything, runs to
    the continuation holding the inputs' as they were and each output's at `out0_W` of the inputs'.  The body loads
    each output buffer once before storing the whole of it; what that load reads is never used. -/
theorem sound_kernel0 (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole)
    (x0 : Vec F S512x1024 .f32) (x1 : Vec F S512x1024 .f32) (x2 : Vec F S512x1024 .f32) (x3 : Vec F S256x1024 .f32) (x4 : Vec F S256x1024 .f32) (x5 : Vec F S256x1024 .f32) (x6 : Vec F S256 .f32) (x7 : Vec F S256 .f32) (x8 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x3 x6) ∗ owns (c : Thread nD τ) arg11 fullShare (out0_10 x1 x4 x7) ∗ owns (c : Thread nD τ) arg12 fullShare (out0_11 x2 x5 x8)) -∗ K ⟨⟩))
      ⊢ wp frame (wpE (defs₀ (F := F)) Variants.none c none) E (cc0__project_qkv_kernel i arg1 harg1 arg2 harg2 arg3 harg3 arg4 harg4 arg5 harg5 arg6 harg6 arg7 harg7 arg8 harg8 arg9 harg9 arg10 harg10 arg11 harg11 arg12 harg12) K := by
  simp only [cc0__project_qkv_kernel_eq_skeleton]; unfold cc0__project_qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  isplitl [H10]
  · iexists _; isplitr
    swap; · iexact H10
    ipureintro
    try dsimp only
    exact View.read_writes_eq_canon _ _ _ (cover0_10 _)
  iexists _; isplitr
  swap; · iexact H11
  ipureintro
  try dsimp only
  exact View.read_writes_eq_canon _ _ _ (cover0_11 _)

/-! ## The pipeline's proof data -/

/-- The proof data of the projection pipeline on core `c`: the arrays as the region finds them (`V`); after the body at
    point `t` each input's buffer at its block and each output's at `out0_W` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 3 t) (iblk0 V c 6 t)
    | ⟨10, _⟩ => out0_10 (iblk0 V c 1 t) (iblk0 V c 4 t) (iblk0 V c 7 t)
    | ⟨11, _⟩ => out0_11 (iblk0 V c 2 t) (iblk0 V c 5 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 3 t) (iblk0 V c 6 t) := by dsimp only [dat0]
theorem after0_10 (c : Dev nD) (t : Fin cfg0.N) : (dat0 V c).after 10 t = out0_10 (iblk0 V c 1 t) (iblk0 V c 4 t) (iblk0 V c 7 t) := by dsimp only [dat0]
theorem after0_11 (c : Dev nD) (t : Fin cfg0.N) : (dat0 V c).after 11 t = out0_11 (iblk0 V c 2 t) (iblk0 V c 5 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Common.lean ====
/-
  The attention call (the second kernel region) at the contents `V` its region is entered with: each window's block
  at a grid point, the two conditions of the body in closed form over the grid (the key-block coordinate is 0; it is 7),
  where the output window is idle, the staging and scratch memrefs, and the region's class invariant with the three
  scratch buffers (running maximum, running sum, running weighted sum) taken out of the scoped rest.
-/
import proofs.«133710_j6906307412546_2_alg».proof.Proof.Gen.KernelIdeal.Launch
import proofs.«133710_j6906307412546_2_alg».proof.Proof.Gen.KernelIdeal.Skeleton
import proofs.«133710_j6906307412546_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first condition: the key-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second condition: the key-block coordinate is 7, the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At a first key block the output is not stored and not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- Nor at a middle key block. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At the last key block it is stored. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S4x512x256 .f32 := (Memref.whole cc1_stg4_0 : Memref sig .tc .vmem S4x512x256 .f32).view
abbrev ms1_0 (t : Fin cfg1.N) : Memref sig .tc .vmem S4x512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x512x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x512x256 .f32 := win1_4.stage (cfg1.slots t 4)
abbrev hs1_4 (t : Fin cfg1.N) : (ms1_4 t).IsWhole := hstage1_4 ((cfg1.slots t 4).cast nbuf1_4)
/-- The three scratch buffers: the running maximum, the running sum, the running weighted sum. -/
abbrev scM1_0 : Memref sig .tc .vmem S4x512x1 .f32 := Memref.whole cc1_scratch0
abbrev scM1_1 : Memref sig .tc .vmem S4x512x1 .f32 := Memref.whole cc1_scratch1
abbrev scM1_2 : Memref sig .tc .vmem S4x512x256 .f32 := Memref.whole cc1_scratch2
abbrev VS1_0 : View sig .tc .vmem S4x512x1 .f32 := scM1_0.view
abbrev VS1_1 : View sig .tc .vmem S4x512x1 .f32 := scM1_1.view
abbrev VS1_2 : View sig .tc .vmem S4x512x256 .f32 := scM1_2.view

/-- The scoped buffers of the core that are neither a staging buffer of this call nor one of its three scratch buffers:
    carried through the region unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three scratch buffers as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ restBut1 c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]; try rfl

end Cert.KernelIdeal.Hand

end
-- ==== Proof.Region1RunA.lean ====
/-
  The attention body at a first key block (the key-block coordinate is 0): the three scratch buffers are first
  stored whole — the running maximum at minus infinity, the running sum and the running weighted sum at zero —, then
  updated from those; the output buffer is left untouched.
-/
import proofs.«133710_j6906307412546_2_alg».proof.Proof.Region1Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three scratch buffers at a first key block, with the body's triple:
    whatever the scratch buffers held before. -/
noncomputable def kernelRun1_A (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) :
    Σ' (L4 : List (View.Piece (Elt F) S4x512x256 .f32)), Σ' (LS0 : List (View.Piece (Elt F) S4x512x1 .f32)), Σ' (LS1 : List (View.Piece (Elt F) S4x512x1 .f32)), { LS2 : List (View.Piece (Elt F) S4x512x256 .f32) //
      ∀ (xi4 : Vec F S4x512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9) K } := by
  refine ⟨[], ?_, ?_, ?_, fun xi4 E K => ?run⟩
  case run =>
    haveI : Fact (cond1_0 i) := ⟨hc0⟩
    haveI : Fact (¬cond1_1 i) := ⟨hc1⟩
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.Region1RunB.lean ====
/-
  The attention body at a middle key block (the key-block coordinate is neither 0 nor 7): from the four input blocks
  and the three scratch buffers at what the point before left, the body stores the new running sum, the new running
  weighted sum and the new running maximum, each over its whole buffer, and leaves the output buffer untouched.
-/
import proofs.«133710_j6906307412546_2_alg».proof.Proof.Region1Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three scratch buffers at a middle key block, with the body's triple:
    the inputs' buffers and the idle output's are handed back as found. -/
noncomputable def kernelRun1_B (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) :
    Σ' (L4 : List (View.Piece (Elt F) S4x512x256 .f32)), Σ' (LS0 : List (View.Piece (Elt F) S4x512x1 .f32)), Σ' (LS1 : List (View.Piece (Elt F) S4x512x1 .f32)), { LS2 : List (View.Piece (Elt F) S4x512x256 .f32) //
      ∀ (xi4 : Vec F S4x512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9) K } := by
  refine ⟨[], ?_, ?_, ?_, fun xi4 E K => ?run⟩
  case run =>
    haveI : Fact (¬cond1_0 i) := ⟨hc0⟩
    haveI : Fact (¬cond1_1 i) := ⟨hc1⟩
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.Region1RunC.lean ====
/-
  The attention body at the last key block (the key-block coordinate is 7): as at a middle block the three scratch
  buffers are updated from what the point before left; then the output block is stored, the running weighted sum
  divided by the running sum, over its whole buffer.
-/
import proofs.«133710_j6906307412546_2_alg».proof.Proof.Region1Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the three scratch buffers at the last key block,
    with the body's triple. -/
noncomputable def kernelRun1_C (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) :
    Σ' (L4 : List (View.Piece (Elt F) S4x512x256 .f32)), Σ' (LS0 : List (View.Piece (Elt F) S4x512x1 .f32)), Σ' (LS1 : List (View.Piece (Elt F) S4x512x1 .f32)), { LS2 : List (View.Piece (Elt F) S4x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9) K } := by
  refine ⟨?_, ?_, ?_, ?_, fun E K => ?run⟩
  case run =>
    haveI : Fact (¬cond1_0 i) := ⟨hc0⟩
    haveI : Fact (cond1_1 i) := ⟨hc1⟩
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.Region1Frame.lean ====
/-
  The attention call's proof data and body obligation, at the contents `V` its region is entered with.

  At every grid point (query block qi, key block ki) the body is in one of three cases — ki = 0, 0 < ki < 7, ki = 7 —
  and each case's run says which pieces its stores leave in the three scratch buffers (running maximum, running sum,
  running weighted sum) and, at ki = 7, in the output block.  `outsAt1` follows the grid in order: a case with ki > 0
  starts from what the point before left in the scratch buffers.  The region's invariant holds the scratch buffers at
  those contents between points; the output window is idle except at ki = 7, where its block is written back.
-/
import proofs.«133710_j6906307412546_2_alg».proof.Proof.Region1RunA
import proofs.«133710_j6906307412546_2_alg».proof.Proof.Region1RunB
import proofs.«133710_j6906307412546_2_alg».proof.Proof.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output buffer and the three scratch buffers, as one tuple. -/
abbrev Outs1 : Type := Vec F S4x512x256 .f32 × Vec F S4x512x1 .f32 × Vec F S4x512x1 .f32 × Vec F S4x512x256 .f32

/-! ## What each case leaves -/

/-- What case A leaves in the output buffer: its pieces read back (none: a placeholder nothing consults, the window being idle there). -/
def out1_A_4 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) : Vec F S4x512x256 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- Case A's stores into scratch 0 cover it. -/
theorem scover1_A_0 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) (y : S4x512x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S4x512x1.size (by sl_kernel_rfl) y

/-- What case A leaves in scratch 0. -/
def sout1_A_0 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) : Vec F S4x512x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- Case A's stores into scratch 1 cover it. -/
theorem scover1_A_1 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) (y : S4x512x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S4x512x1.size (by sl_kernel_rfl) y

/-- What case A leaves in scratch 1. -/
def sout1_A_1 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) : Vec F S4x512x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- Case A's stores into scratch 2 cover it. -/
theorem scover1_A_2 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) (y : S4x512x256.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S4x512x256.size (by sl_kernel_rfl) y

/-- What case A leaves in scratch 2. -/
def sout1_A_2 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) : Vec F S4x512x256 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- What case B leaves in the output buffer: its pieces read back (none: a placeholder nothing consults, the window being idle there). -/
def out1_B_4 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x256 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- Case B's stores into scratch 0 cover it. -/
theorem scover1_B_0 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) (y : S4x512x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S4x512x1.size (by sl_kernel_rfl) y

/-- What case B leaves in scratch 0. -/
def sout1_B_0 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- Case B's stores into scratch 1 cover it. -/
theorem scover1_B_1 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) (y : S4x512x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S4x512x1.size (by sl_kernel_rfl) y

/-- What case B leaves in scratch 1. -/
def sout1_B_1 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- Case B's stores into scratch 2 cover it. -/
theorem scover1_B_2 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) (y : S4x512x256.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S4x512x256.size (by sl_kernel_rfl) y

/-- What case B leaves in scratch 2. -/
def sout1_B_2 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x256 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- At the last key block the one store into the output buffer covers it. -/
theorem cover1_C_4 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) (y : S4x512x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S4x512x256.size (by sl_kernel_rfl) y

/-- What case C leaves in the output buffer: its pieces read back. -/
def out1_C_4 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x256 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- Case C's stores into scratch 0 cover it. -/
theorem scover1_C_0 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) (y : S4x512x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S4x512x1.size (by sl_kernel_rfl) y

/-- What case C leaves in scratch 0. -/
def sout1_C_0 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- Case C's stores into scratch 1 cover it. -/
theorem scover1_C_1 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) (y : S4x512x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S4x512x1.size (by sl_kernel_rfl) y

/-- What case C leaves in scratch 1. -/
def sout1_C_1 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- Case C's stores into scratch 2 cover it. -/
theorem scover1_C_2 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) (y : S4x512x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S4x512x256.size (by sl_kernel_rfl) y

/-- What case C leaves in scratch 2. -/
def sout1_C_2 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x256 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

/-- Case A at point `t`: what it leaves in the output buffer and in the three scratch buffers, from the point's input
    blocks. -/
def caseA (c : Dev nD) (t : Fin cfg1.N) (h0 : cond1_0 (grid1.coords t)) (h1 : ¬cond1_1 (grid1.coords t)) : Outs1 (F := F) :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t))

/-- Case B at point `t`: what it leaves in the output buffer and in the three scratch buffers, from the point's input
    blocks and what the scratch buffers held. -/
def caseB (c : Dev nD) (t : Fin cfg1.N) (h0 : ¬cond1_0 (grid1.coords t)) (h1 : ¬cond1_1 (grid1.coords t)) (xs0 : Vec F S4x512x1 .f32) (xs1 : Vec F S4x512x1 .f32) (xs2 : Vec F S4x512x256 .f32) : Outs1 (F := F) :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2)

/-- Case C at point `t`: what it leaves in the output buffer and in the three scratch buffers, from the point's input
    blocks and what the scratch buffers held. -/
def caseC (c : Dev nD) (t : Fin cfg1.N) (h0 : ¬cond1_0 (grid1.coords t)) (h1 : cond1_1 (grid1.coords t)) (xs0 : Vec F S4x512x1 .f32) (xs1 : Vec F S4x512x1 .f32) (xs2 : Vec F S4x512x256 .f32) : Outs1 (F := F) :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2)

/-! ## What the buffers hold after each point -/

/-- The accumulation over the grid in order: the case the closed forms select at position `n`, run at the point's
    memrefs and input blocks, from what position `n - 1` left in the scratch buffers. -/
def outsAt1 (c : Dev nD) : (n : ℕ) → n < cfg1.N → Outs1 (F := F)
  | 0, hn => caseA V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 8 = 0 then
      if h1 : (n + 1) % 8 = 7 then
        False.elim (by omega)
      else
        caseA V c ⟨n + 1, hn⟩ ((hcond1_0 ⟨n + 1, hn⟩).mpr h0) (fun h => h1 ((hcond1_1 ⟨n + 1, hn⟩).mp h))
    else
      if h1 : (n + 1) % 8 = 7 then
        caseC V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2.1 (outsAt1 c n (Nat.lt_of_succ_lt hn)).2.2.2
      else
        caseB V c ⟨n + 1, hn⟩ (fun h => h0 ((hcond1_0 ⟨n + 1, hn⟩).mp h)) (fun h => h1 ((hcond1_1 ⟨n + 1, hn⟩).mp h)) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 8 = 0) (h1 : ¬t.val % 8 = 7) :
    outsAt1 V c t.val t.isLt = caseA V c t ((hcond1_0 t).mpr h0) (fun h => h1 ((hcond1_1 t).mp h)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = caseB V c t (fun h => h0 ((hcond1_0 t).mp h)) (fun h => h1 ((hcond1_1 t).mp h)) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = caseC V c t (fun h => h0 ((hcond1_0 t).mp h)) ((hcond1_1 t).mpr h1) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the class invariant (every scratch buffer at anything); afterwards the three
    scratch buffers at what position `n - 1` left, the other scoped buffers and the generator register at anything. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ restBut1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ restBut1 c) ∗ (∃ r, prngReg c r)) := by
  cases n with
  | zero => exact absurd rfl hz
  | succ n => rfl

/-! ## The proof data -/

/-- The attention call's proof data on core `c`: the arrays as the region finds them; after the body at point `t` each
    input's buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the closed forms say which case the point is in; the
    invariant hands the body the scratch buffers at what the point before left (at anything at the very first point)
    and takes them back at this point's contents; the idle output's buffer goes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold caseA sout1_A_0 sout1_A_1 sout1_A_2; (try dsimp only)
      by_cases hz : t.val = 0
      ·
        rw [PhiS1_castSucc V c t, PhiS1_zero V c _ _ hz, PhiA1_eq]
        iintro ⟨⟨⟨⟨HS0, HS1, HS2⟩, Hrest⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _)
              · unfold owns; iexists _; isplitr
                swap; · iexact HS2
                ipureintro; exact View.read_writes_of_cover _ _ _ _ _ (scover1_A_2 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      ·
        rw [PhiS1_castSucc V c t, PhiS1_pos V c _ _ hz]
        iintro ⟨⟨⟨⟨HS0, HS1, HS2⟩, Hrest⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _)
              · unfold owns; iexists _; isplitr
                swap; · iexact HS2
                ipureintro; exact View.read_writes_of_cover _ _ _ _ _ (scover1_A_2 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold caseC out1_C_4 sout1_C_0 sout1_C_1 sout1_C_2; (try dsimp only)
      by_cases hz : t.val = 0
      · exfalso; omega
      ·
        rw [PhiS1_castSucc V c t, PhiS1_pos V c _ _ hz]
        iintro ⟨⟨⟨⟨HS0, HS1, HS2⟩, Hrest⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _ _ _ _)
              · unfold owns; iexists _; isplitr
                swap; · iexact HS2
                ipureintro; exact View.read_writes_of_cover _ _ _ _ _ (scover1_C_2 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold caseB sout1_B_0 sout1_B_1 sout1_B_2; (try dsimp only)
      by_cases hz : t.val = 0
      · exfalso; omega
      ·
        rw [PhiS1_castSucc V c t, PhiS1_pos V c _ _ hz]
        iintro ⟨⟨⟨⟨HS0, HS1, HS2⟩, Hrest⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _ _ _ _)
              · unfold owns; iexists _; isplitr
                swap; · iexact HS2
                ipureintro; exact View.read_writes_of_cover _ _ _ _ _ (scover1_B_2 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.KernelIdeal.Hand

end
-- ==== Proof.Launch.lean ====
/-
  The run of the whole program: three reshapes, the projection call, three reshapes, the attention call.

  The contents of the core's unscoped buffers at each boundary are a fold from the launch memory: a stretch of host
  operations applies them; a kernel region leaves each of its arrays at what its pipeline's write-backs leave and
  every other buffer as entered.  Each region is a segment entered from "every unscoped buffer at the boundary's
  contents" and left at the next boundary's; the library's launch over the four segments ends with every unscoped buffer
  at the last boundary's contents — the ten arguments walk back through the fold to the launch memory, and the
  result array is the attention call's output array.
-/
import proofs.«133710_j6906307412546_2_alg».proof.Proof.Region0
import proofs.«133710_j6906307412546_2_alg».proof.Proof.Region1Frame
import proofs.«133710_j6906307412546_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first three reshapes: the projection call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second three reshapes: the attention call's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention call's exit: the end. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 3).trans (((dat1 (V3 m ρ) c).arrAt_in 3 rfl _).trans (A_eq1 (V3 m ρ) c 3))
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 6).trans (((dat0 (V1 m ρ) c).arrAt_in 6 rfl _).trans (A_eq0 (V1 m ρ) c 6))
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 4).trans (((dat0 (V1 m ρ) c).arrAt_in 4 rfl _).trans (A_eq0 (V1 m ρ) c 4))
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := (W2_arr m ρ c 7).trans (((dat0 (V1 m ρ) c).arrAt_in 7 rfl _).trans (A_eq0 (V1 m ρ) c 7))
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := (W2_arr m ρ c 5).trans (((dat0 (V1 m ρ) c).arrAt_in 5 rfl _).trans (A_eq0 (V1 m ρ) c 5))
    _ = W0 m ρ c (Proc.devRef .tc main_arg8) := StableHlo.after_of_writes_sub hostOps0 _ hostOps0_writes (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := (W2_arr m ρ c 8).trans (((dat0 (V1 m ρ) c).arrAt_in 8 rfl _).trans (A_eq0 (V1 m ρ) c 8))
    _ = W0 m ρ c (Proc.devRef .tc main_arg9) := StableHlo.after_of_writes_sub hostOps0 _ hostOps0_writes (by decide)
    _ = m ((c : Thread nD τ).loc main_arg9) := rfl

/-- The result array at the end is what the attention call's pipeline leaves in its output array. -/
theorem W4_main_v7 (c : Dev nD) : W4 m ρ c (Proc.devRef .tc main_v7) = (dat1 (V3 m ρ) c).arrAt 4 cfg1.N :=
  W4_arr m ρ c 4

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at what the pipeline leaves; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the pipeline leaves; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (V3 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ (Pipeline.ΦA spec1 c : sProp 𝕄) := hout1 (V3 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

end Cert.KernelIdeal.Hand

end
-- ==== Proof.KRegion0.lean ====
import proofs.«133710_j6906307412546_2_alg».proof.Proof.Gen.Kernel.Launch
import proofs.«133710_j6906307412546_2_alg».proof.Proof.Gen.Kernel.Skeleton
import proofs.«133710_j6906307412546_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection region: what its body leaves, and the body obligation

The first TensorCore region of the program computes the three linear projections in one call.  Its grid
has 32 points; at point `t` the body reads rows `512 t … 512 t + 511` of each of the three reshaped
activations (windows 0, 1, 2), the three whole weight matrices (windows 3, 4, 5) and the three whole bias
vectors (windows 6, 7, 8), and writes rows `512 t … 512 t + 511` of the three projected arrays
(windows 9, 10, 11).  Each output block is one whole-block store of a pure function of three of the
loads: output 9 of windows 0, 3, 6; output 10 of windows 1, 4, 7; output 11 of windows 2, 5, 8.

Everything is stated at a parameter `V`, the TensorCore's buffer contents when the region is entered,
and at any float instance `F`.
-/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for any proof
    data whose array is `V`'s and whose body leaves the block in place: unfetched, the block index has not moved. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for any proof
    data whose array is `V`'s and whose body leaves the block in place: unfetched, the block index has not moved. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_0 : Rect S512x1024 := Rect.unit (s := S512x1024) ![0, 0] S512x1024.size inb_S512x1024_S512x1024_0_0
abbrev r0_1 : Rect S256x1024 := Rect.unit (s := S256x1024) ![0, 0] S256x1024.size inb_S256x1024_S256x1024_0_0
abbrev r0_2 : Rect S256 := Rect.unit (s := S256) ![0] S256.size inb_S256_S256_0
abbrev r0_3 : Rect S512x256 := Rect.unit (s := S512x256) ![0, 0] S512x256.size inb_S512x256_S512x256_0_0

/-! ## What the body leaves in each output window's buffer -/

/-- Window 9's staging buffer after the body: its one whole-block store, of the projection of the activation
    block `x0` by the weight `x3` and the bias `x6`. -/
def out0_9 (x0 : Vec F S512x1024 .f32) (x3 : Vec F S256x1024 .f32) (x6 : Vec F S256 .f32) : Vec F S512x256 .bf16 :=
  View.canon [⟨r0_3, k0_pay1 (View.ld x0 r0_0) (View.ld x3 r0_1) (View.ld x6 r0_2)⟩]

/-- The store is of the whole buffer, so it covers it. -/
theorem cover0_9 (p0 : Vec F S512x256 .bf16) (y : S512x256.Idx) :
    ∃ pc ∈ ([⟨r0_3, p0⟩] : List (View.Piece (Elt F) S512x256 .bf16)), y ∈ pc.1.set :=
  View.cover_of_tiled [⟨r0_3, p0⟩] S512x256.size (by rfl) y

/-- Window 10's staging buffer after the body: its one whole-block store, of the projection of the activation
    block `x1` by the weight `x4` and the bias `x7`. -/
def out0_10 (x1 : Vec F S512x1024 .f32) (x4 : Vec F S256x1024 .f32) (x7 : Vec F S256 .f32) : Vec F S512x256 .bf16 :=
  View.canon [⟨r0_3, k0_pay2 (View.ld x1 r0_0) (View.ld x4 r0_1) (View.ld x7 r0_2)⟩]

/-- The store is of the whole buffer, so it covers it. -/
theorem cover0_10 (p0 : Vec F S512x256 .bf16) (y : S512x256.Idx) :
    ∃ pc ∈ ([⟨r0_3, p0⟩] : List (View.Piece (Elt F) S512x256 .bf16)), y ∈ pc.1.set :=
  View.cover_of_tiled [⟨r0_3, p0⟩] S512x256.size (by rfl) y

/-- Window 11's staging buffer after the body: its one whole-block store, of the projection of the activation
    block `x2` by the weight `x5` and the bias `x8`. -/
def out0_11 (x2 : Vec F S512x1024 .f32) (x5 : Vec F S256x1024 .f32) (x8 : Vec F S256 .f32) : Vec F S512x256 .bf16 :=
  View.canon [⟨r0_3, k0_pay3 (View.ld x2 r0_0) (View.ld x5 r0_1) (View.ld x8 r0_2)⟩]

/-- The store is of the whole buffer, so it covers it. -/
theorem cover0_11 (p0 : Vec F S512x256 .bf16) (y : S512x256.Idx) :
    ∃ pc ∈ ([⟨r0_3, p0⟩] : List (View.Piece (Elt F) S512x256 .bf16)), y ∈ pc.1.set :=
  View.cover_of_tiled [⟨r0_3, p0⟩] S512x256.size (by rfl) y

/-! ## The body's triple -/

set_option maxHeartbeats 4000000 in
/-- The kernel body on whole staging memrefs, the inputs' at read contents `xW` and the outputs' at anything, runs to
    the continuation holding the inputs' as they were and each output's at `out0_W` of the inputs'.  The body loads
    each output buffer once before storing the whole of it; what that load reads is never used. -/
theorem sound_kernel0 (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole)
    (x0 : Vec F S512x1024 .f32) (x1 : Vec F S512x1024 .f32) (x2 : Vec F S512x1024 .f32) (x3 : Vec F S256x1024 .f32) (x4 : Vec F S256x1024 .f32) (x5 : Vec F S256x1024 .f32) (x6 : Vec F S256 .f32) (x7 : Vec F S256 .f32) (x8 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x3 x6) ∗ owns (c : Thread nD τ) arg11 fullShare (out0_10 x1 x4 x7) ∗ owns (c : Thread nD τ) arg12 fullShare (out0_11 x2 x5 x8)) -∗ K ⟨⟩))
      ⊢ wp frame (wpE (defs₀ (F := F)) Variants.none c none) E (cc0__project_qkv_kernel i arg1 harg1 arg2 harg2 arg3 harg3 arg4 harg4 arg5 harg5 arg6 harg6 arg7 harg7 arg8 harg8 arg9 harg9 arg10 harg10 arg11 harg11 arg12 harg12) K := by
  simp only [cc0__project_qkv_kernel_eq_skeleton]; unfold cc0__project_qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  isplitl [H10]
  · iexists _; isplitr
    swap; · iexact H10
    ipureintro
    try dsimp only
    exact View.read_writes_eq_canon _ _ _ (cover0_10 _)
  iexists _; isplitr
  swap; · iexact H11
  ipureintro
  try dsimp only
  exact View.read_writes_eq_canon _ _ _ (cover0_11 _)

/-! ## The pipeline's proof data -/

/-- The proof data of the projection pipeline on core `c`: the arrays as the region finds them (`V`); after the body at
    point `t` each input's buffer at its block and each output's at `out0_W` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 3 t) (iblk0 V c 6 t)
    | ⟨10, _⟩ => out0_10 (iblk0 V c 1 t) (iblk0 V c 4 t) (iblk0 V c 7 t)
    | ⟨11, _⟩ => out0_11 (iblk0 V c 2 t) (iblk0 V c 5 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 3 t) (iblk0 V c 6 t) := by dsimp only [dat0]
theorem after0_10 (c : Dev nD) (t : Fin cfg0.N) : (dat0 V c).after 10 t = out0_10 (iblk0 V c 1 t) (iblk0 V c 4 t) (iblk0 V c 7 t) := by dsimp only [dat0]
theorem after0_11 (c : Dev nD) (t : Fin cfg0.N) : (dat0 V c).after 11 t = out0_11 (iblk0 V c 2 t) (iblk0 V c 5 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Common.lean ====
/-
  The attention call (the second kernel region) at the contents `V` its region is entered with: each window's block
  at a grid point, the two conditions of the body in closed form over the grid (the key-block coordinate is 0; it is 7),
  where the output window is idle, the staging and scratch memrefs, and the region's class invariant with the three
  scratch buffers (running maximum, running sum, running weighted sum) taken out of the scoped rest.
-/
import proofs.«133710_j6906307412546_2_alg».proof.Proof.Gen.Kernel.Launch
import proofs.«133710_j6906307412546_2_alg».proof.Proof.Gen.Kernel.Skeleton
import proofs.«133710_j6906307412546_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first condition: the key-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second condition: the key-block coordinate is 7, the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At a first key block the output is not stored and not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- Nor at a middle key block. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At the last key block it is stored. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S4x512x256 .f32 := (Memref.whole cc1_stg4_0 : Memref sig .tc .vmem S4x512x256 .f32).view
abbrev ms1_0 (t : Fin cfg1.N) : Memref sig .tc .vmem S4x512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x512x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x512x256 .f32 := win1_4.stage (cfg1.slots t 4)
abbrev hs1_4 (t : Fin cfg1.N) : (ms1_4 t).IsWhole := hstage1_4 ((cfg1.slots t 4).cast nbuf1_4)
/-- The three scratch buffers: the running maximum, the running sum, the running weighted sum. -/
abbrev scM1_0 : Memref sig .tc .vmem S4x512x1 .f32 := Memref.whole cc1_scratch0
abbrev scM1_1 : Memref sig .tc .vmem S4x512x1 .f32 := Memref.whole cc1_scratch1
abbrev scM1_2 : Memref sig .tc .vmem S4x512x256 .f32 := Memref.whole cc1_scratch2
abbrev VS1_0 : View sig .tc .vmem S4x512x1 .f32 := scM1_0.view
abbrev VS1_1 : View sig .tc .vmem S4x512x1 .f32 := scM1_1.view
abbrev VS1_2 : View sig .tc .vmem S4x512x256 .f32 := scM1_2.view

/-- The scoped buffers of the core that are neither a staging buffer of this call nor one of its three scratch buffers:
    carried through the region unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three scratch buffers as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ restBut1 c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]; try rfl

end Cert.Kernel.Hand

end
-- ==== Proof.KRegion1RunA.lean ====
/-
  The attention body at a first key block (the key-block coordinate is 0): the three scratch buffers are first
  stored whole — the running maximum at minus infinity, the running sum and the running weighted sum at zero —, then
  updated from those; the output buffer is left untouched.
-/
import proofs.«133710_j6906307412546_2_alg».proof.Proof.KRegion1Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three scratch buffers at a first key block, with the body's triple:
    whatever the scratch buffers held before. -/
noncomputable def kernelRun1_A (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) :
    Σ' (L4 : List (View.Piece (Elt F) S4x512x256 .f32)), Σ' (LS0 : List (View.Piece (Elt F) S4x512x1 .f32)), Σ' (LS1 : List (View.Piece (Elt F) S4x512x1 .f32)), { LS2 : List (View.Piece (Elt F) S4x512x256 .f32) //
      ∀ (xi4 : Vec F S4x512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9) K } := by
  refine ⟨[], ?_, ?_, ?_, fun xi4 E K => ?run⟩
  case run =>
    haveI : Fact (cond1_0 i) := ⟨hc0⟩
    haveI : Fact (¬cond1_1 i) := ⟨hc1⟩
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.KRegion1RunB.lean ====
/-
  The attention body at a middle key block (the key-block coordinate is neither 0 nor 7): from the four input blocks
  and the three scratch buffers at what the point before left, the body stores the new running sum, the new running
  weighted sum and the new running maximum, each over its whole buffer, and leaves the output buffer untouched.
-/
import proofs.«133710_j6906307412546_2_alg».proof.Proof.KRegion1Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three scratch buffers at a middle key block, with the body's triple:
    the inputs' buffers and the idle output's are handed back as found. -/
noncomputable def kernelRun1_B (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) :
    Σ' (L4 : List (View.Piece (Elt F) S4x512x256 .f32)), Σ' (LS0 : List (View.Piece (Elt F) S4x512x1 .f32)), Σ' (LS1 : List (View.Piece (Elt F) S4x512x1 .f32)), { LS2 : List (View.Piece (Elt F) S4x512x256 .f32) //
      ∀ (xi4 : Vec F S4x512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9) K } := by
  refine ⟨[], ?_, ?_, ?_, fun xi4 E K => ?run⟩
  case run =>
    haveI : Fact (¬cond1_0 i) := ⟨hc0⟩
    haveI : Fact (¬cond1_1 i) := ⟨hc1⟩
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.KRegion1RunC.lean ====
/-
  The attention body at the last key block (the key-block coordinate is 7): as at a middle block the three scratch
  buffers are updated from what the point before left; then the output block is stored, the running weighted sum
  divided by the running sum, over its whole buffer.
-/
import proofs.«133710_j6906307412546_2_alg».proof.Proof.KRegion1Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the three scratch buffers at the last key block,
    with the body's triple. -/
noncomputable def kernelRun1_C (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) :
    Σ' (L4 : List (View.Piece (Elt F) S4x512x256 .f32)), Σ' (LS0 : List (View.Piece (Elt F) S4x512x1 .f32)), Σ' (LS1 : List (View.Piece (Elt F) S4x512x1 .f32)), { LS2 : List (View.Piece (Elt F) S4x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg2 harg2 arg3 harg3 arg4 harg4 arg5 harg5 arg6 harg6 arg7 harg7 arg8 harg8 arg9 harg9) K } := by
  refine ⟨?_, ?_, ?_, ?_, fun E K => ?run⟩
  case run =>
    haveI : Fact (¬cond1_0 i) := ⟨hc0⟩
    haveI : Fact (cond1_1 i) := ⟨hc1⟩
    simp only [cc1_attn_kernel_eq_skeleton]; unfold cc1_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.KRegion1Frame.lean ====
/-
  The attention call's proof data and body obligation, at the contents `V` its region is entered with.

  At every grid point (query block qi, key block ki) the body is in one of three cases — ki = 0, 0 < ki < 7, ki = 7 —
  and each case's run says which pieces its stores leave in the three scratch buffers (running maximum, running sum,
  running weighted sum) and, at ki = 7, in the output block.  `outsAt1` follows the grid in order: a case with ki > 0
  starts from what the point before left in the scratch buffers.  The region's invariant holds the scratch buffers at
  those contents between points; the output window is idle except at ki = 7, where its block is written back.
-/
import proofs.«133710_j6906307412546_2_alg».proof.Proof.KRegion1RunA
import proofs.«133710_j6906307412546_2_alg».proof.Proof.KRegion1RunB
import proofs.«133710_j6906307412546_2_alg».proof.Proof.KRegion1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output buffer and the three scratch buffers, as one tuple. -/
abbrev Outs1 : Type := Vec F S4x512x256 .f32 × Vec F S4x512x1 .f32 × Vec F S4x512x1 .f32 × Vec F S4x512x256 .f32

/-! ## What each case leaves -/

/-- What case A leaves in the output buffer: its pieces read back (none: a placeholder nothing consults, the window being idle there). -/
def out1_A_4 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) : Vec F S4x512x256 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- Case A's stores into scratch 0 cover it. -/
theorem scover1_A_0 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) (y : S4x512x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S4x512x1.size (by sl_kernel_rfl) y

/-- What case A leaves in scratch 0. -/
def sout1_A_0 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) : Vec F S4x512x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- Case A's stores into scratch 1 cover it. -/
theorem scover1_A_1 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) (y : S4x512x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S4x512x1.size (by sl_kernel_rfl) y

/-- What case A leaves in scratch 1. -/
def sout1_A_1 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) : Vec F S4x512x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- Case A's stores into scratch 2 cover it. -/
theorem scover1_A_2 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) (y : S4x512x256.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S4x512x256.size (by sl_kernel_rfl) y

/-- What case A leaves in scratch 2. -/
def sout1_A_2 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) : Vec F S4x512x256 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- What case B leaves in the output buffer: its pieces read back (none: a placeholder nothing consults, the window being idle there). -/
def out1_B_4 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x256 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- Case B's stores into scratch 0 cover it. -/
theorem scover1_B_0 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) (y : S4x512x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S4x512x1.size (by sl_kernel_rfl) y

/-- What case B leaves in scratch 0. -/
def sout1_B_0 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- Case B's stores into scratch 1 cover it. -/
theorem scover1_B_1 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) (y : S4x512x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S4x512x1.size (by sl_kernel_rfl) y

/-- What case B leaves in scratch 1. -/
def sout1_B_1 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- Case B's stores into scratch 2 cover it. -/
theorem scover1_B_2 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) (y : S4x512x256.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S4x512x256.size (by sl_kernel_rfl) y

/-- What case B leaves in scratch 2. -/
def sout1_B_2 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x256 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- At the last key block the one store into the output buffer covers it. -/
theorem cover1_C_4 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) (y : S4x512x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S4x512x256.size (by sl_kernel_rfl) y

/-- What case C leaves in the output buffer: its pieces read back. -/
def out1_C_4 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x256 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- Case C's stores into scratch 0 cover it. -/
theorem scover1_C_0 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) (y : S4x512x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S4x512x1.size (by sl_kernel_rfl) y

/-- What case C leaves in scratch 0. -/
def sout1_C_0 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- Case C's stores into scratch 1 cover it. -/
theorem scover1_C_1 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) (y : S4x512x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S4x512x1.size (by sl_kernel_rfl) y

/-- What case C leaves in scratch 1. -/
def sout1_C_1 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- Case C's stores into scratch 2 cover it. -/
theorem scover1_C_2 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) (y : S4x512x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S4x512x256.size (by sl_kernel_rfl) y

/-- What case C leaves in scratch 2. -/
def sout1_C_2 (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) : Vec F S4x512x256 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

/-- Case A at point `t`: what it leaves in the output buffer and in the three scratch buffers, from the point's input
    blocks. -/
def caseA (c : Dev nD) (t : Fin cfg1.N) (h0 : cond1_0 (grid1.coords t)) (h1 : ¬cond1_1 (grid1.coords t)) : Outs1 (F := F) :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t))

/-- Case B at point `t`: what it leaves in the output buffer and in the three scratch buffers, from the point's input
    blocks and what the scratch buffers held. -/
def caseB (c : Dev nD) (t : Fin cfg1.N) (h0 : ¬cond1_0 (grid1.coords t)) (h1 : ¬cond1_1 (grid1.coords t)) (xs0 : Vec F S4x512x1 .f32) (xs1 : Vec F S4x512x1 .f32) (xs2 : Vec F S4x512x256 .f32) : Outs1 (F := F) :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2)

/-- Case C at point `t`: what it leaves in the output buffer and in the three scratch buffers, from the point's input
    blocks and what the scratch buffers held. -/
def caseC (c : Dev nD) (t : Fin cfg1.N) (h0 : ¬cond1_0 (grid1.coords t)) (h1 : cond1_1 (grid1.coords t)) (xs0 : Vec F S4x512x1 .f32) (xs1 : Vec F S4x512x1 .f32) (xs2 : Vec F S4x512x256 .f32) : Outs1 (F := F) :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) h0 h1 (iblk1 V c 0 t) (iblk1 V c 1 t) (iblk1 V c 2 t) (iblk1 V c 3 t) xs0 xs1 xs2)

/-! ## What the buffers hold after each point -/

/-- The accumulation over the grid in order: the case the closed forms select at position `n`, run at the point's
    memrefs and input blocks, from what position `n - 1` left in the scratch buffers. -/
def outsAt1 (c : Dev nD) : (n : ℕ) → n < cfg1.N → Outs1 (F := F)
  | 0, hn => caseA V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 8 = 0 then
      if h1 : (n + 1) % 8 = 7 then
        False.elim (by omega)
      else
        caseA V c ⟨n + 1, hn⟩ ((hcond1_0 ⟨n + 1, hn⟩).mpr h0) (fun h => h1 ((hcond1_1 ⟨n + 1, hn⟩).mp h))
    else
      if h1 : (n + 1) % 8 = 7 then
        caseC V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2.1 (outsAt1 c n (Nat.lt_of_succ_lt hn)).2.2.2
      else
        caseB V c ⟨n + 1, hn⟩ (fun h => h0 ((hcond1_0 ⟨n + 1, hn⟩).mp h)) (fun h => h1 ((hcond1_1 ⟨n + 1, hn⟩).mp h)) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 8 = 0) (h1 : ¬t.val % 8 = 7) :
    outsAt1 V c t.val t.isLt = caseA V c t ((hcond1_0 t).mpr h0) (fun h => h1 ((hcond1_1 t).mp h)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = caseB V c t (fun h => h0 ((hcond1_0 t).mp h)) (fun h => h1 ((hcond1_1 t).mp h)) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = caseC V c t (fun h => h0 ((hcond1_0 t).mp h)) ((hcond1_1 t).mpr h1) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the class invariant (every scratch buffer at anything); afterwards the three
    scratch buffers at what position `n - 1` left, the other scoped buffers and the generator register at anything. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ restBut1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ restBut1 c) ∗ (∃ r, prngReg c r)) := by
  cases n with
  | zero => exact absurd rfl hz
  | succ n => rfl

/-! ## The proof data -/

/-- The attention call's proof data on core `c`: the arrays as the region finds them; after the body at point `t` each
    input's buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the closed forms say which case the point is in; the
    invariant hands the body the scratch buffers at what the point before left (at anything at the very first point)
    and takes them back at this point's contents; the idle output's buffer goes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold caseA sout1_A_0 sout1_A_1 sout1_A_2; (try dsimp only)
      by_cases hz : t.val = 0
      ·
        rw [PhiS1_castSucc V c t, PhiS1_zero V c _ _ hz, PhiA1_eq]
        iintro ⟨⟨⟨⟨HS0, HS1, HS2⟩, Hrest⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _)
              · unfold owns; iexists _; isplitr
                swap; · iexact HS2
                ipureintro; exact View.read_writes_of_cover _ _ _ _ _ (scover1_A_2 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      ·
        rw [PhiS1_castSucc V c t, PhiS1_pos V c _ _ hz]
        iintro ⟨⟨⟨⟨HS0, HS1, HS2⟩, Hrest⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _)
              · unfold owns; iexists _; isplitr
                swap; · iexact HS2
                ipureintro; exact View.read_writes_of_cover _ _ _ _ _ (scover1_A_2 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold caseC out1_C_4 sout1_C_0 sout1_C_1 sout1_C_2; (try dsimp only)
      by_cases hz : t.val = 0
      · exfalso; omega
      ·
        rw [PhiS1_castSucc V c t, PhiS1_pos V c _ _ hz]
        iintro ⟨⟨⟨⟨HS0, HS1, HS2⟩, Hrest⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _ _ _ _)
              · unfold owns; iexists _; isplitr
                swap; · iexact HS2
                ipureintro; exact View.read_writes_of_cover _ _ _ _ _ (scover1_C_2 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold caseB sout1_B_0 sout1_B_1 sout1_B_2; (try dsimp only)
      by_cases hz : t.val = 0
      · exfalso; omega
      ·
        rw [PhiS1_castSucc V c t, PhiS1_pos V c _ _ hz]
        iintro ⟨⟨⟨⟨HS0, HS1, HS2⟩, Hrest⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _ _ _ _)
              · unfold owns; iexists _; isplitr
                swap; · iexact HS2
                ipureintro; exact View.read_writes_of_cover _ _ _ _ _ (scover1_B_2 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.Kernel.Hand

end
-- ==== Proof.KLaunch.lean ====
/-
  The run of the whole program: three reshapes, the projection call, three reshapes, the attention call.

  The contents of the core's unscoped buffers at each boundary are a fold from the launch memory: a stretch of host
  operations applies them; a kernel region leaves each of its arrays at what its pipeline's write-backs leave and
  every other buffer as entered.  Each region is a segment entered from "every unscoped buffer at the boundary's
  contents" and left at the next boundary's; the library's launch over the four segments ends with every unscoped buffer
  at the last boundary's contents — the ten arguments walk back through the fold to the launch memory, and the
  result array is the attention call's output array.
-/
import proofs.«133710_j6906307412546_2_alg».proof.Proof.KRegion0
import proofs.«133710_j6906307412546_2_alg».proof.Proof.KRegion1Frame
import proofs.«133710_j6906307412546_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first three reshapes: the projection call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second three reshapes: the attention call's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention call's exit: the end. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 3).trans (((dat1 (V3 m ρ) c).arrAt_in 3 rfl _).trans (A_eq1 (V3 m ρ) c 3))
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 6).trans (((dat0 (V1 m ρ) c).arrAt_in 6 rfl _).trans (A_eq0 (V1 m ρ) c 6))
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 4).trans (((dat0 (V1 m ρ) c).arrAt_in 4 rfl _).trans (A_eq0 (V1 m ρ) c 4))
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := (W2_arr m ρ c 7).trans (((dat0 (V1 m ρ) c).arrAt_in 7 rfl _).trans (A_eq0 (V1 m ρ) c 7))
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := (W2_arr m ρ c 5).trans (((dat0 (V1 m ρ) c).arrAt_in 5 rfl _).trans (A_eq0 (V1 m ρ) c 5))
    _ = W0 m ρ c (Proc.devRef .tc main_arg8) := StableHlo.after_of_writes_sub hostOps0 _ hostOps0_writes (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := (W2_arr m ρ c 8).trans (((dat0 (V1 m ρ) c).arrAt_in 8 rfl _).trans (A_eq0 (V1 m ρ) c 8))
    _ = W0 m ρ c (Proc.devRef .tc main_arg9) := StableHlo.after_of_writes_sub hostOps0 _ hostOps0_writes (by decide)
    _ = m ((c : Thread nD τ).loc main_arg9) := rfl

/-- The result array at the end is what the attention call's pipeline leaves in its output array. -/
theorem W4_main_v7 (c : Dev nD) : W4 m ρ c (Proc.devRef .tc main_v7) = (dat1 (V3 m ρ) c).arrAt 4 cfg1.N :=
  W4_arr m ρ c 4

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at what the pipeline leaves; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the pipeline leaves; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (V3 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ (Pipeline.ΦA spec1 c : sProp 𝕄) := hout1 (V3 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

end Cert.Kernel.Hand

end
-- ==== Proof.Region1Update.lean ====
/-
  One grid point of the attention body as four functions of whole blocks: from the query block, the key block, the
  value block, the mask block and the running maximum, sum and weighted sum, the new running maximum, the new running
  sum, the new running weighted sum; and the output block from the last two.  They are the body's store payloads composed
  as the body composes them.
-/
import proofs.«133710_j6906307412546_2_alg».proof.Proof.Gen.KernelIdeal.Skeleton

noncomputable section

namespace Cert.KernelIdeal.Hand

open Cert.KernelIdeal Cert.KernelIdeal.Gen Idealize.ShloMosaic Idealize.SL.Sem

variable {F : FTy → Type} [FloatOps F]

/-- The new running maximum: the old one joined with the block's row maxima of the masked, scaled scores. -/
def mNew (x0 x1 : Vec F S4x512x256 .bf16) (x3 : Vec F S4x512x512 .i32) (m0 : Vec F S4x512x1 .f32) : Vec F S4x512x1 .f32 :=
  k1_pay3 (k1_pay10 x0 x1 x3 m0)

/-- The new running sum: the old one rescaled, plus the block's row sums of the exponentials. -/
def lNew (x0 x1 : Vec F S4x512x256 .bf16) (x3 : Vec F S4x512x512 .i32) (m0 l0 : Vec F S4x512x1 .f32) : Vec F S4x512x1 .f32 :=
  k1_pay1 (k1_pay12 x0 x1 x3 m0) (k1_pay13 x0 x1 x3 m0 m0 l0)

/-- The new running weighted sum: the old one rescaled, plus the block's exponentials times the value rows. -/
def aNew (x0 x1 x2 : Vec F S4x512x256 .bf16) (x3 : Vec F S4x512x512 .i32) (m0 : Vec F S4x512x1 .f32) (a0 : Vec F S4x512x256 .f32) :
    Vec F S4x512x256 .f32 :=
  k1_pay2 (k1_pay8 x2) (k1_pay11 x0 x1 x3 m0 m0) (k1_pay12 x0 x1 x3 m0) a0

/-- The output block: the weighted sum divided by the sum, row by row. -/
def oNew (a : Vec F S4x512x256 .f32) (l : Vec F S4x512x1 .f32) : Vec F S4x512x256 .f32 :=
  k1_pay4 a l

end Cert.KernelIdeal.Hand

end
-- ==== Proof.Region1Pieces.lean ====
/-
  What each case of the attention body leaves, as values: the new running maximum, sum and weighted sum are the
  update functions of the point's blocks and of what the scratch buffers held (at a first key block: of the freshly
  stored minus infinity, zero and zero), and at the last key block the output block is the new weighted sum divided by
  the new sum.  Each buffer is stored whole, so what it holds is its last store's payload, and a load after a whole
  store reads that store's payload.
-/
import proofs.«133710_j6906307412546_2_alg».proof.Proof.Region1Frame
import proofs.«133710_j6906307412546_2_alg».proof.Proof.Region1Update
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

theorem sout1_A_0_eq (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) :
    sout1_A_0 c i arg2 harg2 arg3 harg3 arg4 harg4 arg5 harg5 arg6 harg6 arg7 harg7 arg8 harg8 arg9 harg9 hc0 hc1 x0 x1 x2 x3 = mNew x0 x1 x3 k1_pay5 := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S4x512x1) hz3]
  unfold mNew
  simp only [View.readAt_eq_ld, harg2.read_unread, harg3.read_unread, harg4.read_unread, harg5.read_unread, harg6.read_unread, harg7.read_unread, harg8.read_unread, harg9.read_unread, View.ld_unit_zero (S := S4x512x256) hz3, View.ld_unit_zero (S := S4x512x1) hz3, View.ld_unit_zero (S := S4x512x512) hz3, View.readCov_cons_toLoadRect]

theorem sout1_A_1_eq (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) :
    sout1_A_1 c i arg2 harg2 arg3 harg3 arg4 harg4 arg5 harg5 arg6 harg6 arg7 harg7 arg8 harg8 arg9 harg9 hc0 hc1 x0 x1 x2 x3 = lNew x0 x1 x3 k1_pay5 k1_pay6 := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S4x512x1) hz3]
  unfold lNew
  simp only [View.readAt_eq_ld, harg2.read_unread, harg3.read_unread, harg4.read_unread, harg5.read_unread, harg6.read_unread, harg7.read_unread, harg8.read_unread, harg9.read_unread, View.ld_unit_zero (S := S4x512x256) hz3, View.ld_unit_zero (S := S4x512x1) hz3, View.ld_unit_zero (S := S4x512x512) hz3, View.readCov_cons_toLoadRect]

theorem sout1_A_2_eq (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : cond1_0 i) (hc1 : ¬cond1_1 i)
    (x0 : Vec F S4x512x256 .bf16) (x1 : Vec F S4x512x256 .bf16) (x2 : Vec F S4x512x256 .bf16) (x3 : Vec F S4x512x512 .i32) :
    sout1_A_2 c i arg2 harg2 arg3 harg3 arg4 harg4 arg5 harg5 arg6 harg6 arg7 harg7 arg8 harg8 arg9 harg9 hc0 hc1 x0 x1 x2 x3 = aNew x0 x1 x2 x3 k1_pay5 k1_pay7 := by
  unfold sout1_A_2
  rw [View.read_writes_eq_canon _ _ _ (scover1_A_2 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S4x512x256) hz3]
  unfold aNew
  simp only [View.readAt_eq_ld, harg2.read_unread, harg3.read_unread, harg4.read_unread, harg5.read_unread, harg6.read_unread, harg7.read_unread, harg8.read_unread, harg9.read_unread, View.ld_unit_zero (S := S4x512x256) hz3, View.ld_unit_zero (S := S4x512x1) hz3, View.ld_unit_zero (S := S4x512x512) hz3, View.readCov_cons_toLoadRect]

theorem sout1_B_0_eq (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) :
    sout1_B_0 c i arg2 harg2 arg3 harg3 arg4 harg4 arg5 harg5 arg6 harg6 arg7 harg7 arg8 harg8 arg9 harg9 hc0 hc1 x0 x1 x2 x3 xs0 xs1 xs2 = mNew x0 x1 x3 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero hz3]
  unfold mNew
  simp only [View.readAt_eq_ld, harg2.read_unread, harg3.read_unread, harg4.read_unread, harg5.read_unread, harg6.read_unread, harg7.read_unread, harg8.read_unread, harg9.read_unread, View.ld_unit_zero (S := S4x512x256) hz3, View.ld_unit_zero (S := S4x512x1) hz3, View.ld_unit_zero (S := S4x512x512) hz3, View.readCov_cons_toLoadRect]

theorem sout1_B_1_eq (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) :
    sout1_B_1 c i arg2 harg2 arg3 harg3 arg4 harg4 arg5 harg5 arg6 harg6 arg7 harg7 arg8 harg8 arg9 harg9 hc0 hc1 x0 x1 x2 x3 xs0 xs1 xs2 = lNew x0 x1 x3 xs0 xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero hz3]
  unfold lNew
  simp only [View.readAt_eq_ld, harg2.read_unread, harg3.read_unread, harg4.read_unread, harg5.read_unread, harg6.read_unread, harg7.read_unread, harg8.read_unread, harg9.read_unread, View.ld_unit_zero (S := S4x512x256) hz3, View.ld_unit_zero (S := S4x512x1) hz3, View.ld_unit_zero (S := S4x512x512) hz3, View.readCov_cons_toLoadRect]

theorem sout1_B_2_eq (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : ¬cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) :
    sout1_B_2 c i arg2 harg2 arg3 harg3 arg4 harg4 arg5 harg5 arg6 harg6 arg7 harg7 arg8 harg8 arg9 harg9 hc0 hc1 x0 x1 x2 x3 xs0 xs1 xs2 = aNew x0 x1 x2 x3 xs0 xs2 := by
  unfold sout1_B_2
  rw [View.read_writes_eq_canon _ _ _ (scover1_B_2 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero hz3]
  unfold aNew
  simp only [View.readAt_eq_ld, harg2.read_unread, harg3.read_unread, harg4.read_unread, harg5.read_unread, harg6.read_unread, harg7.read_unread, harg8.read_unread, harg9.read_unread, View.ld_unit_zero (S := S4x512x256) hz3, View.ld_unit_zero (S := S4x512x1) hz3, View.ld_unit_zero (S := S4x512x512) hz3, View.readCov_cons_toLoadRect]

theorem sout1_C_0_eq (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) :
    sout1_C_0 c i arg2 harg2 arg3 harg3 arg4 harg4 arg5 harg5 arg6 harg6 arg7 harg7 arg8 harg8 arg9 harg9 hc0 hc1 x0 x1 x2 x3 xs0 xs1 xs2 = mNew x0 x1 x3 xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero hz3]
  unfold mNew
  simp only [View.readAt_eq_ld, harg2.read_unread, harg3.read_unread, harg4.read_unread, harg5.read_unread, harg6.read_unread, harg7.read_unread, harg8.read_unread, harg9.read_unread, View.ld_unit_zero (S := S4x512x256) hz3, View.ld_unit_zero (S := S4x512x1) hz3, View.ld_unit_zero (S := S4x512x512) hz3, View.readCov_cons_toLoadRect]

theorem sout1_C_1_eq (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) :
    sout1_C_1 c i arg2 harg2 arg3 harg3 arg4 harg4 arg5 harg5 arg6 harg6 arg7 harg7 arg8 harg8 arg9 harg9 hc0 hc1 x0 x1 x2 x3 xs0 xs1 xs2 = lNew x0 x1 x3 xs0 xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero hz3]
  unfold lNew
  simp only [View.readAt_eq_ld, harg2.read_unread, harg3.read_unread, harg4.read_unread, harg5.read_unread, harg6.read_unread, harg7.read_unread, harg8.read_unread, harg9.read_unread, View.ld_unit_zero (S := S4x512x256) hz3, View.ld_unit_zero (S := S4x512x1) hz3, View.ld_unit_zero (S := S4x512x512) hz3, View.readCov_cons_toLoadRect]

theorem sout1_C_2_eq (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) :
    sout1_C_2 c i arg2 harg2 arg3 harg3 arg4 harg4 arg5 harg5 arg6 harg6 arg7 harg7 arg8 harg8 arg9 harg9 hc0 hc1 x0 x1 x2 x3 xs0 xs1 xs2 = aNew x0 x1 x2 x3 xs0 xs2 := by
  unfold sout1_C_2
  rw [View.read_writes_eq_canon _ _ _ (scover1_C_2 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero hz3]
  unfold aNew
  simp only [View.readAt_eq_ld, harg2.read_unread, harg3.read_unread, harg4.read_unread, harg5.read_unread, harg6.read_unread, harg7.read_unread, harg8.read_unread, harg9.read_unread, View.ld_unit_zero (S := S4x512x256) hz3, View.ld_unit_zero (S := S4x512x1) hz3, View.ld_unit_zero (S := S4x512x512) hz3, View.readCov_cons_toLoadRect]

theorem out1_C_4_eq (c : Dev nD) (i : grid1.Coords) (arg2 : Memref sig .tc .vmem S4x512x256 .bf16) (harg2 : arg2.IsWhole) (arg3 : Memref sig .tc .vmem S4x512x256 .bf16) (harg3 : arg3.IsWhole) (arg4 : Memref sig .tc .vmem S4x512x256 .bf16) (harg4 : arg4.IsWhole) (arg5 : Memref sig .tc .vmem S4x512x512 .i32) (harg5 : arg5.IsWhole) (arg6 : Memref sig .tc .vmem S4x512x256 .f32) (harg6 : arg6.IsWhole) (arg7 : Memref sig .tc .vmem S4x512x1 .f32) (harg7 : arg7.IsWhole) (arg8 : Memref sig .tc .vmem S4x512x1 .f32) (harg8 : arg8.IsWhole) (arg9 : Memref sig .tc .vmem S4x512x256 .f32) (harg9 : arg9.IsWhole) (hc0 : ¬cond1_0 i) (hc1 : cond1_1 i)
    (x0 : Vec F S4x512x256 .bf16) (x1 : Vec F S4x512x256 .bf16) (x2 : Vec F S4x512x256 .bf16) (x3 : Vec F S4x512x512 .i32) (xs0 : Vec F S4x512x1 .f32) (xs1 : Vec F S4x512x1 .f32) (xs2 : Vec F S4x512x256 .f32) :
    out1_C_4 c i arg2 harg2 arg3 harg3 arg4 harg4 arg5 harg5 arg6 harg6 arg7 harg7 arg8 harg8 arg9 harg9 hc0 hc1 x0 x1 x2 x3 xs0 xs1 xs2 = oNew (aNew x0 x1 x2 x3 xs0 xs2) (lNew x0 x1 x3 xs0 xs1) := by
  unfold out1_C_4
  rw [View.read_writes_eq_canon _ _ _ (cover1_C_4 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero hz3]
  unfold oNew aNew lNew
  simp only [View.readAt_eq_ld, harg2.read_unread, harg3.read_unread, harg4.read_unread, harg5.read_unread, harg6.read_unread, harg7.read_unread, harg8.read_unread, harg9.read_unread, View.ld_unit_zero (S := S4x512x256) hz3, View.ld_unit_zero (S := S4x512x1) hz3, View.ld_unit_zero (S := S4x512x512) hz3, View.readCov_cons_toLoadRect]

end Cert.KernelIdeal.Hand

end
-- ==== Proof.LibOnlineSoftmax.lean ====
import Mathlib
import Idealize.ShloMosaic.PureOps.Ideal

/-!
# The online softmax over the extended reals

A row of extended reals (each entry real or `⊥`, never `⊤`) is read block by block.  A running
state `(m, l)` holds the maximum `m` seen so far and the sum `l = ∑ e^(x - m)` over the entries seen
so far.  Reading one more block with block maximum `b` replaces `m` by `m' = max m b`, rescales the
old sum by `e^(m - m')` and adds the new block's terms `e^(x - m')`.

This file proves that after `n ≥ 1` blocks the state is `(M, ∑ e^(x - M))` with `M` the maximum of
all entries read, a real number, and the sum a positive real; that a sum (or a maximum) over
`Fin (B * K)` is the sum (maximum) over `B` blocks of `K`; and that the blocked computation agrees
with the one-pass one.  The three facts behind it:

* `e^a · e^b = e^(a + b)` on the reals;
* `⊥ - M = ⊥` and `e^⊥ = 0`, so a `⊥` entry, and the start state `(⊥, 0)`, contribute `0`;
* the coercion `ℝ → EReal` commutes with finite sums.
-/

namespace OnlineSoftmax

open Idealize.ShloMosaic
open scoped BigOperators

/-! ## Coercions and the shifted exponential -/

/-- The coercion `ℝ → EReal` commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion `ℝ → EReal` commutes with `max` (it is monotone). -/
theorem coe_max (a b : ℝ) : ((max a b : ℝ) : EReal) = max (a : EReal) (b : EReal) :=
  EReal.coe_strictMono.monotone.map_max

/-- `e^(x - M)` as a real number, for `x` real or `⊥`; at `⊥` it is `0`. -/
noncomputable def expShift (x : EReal) (M : ℝ) : ℝ :=
  if x = ⊥ then 0 else Real.exp (x.toReal - M)

/-- For `x ≠ ⊤` and real `M`, the extended exponential of `x - M` is the real `expShift x M`:
    `⊥ - M = ⊥` and `e^⊥ = 0`; on reals the subtraction and the exponential are the real ones. -/
theorem exp_sub_coe {x : EReal} (hx : x ≠ ⊤) (M : ℝ) :
    Ideal.exp (x - (M : EReal)) = (expShift x M : EReal) := by
  induction x using EReal.rec with
  | bot => simp [expShift]
  | top => exact absurd rfl hx
  | coe r =>
    rw [← EReal.coe_sub, Ideal.exp_coe]
    simp [expShift]

theorem expShift_nonneg (x : EReal) (M : ℝ) : 0 ≤ expShift x M := by
  unfold expShift; split_ifs
  · exact le_rfl
  · exact (Real.exp_pos _).le

theorem expShift_pos {x : EReal} (hx : x ≠ ⊥) (M : ℝ) : 0 < expShift x M := by
  unfold expShift; rw [if_neg hx]; exact Real.exp_pos _

/-- Rescaling: `e^(M - M') · e^(x - M) = e^(x - M')`. -/
theorem exp_mul_expShift (x : EReal) (M M' : ℝ) :
    Real.exp (M - M') * expShift x M = expShift x M' := by
  unfold expShift; split_ifs
  · simp
  · rw [← Real.exp_add]; congr 1; ring

/-! ## The maximum of a finite family -/

/-- The fold of `max` from `⊥` is the finite supremum. -/
theorem fold_max_eq_sup {ι : Type*} (s : Finset ι) (f : ι → EReal) :
    s.fold max ⊥ f = s.sup f := rfl

/-- A finite family with no `⊤` entry and some entry other than `⊥` has a real maximum: the fold of
    `max` from `⊥` is a real `b`, every entry is `≤ b`, and some entry equals `b`. -/
theorem exists_real_max {ι : Type*} [Fintype ι] (w : ι → EReal)
    (htop : ∀ i, w i ≠ ⊤) (hbot : ∃ i, w i ≠ ⊥) :
    ∃ b : ℝ, Finset.univ.fold max ⊥ w = (b : EReal) ∧ (∀ i, w i ≤ (b : EReal)) ∧
      ∃ i, w i = (b : EReal) := by
  obtain ⟨i0, hi0⟩ := hbot
  have hne : (Finset.univ : Finset ι).Nonempty := ⟨i0, Finset.mem_univ _⟩
  obtain ⟨i1, _, hi1⟩ := Finset.exists_mem_eq_sup Finset.univ hne w
  have hle : ∀ i, w i ≤ Finset.univ.sup w := fun i => Finset.le_sup (Finset.mem_univ i)
  have hsb : Finset.univ.sup w ≠ ⊥ := fun h => hi0 (le_bot_iff.mp (h ▸ hle i0))
  have hst : Finset.univ.sup w ≠ ⊤ := hi1 ▸ htop i1
  refine ⟨(Finset.univ.sup w).toReal, ?_, ?_, ?_⟩
  · rw [fold_max_eq_sup, EReal.coe_toReal hst hsb]
  · intro i; rw [EReal.coe_toReal hst hsb]; exact hle i
  · exact ⟨i1, by rw [EReal.coe_toReal hst hsb]; exact hi1.symm⟩

/-! ## The online update -/

/-- One online update: the new maximum is the old one joined with the block's; the old sum is
    rescaled by `e^(m - m')` and the block's terms `e^(x - m')` are added. -/
noncomputable def step {K : ℕ} (v : Fin K → EReal) (s : EReal × EReal) : EReal × EReal :=
  let m' := max s.1 (Finset.univ.fold max ⊥ v)
  (m', Ideal.exp (s.1 - m') * s.2 + ∑ c, Ideal.exp (v c - m'))

/-- The state after `n` blocks, from the start state `(⊥, 0)`. -/
noncomputable def run {K : ℕ} (v : ℕ → Fin K → EReal) : ℕ → EReal × EReal
  | 0 => (⊥, 0)
  | n + 1 => step (v n) (run v n)

@[simp] theorem run_zero {K : ℕ} (v : ℕ → Fin K → EReal) : run v 0 = (⊥, 0) := rfl
@[simp] theorem run_succ {K : ℕ} (v : ℕ → Fin K → EReal) (n : ℕ) :
    run v (n + 1) = step (v n) (run v n) := rfl

/-- The first update, from `(⊥, 0)`: `max ⊥ b = b`, `e^(⊥ - b) = e^⊥ = 0`, `0 · 0 = 0`, so the state
    becomes `(b, ∑ e^(x - b))`. -/
theorem step_init {K : ℕ} (v : Fin K → EReal) (b : ℝ)
    (hb : Finset.univ.fold max ⊥ v = (b : EReal)) (htop : ∀ c, v c ≠ ⊤) :
    step v (⊥, 0) = ((b : EReal), ((∑ c, expShift (v c) b : ℝ) : EReal)) := by
  simp only [step, hb]
  rw [max_eq_right (bot_le : (⊥ : EReal) ≤ (b : EReal))]
  rw [EReal.bot_sub, Ideal.exp_bot, zero_mul, zero_add, coe_finset_sum]
  congr 1
  exact Finset.sum_congr rfl fun c _ => exp_sub_coe (htop c) b

/-- A later update, from a real state `(M, L)`: with `M' = max M b` the state becomes
    `(M', e^(M - M') · L + ∑ e^(x - M'))`, all real. -/
theorem step_real {K : ℕ} (v : Fin K → EReal) (b : ℝ)
    (hb : Finset.univ.fold max ⊥ v = (b : EReal)) (htop : ∀ c, v c ≠ ⊤) (M Lr : ℝ) :
    step v ((M : EReal), (Lr : EReal)) =
      (((max M b : ℝ) : EReal),
        ((Real.exp (M - max M b) * Lr + ∑ c, expShift (v c) (max M b) : ℝ) : EReal)) := by
  have hm : max (M : EReal) (b : EReal) = ((max M b : ℝ) : EReal) := (coe_max M b).symm
  simp only [step, hb, hm]
  rw [← EReal.coe_sub, Ideal.exp_coe, ← EReal.coe_mul, EReal.coe_add, coe_finset_sum]
  congr 2
  exact Finset.sum_congr rfl fun c _ => exp_sub_coe (htop c) _

/-- The state after `n + 1` blocks, in real terms: the maximum is a real `M`, the maximum of all
    entries read, and the sum is the real `∑ e^(x - M)` over all entries read.  By induction on `n`:
    the first block by `step_init`; a later block by `step_real`, the rescaling
    `e^(M - M') · e^(x - M) = e^(x - M')` termwise, and `max M b` being attained by whichever is larger. -/
theorem run_spec_real {K : ℕ} (v : ℕ → Fin K → EReal) :
    ∀ n : ℕ, (∀ j < n + 1, ∀ c, v j c ≠ ⊤) → (∀ j < n + 1, ∃ c, v j c ≠ ⊥) →
    ∃ M : ℝ, (run v (n + 1)).1 = (M : EReal) ∧ (∀ j < n + 1, ∀ c, v j c ≤ (M : EReal)) ∧
      (∃ j < n + 1, ∃ c, v j c = (M : EReal)) ∧
      (run v (n + 1)).2 =
        ((∑ j ∈ Finset.range (n + 1), ∑ c, expShift (v j c) M : ℝ) : EReal) := by
  intro n
  induction n with
  | zero =>
    intro htop hbot
    obtain ⟨b, hb, hle, c0, hc0⟩ :=
      exists_real_max (v 0) (htop 0 (by omega)) (hbot 0 (by omega))
    have hrun : run v (0 + 1) = ((b : EReal), ((∑ c, expShift (v 0 c) b : ℝ) : EReal)) :=
      step_init (v 0) b hb (htop 0 (by omega))
    refine ⟨b, by rw [hrun], ?_, ⟨0, by omega, c0, hc0⟩, ?_⟩
    · intro j hj c
      have hj0 : j = 0 := by omega
      subst hj0; exact hle c
    · rw [hrun]; simp
  | succ n ih =>
    intro htop hbot
    obtain ⟨M, hM1, hMle, ⟨j0, hj0, c0, hc0⟩, hM2⟩ :=
      ih (fun j hj => htop j (by omega)) (fun j hj => hbot j (by omega))
    obtain ⟨b, hb, hle, c1, hc1⟩ :=
      exists_real_max (v (n + 1)) (htop (n + 1) (by omega)) (hbot (n + 1) (by omega))
    have hrun : run v (n + 1 + 1) = step (v (n + 1)) ((M : EReal),
        ((∑ j ∈ Finset.range (n + 1), ∑ c, expShift (v j c) M : ℝ) : EReal)) := by
      rw [run_succ v (n + 1), ← hM1, ← hM2]
    rw [step_real _ b hb (htop (n + 1) (by omega))] at hrun
    refine ⟨max M b, by rw [hrun], ?_, ?_, ?_⟩
    · intro j hj c
      rw [coe_max]
      rcases Nat.lt_succ_iff_lt_or_eq.mp hj with h | h
      · exact le_max_of_le_left (hMle j h c)
      · subst h; exact le_max_of_le_right (hle c)
    · rcases le_total M b with h | h
      · exact ⟨n + 1, by omega, c1, by rw [max_eq_right h]; exact hc1⟩
      · exact ⟨j0, by omega, c0, by rw [max_eq_left h]; exact hc0⟩
    · rw [hrun]
      show ((_ : ℝ) : EReal) = _
      congr 1
      rw [Finset.sum_range_succ _ (n + 1), Finset.mul_sum]
      congr 1
      refine Finset.sum_congr rfl fun j _ => ?_
      rw [Finset.mul_sum]
      exact Finset.sum_congr rfl fun c _ => exp_mul_expShift _ _ _

/-- The sum of the extended exponentials `e^(x - M)` over blocks `0 … n-1` is the coercion of the real
    sum, when no entry is `⊤`. -/
theorem sum_exp_eq_coe {K : ℕ} (v : ℕ → Fin K → EReal) (n : ℕ)
    (htop : ∀ j < n, ∀ c, v j c ≠ ⊤) (M : ℝ) :
    ∑ j ∈ Finset.range n, ∑ c, Ideal.exp (v j c - (M : EReal)) =
      ((∑ j ∈ Finset.range n, ∑ c, expShift (v j c) M : ℝ) : EReal) := by
  rw [coe_finset_sum]
  refine Finset.sum_congr rfl fun j hj => ?_
  rw [coe_finset_sum]
  exact Finset.sum_congr rfl fun c _ => exp_sub_coe (htop j (Finset.mem_range.mp hj) c) M

/-- **The online softmax is the one-pass softmax.**  If every entry of blocks `0 … n-1` is real or `⊥`
    and each of these blocks has an entry other than `⊥`, then after `n ≥ 1` updates the running
    maximum is a real `M`, every entry read is `≤ M` and some entry read equals `M`, the running sum is
    `∑ e^(x - M)` over all entries read, and that sum is a positive real. -/
theorem run_spec {K : ℕ} (v : ℕ → Fin K → EReal) (n : ℕ) (hn : 1 ≤ n)
    (htop : ∀ j < n, ∀ c, v j c ≠ ⊤) (hbot : ∀ j < n, ∃ c, v j c ≠ ⊥) :
    ∃ M : ℝ, (run v n).1 = (M : EReal) ∧ (∀ j < n, ∀ c, v j c ≤ (M : EReal)) ∧
      (∃ j < n, ∃ c, v j c = (M : EReal)) ∧
      (run v n).2 = ∑ j ∈ Finset.range n, ∑ c, Ideal.exp (v j c - (M : EReal)) ∧
      ∃ L : ℝ, 0 < L ∧ (run v n).2 = (L : EReal) := by
  obtain ⟨m, rfl⟩ : ∃ m, n = m + 1 := ⟨n - 1, by omega⟩
  obtain ⟨M, h1, hle, ⟨j0, hj0, c0, hc0⟩, h2⟩ := run_spec_real v m htop hbot
  refine ⟨M, h1, hle, ⟨j0, hj0, c0, hc0⟩, ?_, _, ?_, h2⟩
  · rw [h2, sum_exp_eq_coe v (m + 1) htop M]
  · refine Finset.sum_pos' (fun j _ => Finset.sum_nonneg fun c _ => expShift_nonneg _ _)
      ⟨j0, Finset.mem_range.mpr hj0, ?_⟩
    refine Finset.sum_pos' (fun c _ => expShift_nonneg _ _) ⟨c0, Finset.mem_univ _, ?_⟩
    exact expShift_pos (by rw [hc0]; exact EReal.coe_ne_bot M) M

/-- The same with the hypotheses on every block (not only the first `n`). -/
theorem run_spec' {K : ℕ} (v : ℕ → Fin K → EReal)
    (htop : ∀ j c, v j c ≠ ⊤) (hbot : ∀ j, ∃ c, v j c ≠ ⊥) (n : ℕ) (hn : 1 ≤ n) :
    ∃ M : ℝ, (run v n).1 = (M : EReal) ∧ (∀ j < n, ∀ c, v j c ≤ (M : EReal)) ∧
      (∃ j < n, ∃ c, v j c = (M : EReal)) ∧
      (run v n).2 = ∑ j ∈ Finset.range n, ∑ c, Ideal.exp (v j c - (M : EReal)) ∧
      ∃ L : ℝ, 0 < L ∧ (run v n).2 = (L : EReal) :=
  run_spec v n hn (fun j _ c => htop j c) (fun j _ => hbot j)

/-! ## Re-blocking: `Fin (B * K)` as `B` blocks of `K` -/

/-- The flat index `j · K + c` of entry `c` of block `j` is below `B · K`. -/
theorem reblock_lt {B K : ℕ} (j : Fin B) (c : Fin K) : j.val * K + c.val < B * K := by
  have h1 : j.val * K + c.val < (j.val + 1) * K := by
    rw [Nat.add_mul, Nat.one_mul]; exact Nat.add_lt_add_left c.isLt _
  exact lt_of_lt_of_le h1 (Nat.mul_le_mul_right K j.isLt)

/-- A sum over `Fin (B * K)` is the sum over the `B` blocks of the sums over each block's `K`
    entries; entry `c` of block `j` is at flat index `j · K + c`. -/
theorem sum_reblock {α : Type*} [AddCommMonoid α] {B K : ℕ} (f : Fin (B * K) → α) :
    ∑ i, f i = ∑ j : Fin B, ∑ c : Fin K, f ⟨j.val * K + c.val, reblock_lt j c⟩ := by
  rw [← Equiv.sum_comp finProdFinEquiv f, Fintype.sum_prod_type]
  refine Finset.sum_congr rfl fun j _ => Finset.sum_congr rfl fun c _ => ?_
  congr 1
  apply Fin.ext
  simp only [finProdFinEquiv_apply_val]
  ring

/-- A maximum over `Fin (B * K)` is the maximum over the `B` blocks of each block's maximum. -/
theorem sup_reblock {B K : ℕ} (f : Fin (B * K) → EReal) :
    Finset.univ.sup f =
      Finset.univ.sup fun j : Fin B => Finset.univ.sup fun c : Fin K =>
        f ⟨j.val * K + c.val, reblock_lt j c⟩ := by
  apply le_antisymm
  · refine Finset.sup_le fun i _ => ?_
    have hi : i = ⟨(finProdFinEquiv.symm i).1.val * K + (finProdFinEquiv.symm i).2.val,
        reblock_lt _ _⟩ := by
      conv_lhs => rw [← finProdFinEquiv.apply_symm_apply i]
      apply Fin.ext
      simp only [finProdFinEquiv_apply_val]
      ring
    rw [hi]
    exact le_trans
      (Finset.le_sup (f := fun c : Fin K =>
        f ⟨(finProdFinEquiv.symm i).1.val * K + c.val, reblock_lt _ c⟩) (Finset.mem_univ _))
      (Finset.le_sup (f := fun j : Fin B => Finset.univ.sup fun c : Fin K =>
        f ⟨j.val * K + c.val, reblock_lt j c⟩) (Finset.mem_univ _))
  · exact Finset.sup_le fun j _ => Finset.sup_le fun c _ => Finset.le_sup (Finset.mem_univ _)

/-- The same for the fold of `max` from `⊥`. -/
theorem fold_max_reblock {B K : ℕ} (f : Fin (B * K) → EReal) :
    Finset.univ.fold max ⊥ f =
      Finset.univ.fold max ⊥ fun j : Fin B => Finset.univ.fold max ⊥ fun c : Fin K =>
        f ⟨j.val * K + c.val, reblock_lt j c⟩ :=
  sup_reblock f

/-- `8192 = 8 · 1024`: a sum over `Fin 8192` as eight blocks of `1024`. -/
theorem sum_reblock_8_1024 {α : Type*} [AddCommMonoid α] (f : Fin 8192 → α) :
    ∑ i, f i = ∑ j : Fin 8, ∑ c : Fin 1024, f ⟨j.val * 1024 + c.val, by omega⟩ :=
  sum_reblock (B := 8) (K := 1024) f

/-- `8192 = 8 · 1024`: a maximum over `Fin 8192` as eight blocks of `1024`. -/
theorem fold_max_reblock_8_1024 (f : Fin 8192 → EReal) :
    Finset.univ.fold max ⊥ f =
      Finset.univ.fold max ⊥ fun j : Fin 8 => Finset.univ.fold max ⊥ fun c : Fin 1024 =>
        f ⟨j.val * 1024 + c.val, by omega⟩ :=
  fold_max_reblock (B := 8) (K := 1024) f

/-! ## The closing identity -/

/-- For real `M`, `n` and positive real `L`: `(M + log L) - n = -((n - M) - log L)` as extended reals;
    the logarithm of a positive real is real, so all of it is real arithmetic. -/
theorem closing_identity (M n L : ℝ) (hL : 0 < L) :
    ((M : EReal) + Ideal.log (L : EReal)) - (n : EReal) =
      -(((n : EReal) - (M : EReal)) - Ideal.log (L : EReal)) := by
  rw [Ideal.log_coe, if_neg (not_le.mpr hL)]
  rw [← EReal.coe_add, ← EReal.coe_sub, ← EReal.coe_sub, ← EReal.coe_sub, ← EReal.coe_neg]
  congr 1
  ring

/-! ## The one-pass form, and the blocked computation against it -/

/-- The one-pass softmax denominators: for a finite family with no `⊤` entry and some entry other
    than `⊥`, the maximum `Mw` (the fold of `max` from `⊥`) is real, every entry is `≤ Mw`, some entry
    equals `Mw`, and `∑ e^(w i - Mw)` is a positive real. -/
theorem onepass_spec {ι : Type*} [Fintype ι] (w : ι → EReal)
    (htop : ∀ i, w i ≠ ⊤) (hbot : ∃ i, w i ≠ ⊥) :
    ∃ Mw : ℝ, Finset.univ.fold max ⊥ w = (Mw : EReal) ∧ (∀ i, w i ≤ (Mw : EReal)) ∧
      (∃ i, w i = (Mw : EReal)) ∧
      ∃ L : ℝ, 0 < L ∧ ∑ i, Ideal.exp (w i - (Mw : EReal)) = (L : EReal) := by
  obtain ⟨Mw, hM, hle, i0, hi0⟩ := exists_real_max w htop hbot
  refine ⟨Mw, hM, hle, ⟨i0, hi0⟩, ∑ i, expShift (w i) Mw, ?_, ?_⟩
  · refine Finset.sum_pos' (fun i _ => expShift_nonneg _ _) ⟨i0, Finset.mem_univ _, ?_⟩
    exact expShift_pos (by rw [hi0]; exact EReal.coe_ne_bot Mw) Mw
  · rw [coe_finset_sum]
    exact Finset.sum_congr rfl fun i _ => exp_sub_coe (htop i) Mw

/-- **Blocked against one-pass.**  Let `w` be a row of `B · K` entries, none `⊤`, each of its `B ≥ 1`
    blocks of `K` having an entry other than `⊥`, and let `v j c = w (j · K + c)` for `j < B`.  Then the
    online computation over the `B` blocks ends in the one-pass maximum `Mw` of the whole row (a real)
    and the one-pass sum `∑ e^(w i - Mw)` (a positive real). -/
theorem run_eq_onepass {B K : ℕ} (hB : 1 ≤ B) (w : Fin (B * K) → EReal)
    (v : ℕ → Fin K → EReal)
    (hv : ∀ (j : Fin B) (c : Fin K), v j.val c = w ⟨j.val * K + c.val, reblock_lt j c⟩)
    (htop : ∀ i, w i ≠ ⊤)
    (hbot : ∀ j : Fin B, ∃ c : Fin K, w ⟨j.val * K + c.val, reblock_lt j c⟩ ≠ ⊥) :
    ∃ Mw L : ℝ, 0 < L ∧ Finset.univ.fold max ⊥ w = (Mw : EReal) ∧
      (run v B).1 = (Mw : EReal) ∧
      (run v B).2 = ∑ i, Ideal.exp (w i - (Mw : EReal)) ∧
      (run v B).2 = (L : EReal) := by
  have htop' : ∀ j < B, ∀ c, v j c ≠ ⊤ := fun j hj c => by
    rw [hv ⟨j, hj⟩ c]; exact htop _
  have hbot' : ∀ j < B, ∃ c, v j c ≠ ⊥ := fun j hj => by
    obtain ⟨c, hc⟩ := hbot ⟨j, hj⟩
    exact ⟨c, by rw [hv ⟨j, hj⟩ c]; exact hc⟩
  obtain ⟨M, h1, hle, ⟨j0, hj0, c0, hc0⟩, h2, L, hL, h3⟩ := run_spec v B hB htop' hbot'
  have hMw : Finset.univ.fold max ⊥ w = (M : EReal) := by
    rw [fold_max_eq_sup, sup_reblock]
    apply le_antisymm
    · refine Finset.sup_le fun j _ => Finset.sup_le fun c _ => ?_
      rw [← hv j c]; exact hle j.val j.isLt c
    · rw [← hc0, hv ⟨j0, hj0⟩ c0]
      exact le_trans
        (Finset.le_sup (f := fun c : Fin K => w ⟨j0 * K + c.val, reblock_lt ⟨j0, hj0⟩ c⟩)
          (Finset.mem_univ c0))
        (Finset.le_sup (f := fun j : Fin B => Finset.univ.sup fun c : Fin K =>
          w ⟨j.val * K + c.val, reblock_lt j c⟩) (Finset.mem_univ ⟨j0, hj0⟩))
  refine ⟨M, L, hL, hMw, h1, ?_, h3⟩
  rw [h2, sum_reblock (fun i => Ideal.exp (w i - (M : EReal))),
    Finset.sum_range (fun j => ∑ c, Ideal.exp (v j c - (M : EReal)))]
  refine Finset.sum_congr rfl fun j _ => Finset.sum_congr rfl fun c _ => ?_
  rw [hv j c]

/-- `8192 = 8 · 1024`: the online computation over eight blocks of `1024` against the one-pass one. -/
theorem run_eq_onepass_8_1024 (w : Fin 8192 → EReal) (v : ℕ → Fin 1024 → EReal)
    (hv : ∀ (j : Fin 8) (c : Fin 1024), v j.val c = w ⟨j.val * 1024 + c.val, by omega⟩)
    (htop : ∀ i, w i ≠ ⊤)
    (hbot : ∀ j : Fin 8, ∃ c : Fin 1024, w ⟨j.val * 1024 + c.val, by omega⟩ ≠ ⊥) :
    ∃ Mw L : ℝ, 0 < L ∧ Finset.univ.fold max ⊥ w = (Mw : EReal) ∧
      (run v 8).1 = (Mw : EReal) ∧
      (run v 8).2 = ∑ i, Ideal.exp (w i - (Mw : EReal)) ∧
      (run v 8).2 = (L : EReal) :=
  run_eq_onepass (B := 8) (K := 1024) (by norm_num) w v hv htop hbot

end OnlineSoftmax
-- ==== Proof.LibOnlineAttention.lean ====
import Mathlib
import Idealize.ShloMosaic.PureOps.Ideal
import proofs.«133710_j6906307412546_2_alg».proof.Proof.LibOnlineSoftmax

/-!
# The online softmax with a weighted accumulator, over the extended reals

A row of real scores `w` and a row of real values `y` are read block by block.  Beside the running
maximum `m` and the running sum `l = ∑ e^(w - m)` of the online softmax, a third component carries
the weighted sum `a = ∑ e^(w - m) · y` over the entries read so far.  Reading one more block with
block maximum `b` replaces `m` by `m' = max m b`, rescales both `l` and `a` by `e^(m - m')` and adds
the new block's terms `e^(w - m')` and `e^(w - m') · y`.

This file proves that after all blocks are read, `a · (1 / l)` is the one-pass softmax-weighted sum
`∑ (e^(w i - M) / ∑ e^(w i' - M)) · y i` with `M` the maximum of the whole row.  The facts behind it:

* the first two components are the online softmax itself, so they end in `M` and `L = ∑ e^(w - M)`,
  a positive real;
* the rescaling `e^(M - M') · e^(x - M) = e^(x - M')` applies termwise to the weighted sum as it does
  to the plain one, so the accumulator ends in `∑ e^(w i - M) · y i`, a real;
* over the reals, `(∑ eᵢ · yᵢ) · (1 / L) = ∑ (eᵢ · (1 / L)) · yᵢ`, and dividing by a nonzero real is
  multiplying by its reciprocal.

It also holds small facts about sums of products of reals seen as extended reals, and the values of
three bit patterns.
-/

namespace OnlineAttention

open Idealize.ShloMosaic
open OnlineSoftmax
open scoped BigOperators

/-! ## The online update with an accumulator -/

/-- One online update of `(m, l, a)`: the new maximum `m'` is the old one joined with the block's;
    the old sum `l` and the old weighted sum `a` are rescaled by `e^(m - m')`; the block's terms
    `e^(x - m')` are added to `l` and its weighted terms `e^(x - m') · u` to `a`. -/
noncomputable def step3 {K : ℕ} (v u : Fin K → EReal) (s : EReal × EReal × EReal) :
    EReal × EReal × EReal :=
  let m' := max s.1 (Finset.univ.fold max ⊥ v)
  (m', Ideal.exp (s.1 - m') * s.2.1 + ∑ c, Ideal.exp (v c - m'),
    Ideal.exp (s.1 - m') * s.2.2 + ∑ c, Ideal.exp (v c - m') * u c)

/-- The state after `n` blocks, from the start state `(⊥, 0, 0)`. -/
noncomputable def run3 {K : ℕ} (v u : ℕ → Fin K → EReal) : ℕ → EReal × EReal × EReal
  | 0 => (⊥, 0, 0)
  | n + 1 => step3 (v n) (u n) (run3 v u n)

/-- Before any block the state is `(⊥, 0, 0)`. -/
@[simp] theorem run3_zero {K : ℕ} (v u : ℕ → Fin K → EReal) : run3 v u 0 = (⊥, 0, 0) := rfl

/-- The state after `n + 1` blocks is one update of the state after `n`. -/
@[simp] theorem run3_succ {K : ℕ} (v u : ℕ → Fin K → EReal) (n : ℕ) :
    run3 v u (n + 1) = step3 (v n) (u n) (run3 v u n) := rfl

/-- The new maximum of one update. -/
theorem step3_fst {K : ℕ} (v u : Fin K → EReal) (s : EReal × EReal × EReal) :
    (step3 v u s).1 = max s.1 (Finset.univ.fold max ⊥ v) := rfl

/-- The new accumulator of one update: it depends on the old maximum and the old accumulator only. -/
theorem step3_acc {K : ℕ} (v u : Fin K → EReal) (s : EReal × EReal × EReal) :
    (step3 v u s).2.2 =
      Ideal.exp (s.1 - max s.1 (Finset.univ.fold max ⊥ v)) * s.2.2 +
        ∑ c, Ideal.exp (v c - max s.1 (Finset.univ.fold max ⊥ v)) * u c := rfl

/-- The first two components of one update are the online softmax update of the first two
    components: the accumulator does not feed back into the maximum or the sum. -/
theorem step3_fst_snd {K : ℕ} (v u : Fin K → EReal) (s : EReal × EReal × EReal) :
    ((step3 v u s).1, (step3 v u s).2.1) = OnlineSoftmax.step v (s.1, s.2.1) := rfl

/-- The first two components of the run are the online softmax run, by induction on the number of
    blocks. -/
theorem run3_fst {K : ℕ} (v u : ℕ → Fin K → EReal) (n : ℕ) :
    ((run3 v u n).1, (run3 v u n).2.1) = OnlineSoftmax.run v n := by
  induction n with
  | zero => rfl
  | succ n ih => rw [run3_succ, OnlineSoftmax.run_succ, ← ih, step3_fst_snd]

/-- The accumulator after `n + 1` blocks, in real terms: the maximum is a real `M` and the
    accumulator is the real `∑ e^(x - M) · u` over all entries read.  By induction on `n`: from the
    start state `e^(⊥ - b) · 0 = 0` so the first block leaves its own weighted sum; a later block
    rescales the old weighted sum termwise by `e^(M - M') · e^(x - M) = e^(x - M')`. -/
theorem run3_acc_real {K : ℕ} (v u : ℕ → Fin K → EReal) (ur : ℕ → Fin K → ℝ) :
    ∀ n : ℕ, (∀ j < n + 1, ∀ c, v j c ≠ ⊤) → (∀ j < n + 1, ∃ c, v j c ≠ ⊥) →
    (∀ j < n + 1, ∀ c, u j c = (ur j c : EReal)) →
    ∃ M : ℝ, (run3 v u (n + 1)).1 = (M : EReal) ∧
      (run3 v u (n + 1)).2.2 =
        ((∑ j ∈ Finset.range (n + 1), ∑ c, expShift (v j c) M * ur j c : ℝ) : EReal) := by
  intro n
  induction n with
  | zero =>
    intro htop hbot hu
    obtain ⟨b, hb, -, -⟩ := exists_real_max (v 0) (htop 0 (by omega)) (hbot 0 (by omega))
    have hm : max (⊥ : EReal) (b : EReal) = (b : EReal) := max_eq_right bot_le
    refine ⟨b, ?_, ?_⟩
    · rw [run3_succ, step3_fst, run3_zero, hb, hm]
    · rw [run3_succ, step3_acc, run3_zero, hb, hm, mul_zero, zero_add, Finset.range_one,
        Finset.sum_singleton, coe_finset_sum]
      refine Finset.sum_congr rfl fun c _ => ?_
      rw [exp_sub_coe (htop 0 (by omega) c) b, hu 0 (by omega) c, EReal.coe_mul]
  | succ n ih =>
    intro htop hbot hu
    obtain ⟨M, hM1, hM2⟩ := ih (fun j hj => htop j (by omega)) (fun j hj => hbot j (by omega))
      (fun j hj => hu j (by omega))
    obtain ⟨b, hb, -, -⟩ :=
      exists_real_max (v (n + 1)) (htop (n + 1) (by omega)) (hbot (n + 1) (by omega))
    have hm : max (M : EReal) (b : EReal) = ((max M b : ℝ) : EReal) := (coe_max M b).symm
    refine ⟨max M b, ?_, ?_⟩
    · rw [run3_succ v u (n + 1), step3_fst, hM1, hb, hm]
    · have hsum : ∑ c, Ideal.exp (v (n + 1) c - ((max M b : ℝ) : EReal)) * u (n + 1) c =
          ((∑ c, expShift (v (n + 1) c) (max M b) * ur (n + 1) c : ℝ) : EReal) := by
        rw [coe_finset_sum]
        refine Finset.sum_congr rfl fun c _ => ?_
        rw [exp_sub_coe (htop (n + 1) (by omega) c), hu (n + 1) (by omega) c, EReal.coe_mul]
      rw [run3_succ v u (n + 1), step3_acc, hM1, hM2, hb, hm, ← EReal.coe_sub, Ideal.exp_coe,
        ← EReal.coe_mul, hsum, ← EReal.coe_add]
      congr 1
      rw [Finset.sum_range_succ _ (n + 1), Finset.mul_sum]
      congr 1
      refine Finset.sum_congr rfl fun j _ => ?_
      rw [Finset.mul_sum]
      refine Finset.sum_congr rfl fun c _ => ?_
      rw [← mul_assoc, exp_mul_expShift]

/-- The same after `n ≥ 1` blocks. -/
theorem run3_acc {K : ℕ} (v u : ℕ → Fin K → EReal) (ur : ℕ → Fin K → ℝ) (n : ℕ) (hn : 1 ≤ n)
    (htop : ∀ j < n, ∀ c, v j c ≠ ⊤) (hbot : ∀ j < n, ∃ c, v j c ≠ ⊥)
    (hu : ∀ j < n, ∀ c, u j c = (ur j c : EReal)) :
    ∃ M : ℝ, (run3 v u n).1 = (M : EReal) ∧
      (run3 v u n).2.2 =
        ((∑ j ∈ Finset.range n, ∑ c, expShift (v j c) M * ur j c : ℝ) : EReal) := by
  obtain ⟨m, rfl⟩ : ∃ m, n = m + 1 := ⟨n - 1, by omega⟩
  exact run3_acc_real v u ur m htop hbot hu

/-! ## The blocked computation against the one-pass softmax-weighted sum -/

/-- **Online attention is one-pass attention.**  Let `w` be a row of `B · K` real scores and `y` a row
    of `B · K` real values, read as `B ≥ 1` blocks of `K ≥ 1`: `v j c = w (j · K + c)` and
    `u j c = y (j · K + c)`.  With `M` the real maximum of `w` and `L = ∑ e^(w i - M) > 0`, the online
    computation ends in `(M, L, ∑ e^(w i - M) · y i)`, so its accumulator times `1 / L` is
    `(∑ eᵢ · yᵢ) · (1 / L) = ∑ (eᵢ / L) · yᵢ`, the softmax-weighted sum of `y`; all of it real
    arithmetic, division by the nonzero real `L` being multiplication by `1 / L`. -/
theorem run3_final {B K : ℕ} (hB : 1 ≤ B) (hK : 1 ≤ K) (w : Fin (B * K) → EReal)
    (y : Fin (B * K) → EReal) (v u : ℕ → Fin K → EReal)
    (hv : ∀ (j : Fin B) (c : Fin K), v j.val c = w ⟨j.val * K + c.val, OnlineSoftmax.reblock_lt j c⟩)
    (hu : ∀ (j : Fin B) (c : Fin K), u j.val c = y ⟨j.val * K + c.val, OnlineSoftmax.reblock_lt j c⟩)
    (hw : ∀ i, ∃ r : ℝ, w i = (r : EReal)) (hy : ∀ i, ∃ r : ℝ, y i = (r : EReal)) :
    (run3 v u B).2.2 * Ideal.div 1 (run3 v u B).2.1
      = ∑ i : Fin (B * K), Ideal.div (Ideal.exp (w i - Finset.univ.fold max ⊥ w))
          (∑ i', Ideal.exp (w i' - Finset.univ.fold max ⊥ w)) * y i := by
  choose wr hwr using hw
  choose yr hyr using hy
  have htop : ∀ i, w i ≠ ⊤ := fun i => by rw [hwr i]; exact EReal.coe_ne_top _
  have hbotw : ∀ i, w i ≠ ⊥ := fun i => by rw [hwr i]; exact EReal.coe_ne_bot _
  have hbot : ∀ j : Fin B, ∃ c : Fin K, w ⟨j.val * K + c.val, reblock_lt j c⟩ ≠ ⊥ :=
    fun j => ⟨⟨0, hK⟩, hbotw _⟩
  -- the maximum and the sum: the online softmax against the one-pass one
  obtain ⟨Mw, L, hL, hfold, h1, h2, h3⟩ := run_eq_onepass hB w v hv htop hbot
  have hfs := run3_fst v u B
  have h1' : (run3 v u B).1 = (Mw : EReal) := by rw [← h1, ← hfs]
  have h3' : (run3 v u B).2.1 = (L : EReal) := by rw [← h3, ← hfs]
  have hsumL : ∑ i, Ideal.exp (w i - (Mw : EReal)) = (L : EReal) := h2.symm.trans h3
  -- the accumulator
  have htop' : ∀ j < B, ∀ c, v j c ≠ ⊤ := fun j hj c => by rw [hv ⟨j, hj⟩ c]; exact htop _
  have hbot' : ∀ j < B, ∃ c, v j c ≠ ⊥ := fun j hj =>
    ⟨⟨0, hK⟩, by rw [hv ⟨j, hj⟩ ⟨0, hK⟩]; exact hbotw _⟩
  have hu' : ∀ j < B, ∀ c, u j c = (((fun j c => (u j c).toReal) j c : ℝ) : EReal) :=
    fun j hj c => by
      show u j c = (((u j c).toReal : ℝ) : EReal)
      rw [hu ⟨j, hj⟩ c, hyr, EReal.toReal_coe]
  obtain ⟨M, hM1, hM2⟩ := run3_acc v u (fun j c => (u j c).toReal) B hB htop' hbot' hu'
  have hMM : M = Mw := EReal.coe_injective (hM1.symm.trans h1')
  subst hMM
  -- both sides as one real
  have hne : L ≠ 0 := hL.ne'
  rw [hM2, h3', Ideal.div_coe hne, one_mul, ← EReal.coe_mul, hfold, hsumL]
  have hterm : ∀ i, Ideal.div (Ideal.exp (w i - (M : EReal))) (L : EReal) * y i =
      ((expShift (w i) M * (1 / L) * yr i : ℝ) : EReal) := fun i => by
    rw [Ideal.div_coe hne, exp_sub_coe (htop i), hyr i, ← EReal.coe_mul, ← EReal.coe_mul]
  rw [Finset.sum_congr rfl fun i _ => hterm i, ← coe_finset_sum]
  congr 1
  rw [sum_reblock (fun i => expShift (w i) M * (1 / L) * yr i),
    Finset.sum_range (fun j => ∑ c, expShift (v j c) M * (u j c).toReal), Finset.sum_mul]
  refine Finset.sum_congr rfl fun j _ => ?_
  rw [Finset.sum_mul]
  refine Finset.sum_congr rfl fun c _ => ?_
  rw [hv j c, hu j c, hyr, EReal.toReal_coe]
  ring

/-- `8192 = 16 · 512`: the online computation over sixteen blocks of `512` against the one-pass
    softmax-weighted sum over `Fin 8192`. -/
theorem run3_final_16_512 (w y : Fin 8192 → EReal) (v u : ℕ → Fin 512 → EReal)
    (hv : ∀ (j : Fin 16) (c : Fin 512), v j.val c = w ⟨j.val * 512 + c.val, by omega⟩)
    (hu : ∀ (j : Fin 16) (c : Fin 512), u j.val c = y ⟨j.val * 512 + c.val, by omega⟩)
    (hw : ∀ i, ∃ r : ℝ, w i = (r : EReal)) (hy : ∀ i, ∃ r : ℝ, y i = (r : EReal)) :
    (run3 v u 16).2.2 * Ideal.div 1 (run3 v u 16).2.1
      = ∑ i : Fin 8192, Ideal.div (Ideal.exp (w i - Finset.univ.fold max ⊥ w))
          (∑ i', Ideal.exp (w i' - Finset.univ.fold max ⊥ w)) * y i :=
  run3_final (B := 16) (K := 512) (by norm_num) (by norm_num) w y v u hv hu hw hy

/-! ## Sums of products of reals, seen as extended reals -/

/-- A finite sum of products of reals is a real: the coercion commutes with products and finite
    sums. -/
theorem real_sum_mul {C : ℕ} (x w : Fin C → EReal) (hx : ∀ c, ∃ r : ℝ, x c = r)
    (hw : ∀ c, ∃ r : ℝ, w c = r) : ∃ r : ℝ, ∑ c, x c * w c = r := by
  choose xr hxr using hx
  choose wr hwr using hw
  refine ⟨∑ c, xr c * wr c, ?_⟩
  rw [coe_finset_sum]
  refine Finset.sum_congr rfl fun c _ => ?_
  rw [hxr c, hwr c, EReal.coe_mul]

/-- A real scale factor on one side of a double contraction comes out in front:
    `∑_d (∑_c x_c · (wq_{d c} · s)) · k_d = s · ∑_d (∑_c x_c · wq_{d c}) · k_d`, for reals, by
    commutativity, associativity and distributivity of real arithmetic. -/
theorem scale_fold {C D : ℕ} (x : Fin C → EReal) (wq : Fin D → Fin C → EReal) (k : Fin D → EReal)
    (s : EReal) (hx : ∀ c, ∃ r : ℝ, x c = r) (hwq : ∀ d c, ∃ r : ℝ, wq d c = r)
    (hk : ∀ d, ∃ r : ℝ, k d = r) (hs : ∃ r : ℝ, s = r) :
    ∑ d, (∑ c, x c * (wq d c * s)) * k d = s * ∑ d, (∑ c, x c * wq d c) * k d := by
  choose xr hxr using hx
  choose wqr hwqr using hwq
  choose kr hkr using hk
  obtain ⟨sr, rfl⟩ := hs
  have hl : ∀ d, (∑ c, x c * (wq d c * (sr : EReal))) * k d =
      (((∑ c, xr c * (wqr d c * sr)) * kr d : ℝ) : EReal) := fun d => by
    rw [EReal.coe_mul, coe_finset_sum, hkr d]
    congr 1
    refine Finset.sum_congr rfl fun c _ => ?_
    rw [hxr c, hwqr d c, EReal.coe_mul, EReal.coe_mul]
  have hr : ∀ d, (∑ c, x c * wq d c) * k d =
      (((∑ c, xr c * wqr d c) * kr d : ℝ) : EReal) := fun d => by
    rw [EReal.coe_mul, coe_finset_sum, hkr d]
    congr 1
    refine Finset.sum_congr rfl fun c _ => ?_
    rw [hxr c, hwqr d c, EReal.coe_mul]
  rw [Finset.sum_congr rfl fun d _ => hl d, Finset.sum_congr rfl fun d _ => hr d,
    ← coe_finset_sum, ← coe_finset_sum, ← EReal.coe_mul]
  congr 1
  rw [Finset.mul_sum]
  refine Finset.sum_congr rfl fun d _ => ?_
  rw [← mul_assoc, Finset.mul_sum, Finset.sum_mul, Finset.sum_mul]
  refine Finset.sum_congr rfl fun c _ => ?_
  ring

/-! ## Three bit patterns -/

/-- The single-precision pattern `0x41800000` (sign `0`, exponent `131`, fraction `0`) denotes
    `2^(131 - 127) = 16`. -/
theorem ofBits_16 : Ideal.ofBits .f32 0x41800000#32 = ((16 : ℝ) : EReal) := by
  simp [Ideal.ofBits, Ideal.ieee, -EReal.coe_mul]; norm_num

/-- The single-precision pattern `0x3F800000` (sign `0`, exponent `127`, fraction `0`) denotes `1`. -/
theorem ofBits_one : Ideal.ofBits .f32 0x3F800000#32 = 1 := by
  simp [Ideal.ofBits, Ideal.ieee, -EReal.coe_mul]; norm_num

/-- The single-precision pattern `0xFF800000` (sign `1`, exponent all ones, fraction `0`) denotes
    `-∞`. -/
theorem ofBits_neg_inf : Ideal.ofBits .f32 0xFF800000#32 = ⊥ := by
  simp [Ideal.ofBits, Ideal.ieee]

end OnlineAttention
-- ==== Proof.Region1StepScore.lean ====
/-
  One update of the attention body read at an index, first part: the block's scores and the new running maximum.

  At the extended reals a change of float format is the identity and a cast to the same shape is the identity.  The
  product of the query block and the key block into a zero accumulator, at (t, r, j), is the inner product over the
  256 features of query row r and key row j of batch t; it is multiplied by the word of 1/16, and replaced by 0 where
  the mask word is 0 (the select takes its first branch where the comparison's flag is one).  The maximum over the
  lane axis from the word of -inf, at (t, r), is the fold of max from the bottom element over the 512 lanes; cast to
  a column and joined with the old running maximum it is the new running maximum at (t, r, 0).
-/
import proofs.«133710_j6906307412546_2_alg».proof.Proof.Region1Update
import proofs.«133710_j6906307412546_2_alg».proof.Proof.LibOnlineAttention
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.SL.Sem Idealize.ShloMosaic.ValueIdx
open scoped BigOperators

/-! ## The block's scores -/

/-- The masked, scaled scores of query row r of batch t against the block's 512 key rows. -/
def blockScore (x0 x1 : Vec Ideal S4x512x256 .bf16) (x3 : Vec Ideal S4x512x512 .i32) (t : Fin 4) (r : Fin 512) :
    Fin 512 → EReal :=
  fun j => if x3 (ix3 t r j) = 0#32 then 0 else (∑ d : Fin 256, x0 (ix3 t r d) * x1 (ix3 t j d)) * ((1 / 16 : ℝ) : EReal)

/-! ## The query-key contraction: batch axis 0, axis 2 of both operands contracted -/

theorem qk_lhs_0 (i : S4x512x512.Idx) (q : dot_S4x512x256_S4x512x256_S4x512x512_2_2_1_1_0_0.contr.Idx) :
    (dot_S4x512x256_S4x512x256_S4x512x512_2_2_1_1_0_0.lhsIdx i q 0).val = (i 0).val := by
  unfold DotDims.lhsIdx
  rw [dif_pos (show (0 : Fin S4x512x256.rank) ∈ dot_S4x512x256_S4x512x256_S4x512x512_2_2_1_1_0_0.lhsBatch by decide)]
  rfl
theorem qk_lhs_1 (i : S4x512x512.Idx) (q : dot_S4x512x256_S4x512x256_S4x512x512_2_2_1_1_0_0.contr.Idx) :
    (dot_S4x512x256_S4x512x256_S4x512x512_2_2_1_1_0_0.lhsIdx i q 1).val = (i 1).val := by
  unfold DotDims.lhsIdx
  rw [dif_neg (show ¬(1 : Fin S4x512x256.rank) ∈ dot_S4x512x256_S4x512x256_S4x512x512_2_2_1_1_0_0.lhsBatch by decide), dif_pos (show (1 : Fin S4x512x256.rank) ∈ dot_S4x512x256_S4x512x256_S4x512x512_2_2_1_1_0_0.lhsNonContracting by decide)]
  rfl
theorem qk_lhs_2 (i : S4x512x512.Idx) (q : dot_S4x512x256_S4x512x256_S4x512x512_2_2_1_1_0_0.contr.Idx) :
    (dot_S4x512x256_S4x512x256_S4x512x512_2_2_1_1_0_0.lhsIdx i q 2).val = (q ⟨0, by decide⟩).val :=
  dot_S4x512x256_S4x512x256_S4x512x512_2_2_1_1_0_0.lhsIdx_val_of_single rfl i q
theorem qk_rhs_0 (i : S4x512x512.Idx) (q : dot_S4x512x256_S4x512x256_S4x512x512_2_2_1_1_0_0.contr.Idx) :
    (dot_S4x512x256_S4x512x256_S4x512x512_2_2_1_1_0_0.rhsIdx i q 0).val = (i 0).val := by
  unfold DotDims.rhsIdx
  rw [dif_pos (show (0 : Fin S4x512x256.rank) ∈ dot_S4x512x256_S4x512x256_S4x512x512_2_2_1_1_0_0.rhsBatch by decide)]
  rfl
theorem qk_rhs_1 (i : S4x512x512.Idx) (q : dot_S4x512x256_S4x512x256_S4x512x512_2_2_1_1_0_0.contr.Idx) :
    (dot_S4x512x256_S4x512x256_S4x512x512_2_2_1_1_0_0.rhsIdx i q 1).val = (i 2).val := by
  unfold DotDims.rhsIdx
  rw [dif_neg (show ¬(1 : Fin S4x512x256.rank) ∈ dot_S4x512x256_S4x512x256_S4x512x512_2_2_1_1_0_0.rhsBatch by decide), dif_pos (show (1 : Fin S4x512x256.rank) ∈ dot_S4x512x256_S4x512x256_S4x512x512_2_2_1_1_0_0.rhsNonContracting by decide)]
  rfl
theorem qk_rhs_2 (i : S4x512x512.Idx) (q : dot_S4x512x256_S4x512x256_S4x512x512_2_2_1_1_0_0.contr.Idx) :
    (dot_S4x512x256_S4x512x256_S4x512x512_2_2_1_1_0_0.rhsIdx i q 2).val = (q ⟨0, by decide⟩).val :=
  dot_S4x512x256_S4x512x256_S4x512x512_2_2_1_1_0_0.rhsIdx_val_of_single rfl i q

/-- The product of a query block and a key block into a zero accumulator, at (t, r, j): the inner product of query row
    r and key row j of batch t. -/
theorem matmul_qk (a b : FVec Ideal S4x512x256 .bf16) (t : Fin 4) (r j : Fin 512) :
    matmul dot_S4x512x256_S4x512x256_S4x512x512_2_2_1_1_0_0 none a b (constant (F := Ideal) S4x512x512 .f32 0x00000000#32) (ix3 t r j)
      = ∑ d : Fin 256, a (ix3 t r d) * b (ix3 t j d) := by
  simp only [matmul]
  rw [Ideal.matmul_constant_zero_apply, ← Equiv.sum_comp (contrEquiv1 dot_S4x512x256_S4x512x256_S4x512x512_2_2_1_1_0_0 256 rfl rfl).symm]
  refine Finset.sum_congr rfl fun k _ => ?_
  have hk := contrEquiv1_symm_val dot_S4x512x256_S4x512x256_S4x512x512_2_2_1_1_0_0 256 rfl rfl k
  have el : dot_S4x512x256_S4x512x256_S4x512x512_2_2_1_1_0_0.lhsIdx (ix3 t r j) ((contrEquiv1 dot_S4x512x256_S4x512x256_S4x512x512_2_2_1_1_0_0 256 rfl rfl).symm k) = ix3 t r k := funext fun c => Fin.ext (by
    match c with
    | ⟨0, _⟩ => exact qk_lhs_0 _ _
    | ⟨1, _⟩ => exact qk_lhs_1 _ _
    | ⟨2, _⟩ => exact (qk_lhs_2 _ _).trans hk)
  have er : dot_S4x512x256_S4x512x256_S4x512x512_2_2_1_1_0_0.rhsIdx (ix3 t r j) ((contrEquiv1 dot_S4x512x256_S4x512x256_S4x512x512_2_2_1_1_0_0 256 rfl rfl).symm k) = ix3 t j k := funext fun c => Fin.ext (by
    match c with
    | ⟨0, _⟩ => exact qk_rhs_0 _ _
    | ⟨1, _⟩ => exact qk_rhs_1 _ _
    | ⟨2, _⟩ => exact (qk_rhs_2 _ _).trans hk)
  rw [el, er]

/-- The single-precision pattern 0x3D800000 (sign 0, exponent 123, fraction 0) denotes 2^(123 - 127) = 1/16. -/
theorem ofBits_sixteenth : Ideal.ofBits .f32 0x3D800000#32 = ((1 / 16 : ℝ) : EReal) := by
  simp [Ideal.ofBits, Ideal.ieee, -EReal.coe_mul]; norm_num

/-- A select on the flag of an equality test is the if on the equality. -/
theorem select_cmpi_eq {α : Type} (x y : BitVec 32) (a b : α) :
    Scalar.select (IntOp.cmpi .eq x y) a b = if x = y then a else b := by
  unfold Scalar.select
  exact if_congr IntOp.cmpi_eq rfl rfl

/-- The block's masked, scaled scores read at (t, r, j). -/
theorem pay9_at (x0 x1 : Vec Ideal S4x512x256 .bf16) (x3 : Vec Ideal S4x512x512 .i32) (t : Fin 4) (r j : Fin 512) :
    k1_pay9 (F := Ideal) x0 x1 x3 (ix3 t r j) = blockScore x0 x1 x3 t r j := by
  unfold k1_pay9
  rw [shapeCast_self, shapeCast_self]
  show Scalar.select (IntOp.cmpi .eq (x3 (ix3 t r j)) 0#32) (Ideal.ofBits .f32 0x00000000#32)
    (matmul dot_S4x512x256_S4x512x256_S4x512x512_2_2_1_1_0_0 none x0 x1 (constant (F := Ideal) S4x512x512 .f32 0x00000000#32) (ix3 t r j)
      * Ideal.ofBits .f32 0x3D800000#32) = _
  rw [matmul_qk, select_cmpi_eq, Ideal.ofBits_zero_f32, ofBits_sixteenth]
  rfl

/-! ## Columns: a row statistic kept as a [4, 512, 1] array -/

/-- A [4, 512] array cast to [4, 512, 1] reads, at (t, r, 0), the operand at (t, r). -/
theorem cast_col_apply {α : Type} (x : S4x512.Idx → α) (h : S4x512.ShapeCasts S4x512x1) (t : Fin 4) (r : Fin 512) (u : Fin 1) :
    shapeCast S4x512x1 x h (ix3 t r u) = x (ix2 t r) := by
  refine shapeCast_apply x h (ix3 t r u) (ix2 t r) ?_
  rw [Shape.rowMajor_val_two, Shape.rowMajor_val_three]
  have hu := u.isLt
  show t.val * 512 + r.val = (t.val * 512 + r.val) * 1 + u.val
  omega

/-- A [4, 512, 1] column broadcast along 512 lanes reads, at (t, r, j), the column at (t, r, 0). -/
theorem bcast_col512_apply {α : Type} (x : S4x512x1.Idx → α) (h : S4x512x1.Broadcasts S4x512x512) (t : Fin 4) (r j : Fin 512) :
    broadcastTo S4x512x512 x h (ix3 t r j) = x (ix3 t r 0) := by
  refine broadcastTo_apply x h (ix3 t r j) (ix3 t r 0) fun a => ?_
  match a with
  | ⟨0, _⟩ => show t.val = if (4 : Nat) = 1 then 0 else t.val; rw [if_neg (by decide)]
  | ⟨1, _⟩ => show r.val = if (512 : Nat) = 1 then 0 else r.val; rw [if_neg (by decide)]
  | ⟨2, _⟩ => show (0 : Nat) = if (1 : Nat) = 1 then 0 else j.val; rw [if_pos rfl]

/-- A [4, 512, 1] column broadcast along 256 lanes reads, at (t, r, h), the column at (t, r, 0). -/
theorem bcast_col256_apply {α : Type} (x : S4x512x1.Idx → α) (h : S4x512x1.Broadcasts S4x512x256) (t : Fin 4) (r : Fin 512) (c : Fin 256) :
    broadcastTo S4x512x256 x h (ix3 t r c) = x (ix3 t r 0) := by
  refine broadcastTo_apply x h (ix3 t r c) (ix3 t r 0) fun a => ?_
  match a with
  | ⟨0, _⟩ => show t.val = if (4 : Nat) = 1 then 0 else t.val; rw [if_neg (by decide)]
  | ⟨1, _⟩ => show r.val = if (512 : Nat) = 1 then 0 else r.val; rw [if_neg (by decide)]
  | ⟨2, _⟩ => show (0 : Nat) = if (1 : Nat) = 1 then 0 else c.val; rw [if_pos rfl]

/-! ## Reductions over the lane axis -/

/-- The reduced index (t, r) with lane j put back on the dropped axis is (t, r, j). -/
theorem lift_lane (h : S4x512x512.Reduces [2] S4x512) (t : Fin 4) (r : Fin 512) (k : Fin (S4x512x512.size 2)) :
    h.lift (ix2 t r) k = ix3 t r (⟨k.val, k.isLt⟩ : Fin 512) := by
  funext c; apply Fin.ext
  fin_cases c <;> rfl

/-- The maximum over the lanes from the word of -inf, at (t, r): the fold of max from the bottom element over row
    (t, r). -/
theorem lanemax_apply (src : FVec Ideal S4x512x512 .f32) (h : S4x512x512.Reduces [2] S4x512) (hφ : FKind.Formats .f32)
    (hacc : (0xFF800000#32 : BitVec 32) = FKind.maximumf.neutral .f32 hφ) (t : Fin 4) (r : Fin 512) :
    multiReduction .maximumf [2] S4x512 src 0xFF800000#32 h hφ hacc (ix2 t r)
      = Finset.univ.fold max ⊥ (fun j : Fin 512 => src (ix3 t r j)) := by
  refine (Ideal.multiReduction_maximumf_single src 0xFF800000#32 h hφ hacc (ix2 t r)).trans ?_
  have hf : (src ∘ h.lift (ix2 t r)) = fun j : Fin 512 => src (ix3 t r j) :=
    funext fun k => congrArg src (lift_lane h t r k)
  rw [hf]
  show Finset.fold max (Ideal.ofBits .f32 0xFF800000#32) _ _ = _
  rw [OnlineAttention.ofBits_neg_inf]
  rfl

/-- The sum over the lanes from the zero word, at (t, r): the sum over row (t, r). -/
theorem lanesum_apply (src : FVec Ideal S4x512x512 .f32) (h : S4x512x512.Reduces [2] S4x512) (hφ : FKind.Formats .f32)
    (hacc : (0x00000000#32 : BitVec 32) = FKind.add.neutral .f32 hφ) (t : Fin 4) (r : Fin 512) :
    multiReduction .add [2] S4x512 src 0x00000000#32 h hφ hacc (ix2 t r) = ∑ j : Fin 512, src (ix3 t r j) := by
  refine (Ideal.multiReduction_add_single src 0x00000000#32 h hφ hacc (ix2 t r)).trans ?_
  exact Finset.sum_congr rfl fun k _ => congrArg src (lift_lane h t r k)

/-! ## The new maximum -/

/-- A column joined with the lane maximum of an array, at (t, r, 0). -/
theorem joinmax_at (sc : FVec Ideal S4x512x512 .f32) (m0 : FVec Ideal S4x512x1 .f32) (h : S4x512x512.Reduces [2] S4x512)
    (hφ : FKind.Formats .f32) (hacc : (0xFF800000#32 : BitVec 32) = FKind.maximumf.neutral .f32 hφ)
    (hc : S4x512.ShapeCasts S4x512x1) (t : Fin 4) (r : Fin 512) :
    maximumf m0 (shapeCast S4x512x1 (multiReduction .maximumf [2] S4x512 sc 0xFF800000#32 h hφ hacc) hc) (ix3 t r 0)
      = max (m0 (ix3 t r 0)) (Finset.univ.fold max ⊥ (fun j : Fin 512 => sc (ix3 t r j))) :=
  (maximumf_apply _ _ _).trans (congrArg (max (m0 (ix3 t r 0))) ((cast_col_apply _ hc t r 0).trans (lanemax_apply sc h hφ hacc t r)))

/-- The joined maximum at (t, r, 0): the old maximum joined with the maximum of the block's scores of row (t, r). -/
theorem pay10_at (x0 x1 : Vec Ideal S4x512x256 .bf16) (x3 : Vec Ideal S4x512x512 .i32) (m0 : Vec Ideal S4x512x1 .f32)
    (t : Fin 4) (r : Fin 512) :
    k1_pay10 (F := Ideal) x0 x1 x3 m0 (ix3 t r 0)
      = max (m0 (ix3 t r 0)) (Finset.univ.fold max ⊥ (blockScore x0 x1 x3 t r)) := by
  unfold k1_pay10
  refine (joinmax_at (k1_pay9 (F := Ideal) x0 x1 x3) m0 _ _ _ _ t r).trans ?_
  exact congrArg (fun f => max (m0 (ix3 t r 0)) (Finset.fold max ⊥ f Finset.univ)) (funext fun j => pay9_at x0 x1 x3 t r j)

/-- The new running maximum at (t, r, 0). -/
theorem mNew_at (x0 x1 : Vec Ideal S4x512x256 .bf16) (x3 : Vec Ideal S4x512x512 .i32) (m0 : Vec Ideal S4x512x1 .f32)
    (t : Fin 4) (r : Fin 512) :
    mNew (F := Ideal) x0 x1 x3 m0 (ix3 t r 0)
      = max (m0 (ix3 t r 0)) (Finset.univ.fold max ⊥ (blockScore x0 x1 x3 t r)) := by
  unfold mNew k1_pay3
  exact (congrFun (shapeCast_self _ _) _).trans (pay10_at x0 x1 x3 m0 t r)

end Cert.KernelIdeal.Hand

end
-- ==== Proof.Region1Step.lean ====
/-
  One update of the attention body read at an index, second part: the new running sum, the new running weighted sum, the
  output block and the start state.

  With M' the new running maximum of row (t, r): the rescaling factor is e^(m − M') at the column's (t, r, 0), read
  everywhere along a row through the broadcast; the block's exponentials are e^(score − M'); the new sum is the old one
  times the factor plus the sum of the exponentials over the 512 lanes (a lane sum from the zero word is the plain sum);
  the new weighted sum at feature h is the old one times the factor plus the product of the exponentials with the value
  block into a zero accumulator, which at (t, r, h) is the sum over the block's key rows j of the exponential at
  (t, r, j) times the value at (t, j, h).  These are, component by component, the online update of (m, l, a) by the
  block's scores and values, in the order the body computes them.  The output is the weighted sum divided by the sum
  of its row; the start state is (−inf, 0, 0).
-/
import proofs.«133710_j6906307412546_2_alg».proof.Proof.Region1StepScore

noncomputable section

namespace Cert.KernelIdeal.Hand

open Cert.KernelIdeal Cert.KernelIdeal.Gen Idealize.ShloMosaic Idealize.SL.Sem Idealize.ShloMosaic.ValueIdx
open scoped BigOperators

/-! ## The rescaling factor and the block's exponentials -/

/-- The rescaling factor at (t, r, 0): the exponential of the old maximum less the new one. -/
theorem pay11_at (x0 x1 : Vec Ideal S4x512x256 .bf16) (x3 : Vec Ideal S4x512x512 .i32) (m0 : Vec Ideal S4x512x1 .f32)
    (t : Fin 4) (r : Fin 512) :
    k1_pay11 (F := Ideal) x0 x1 x3 m0 m0 (ix3 t r 0)
      = Ideal.exp (m0 (ix3 t r 0) - max (m0 (ix3 t r 0)) (Finset.univ.fold max ⊥ (blockScore x0 x1 x3 t r))) := by
  unfold k1_pay11
  exact congrArg (fun y => Ideal.exp (m0 (ix3 t r 0) - y)) (pay10_at x0 x1 x3 m0 t r)

/-- The exponential of an array less a column broadcast along the lanes, at (t, r, j). -/
theorem expsub_at (sc : FVec Ideal S4x512x512 .f32) (m : FVec Ideal S4x512x1 .f32) (hb : S4x512x1.Broadcasts S4x512x512)
    (t : Fin 4) (r j : Fin 512) :
    exp (subf sc (broadcastTo S4x512x512 m hb)) (ix3 t r j) = Ideal.exp (sc (ix3 t r j) - m (ix3 t r 0)) :=
  congrArg (fun y => Ideal.exp (sc (ix3 t r j) - y)) (bcast_col512_apply m hb t r j)

/-- The block's exponentials at (t, r, j): the exponential of the score less the new maximum of the row. -/
theorem pay12_at (x0 x1 : Vec Ideal S4x512x256 .bf16) (x3 : Vec Ideal S4x512x512 .i32) (m0 : Vec Ideal S4x512x1 .f32)
    (t : Fin 4) (r j : Fin 512) :
    k1_pay12 (F := Ideal) x0 x1 x3 m0 (ix3 t r j)
      = Ideal.exp (blockScore x0 x1 x3 t r j - max (m0 (ix3 t r 0)) (Finset.univ.fold max ⊥ (blockScore x0 x1 x3 t r))) := by
  unfold k1_pay12
  refine (expsub_at (k1_pay9 (F := Ideal) x0 x1 x3) (k1_pay10 (F := Ideal) x0 x1 x3 m0) _ t r j).trans ?_
  rw [pay9_at, pay10_at]

/-- The rescaled old sum at (t, r, 0). -/
theorem pay13_at (x0 x1 : Vec Ideal S4x512x256 .bf16) (x3 : Vec Ideal S4x512x512 .i32) (m0 l0 : Vec Ideal S4x512x1 .f32)
    (t : Fin 4) (r : Fin 512) :
    k1_pay13 (F := Ideal) x0 x1 x3 m0 m0 l0 (ix3 t r 0)
      = Ideal.exp (m0 (ix3 t r 0) - max (m0 (ix3 t r 0)) (Finset.univ.fold max ⊥ (blockScore x0 x1 x3 t r))) * l0 (ix3 t r 0) := by
  unfold k1_pay13
  exact congrArg (fun y => y * l0 (ix3 t r 0)) (pay11_at x0 x1 x3 m0 t r)

/-! ## The new sum -/

/-- A column plus the lane sum of an array, at (t, r, 0). -/
theorem addcol_at (p : FVec Ideal S4x512x512 .f32) (w : FVec Ideal S4x512x1 .f32) (h : S4x512x512.Reduces [2] S4x512)
    (hφ : FKind.Formats .f32) (hacc : (0x00000000#32 : BitVec 32) = FKind.add.neutral .f32 hφ)
    (hc : S4x512.ShapeCasts S4x512x1) (t : Fin 4) (r : Fin 512) :
    addf w (shapeCast S4x512x1 (multiReduction .add [2] S4x512 p 0x00000000#32 h hφ hacc) hc) (ix3 t r 0)
      = w (ix3 t r 0) + ∑ j : Fin 512, p (ix3 t r j) :=
  congrArg (fun y => w (ix3 t r 0) + y) ((cast_col_apply _ hc t r 0).trans (lanesum_apply p h hφ hacc t r))

/-- The new running sum at (t, r, 0): the old sum rescaled plus the sum of the block's exponentials of row (t, r). -/
theorem lNew_at (x0 x1 : Vec Ideal S4x512x256 .bf16) (x3 : Vec Ideal S4x512x512 .i32) (m0 l0 : Vec Ideal S4x512x1 .f32)
    (t : Fin 4) (r : Fin 512) :
    lNew (F := Ideal) x0 x1 x3 m0 l0 (ix3 t r 0)
      = Ideal.exp (m0 (ix3 t r 0) - max (m0 (ix3 t r 0)) (Finset.univ.fold max ⊥ (blockScore x0 x1 x3 t r))) * l0 (ix3 t r 0)
        + ∑ c : Fin 512, Ideal.exp (blockScore x0 x1 x3 t r c - max (m0 (ix3 t r 0)) (Finset.univ.fold max ⊥ (blockScore x0 x1 x3 t r))) := by
  unfold lNew k1_pay1
  refine (congrFun (shapeCast_self _ _) _).trans ?_
  refine (addcol_at (k1_pay12 (F := Ideal) x0 x1 x3 m0) (k1_pay13 (F := Ideal) x0 x1 x3 m0 m0 l0) _ _ _ _ t r).trans ?_
  rw [pay13_at]
  exact congrArg (fun y => _ + y) (Finset.sum_congr rfl fun c _ => pay12_at x0 x1 x3 m0 t r c)

/-! ## The weights-values contraction: batch axis 0, axis 2 of the left operand against axis 1 of the right -/

theorem pv_lhs_0 (i : S4x512x256.Idx) (q : dot_S4x512x512_S4x512x256_S4x512x256_2_1_1_2_0_0.contr.Idx) :
    (dot_S4x512x512_S4x512x256_S4x512x256_2_1_1_2_0_0.lhsIdx i q 0).val = (i 0).val := by
  unfold DotDims.lhsIdx
  rw [dif_pos (show (0 : Fin S4x512x512.rank) ∈ dot_S4x512x512_S4x512x256_S4x512x256_2_1_1_2_0_0.lhsBatch by decide)]
  rfl
theorem pv_lhs_1 (i : S4x512x256.Idx) (q : dot_S4x512x512_S4x512x256_S4x512x256_2_1_1_2_0_0.contr.Idx) :
    (dot_S4x512x512_S4x512x256_S4x512x256_2_1_1_2_0_0.lhsIdx i q 1).val = (i 1).val := by
  unfold DotDims.lhsIdx
  rw [dif_neg (show ¬(1 : Fin S4x512x512.rank) ∈ dot_S4x512x512_S4x512x256_S4x512x256_2_1_1_2_0_0.lhsBatch by decide), dif_pos (show (1 : Fin S4x512x512.rank) ∈ dot_S4x512x512_S4x512x256_S4x512x256_2_1_1_2_0_0.lhsNonContracting by decide)]
  rfl
theorem pv_lhs_2 (i : S4x512x256.Idx) (q : dot_S4x512x512_S4x512x256_S4x512x256_2_1_1_2_0_0.contr.Idx) :
    (dot_S4x512x512_S4x512x256_S4x512x256_2_1_1_2_0_0.lhsIdx i q 2).val = (q ⟨0, by decide⟩).val :=
  dot_S4x512x512_S4x512x256_S4x512x256_2_1_1_2_0_0.lhsIdx_val_of_single rfl i q
theorem pv_rhs_0 (i : S4x512x256.Idx) (q : dot_S4x512x512_S4x512x256_S4x512x256_2_1_1_2_0_0.contr.Idx) :
    (dot_S4x512x512_S4x512x256_S4x512x256_2_1_1_2_0_0.rhsIdx i q 0).val = (i 0).val := by
  unfold DotDims.rhsIdx
  rw [dif_pos (show (0 : Fin S4x512x256.rank) ∈ dot_S4x512x512_S4x512x256_S4x512x256_2_1_1_2_0_0.rhsBatch by decide)]
  rfl
theorem pv_rhs_1 (i : S4x512x256.Idx) (q : dot_S4x512x512_S4x512x256_S4x512x256_2_1_1_2_0_0.contr.Idx) :
    (dot_S4x512x512_S4x512x256_S4x512x256_2_1_1_2_0_0.rhsIdx i q 1).val = (q ⟨0, by decide⟩).val :=
  dot_S4x512x512_S4x512x256_S4x512x256_2_1_1_2_0_0.rhsIdx_val_of_single rfl i q
theorem pv_rhs_2 (i : S4x512x256.Idx) (q : dot_S4x512x512_S4x512x256_S4x512x256_2_1_1_2_0_0.contr.Idx) :
    (dot_S4x512x512_S4x512x256_S4x512x256_2_1_1_2_0_0.rhsIdx i q 2).val = (i 2).val := by
  unfold DotDims.rhsIdx
  rw [dif_neg (show ¬(2 : Fin S4x512x256.rank) ∈ dot_S4x512x512_S4x512x256_S4x512x256_2_1_1_2_0_0.rhsBatch by decide), dif_pos (show (2 : Fin S4x512x256.rank) ∈ dot_S4x512x512_S4x512x256_S4x512x256_2_1_1_2_0_0.rhsNonContracting by decide)]
  rfl

/-- The product of a weight block and a value block into a zero accumulator, at (t, r, h): the sum over the block's 512
    key rows of the weight of (t, r, j) times the value at (t, j, h). -/
theorem matmul_pv (p : FVec Ideal S4x512x512 .bf16) (v : FVec Ideal S4x512x256 .bf16) (t : Fin 4) (r : Fin 512) (h : Fin 256) :
    matmul dot_S4x512x512_S4x512x256_S4x512x256_2_1_1_2_0_0 none p v (constant (F := Ideal) S4x512x256 .f32 0x00000000#32) (ix3 t r h)
      = ∑ j : Fin 512, p (ix3 t r j) * v (ix3 t j h) := by
  simp only [matmul]
  rw [Ideal.matmul_constant_zero_apply, ← Equiv.sum_comp (contrEquiv1 dot_S4x512x512_S4x512x256_S4x512x256_2_1_1_2_0_0 512 rfl rfl).symm]
  refine Finset.sum_congr rfl fun k _ => ?_
  have hk := contrEquiv1_symm_val dot_S4x512x512_S4x512x256_S4x512x256_2_1_1_2_0_0 512 rfl rfl k
  have el : dot_S4x512x512_S4x512x256_S4x512x256_2_1_1_2_0_0.lhsIdx (ix3 t r h) ((contrEquiv1 dot_S4x512x512_S4x512x256_S4x512x256_2_1_1_2_0_0 512 rfl rfl).symm k) = ix3 t r k := funext fun c => Fin.ext (by
    match c with
    | ⟨0, _⟩ => exact pv_lhs_0 _ _
    | ⟨1, _⟩ => exact pv_lhs_1 _ _
    | ⟨2, _⟩ => exact (pv_lhs_2 _ _).trans hk)
  have er : dot_S4x512x512_S4x512x256_S4x512x256_2_1_1_2_0_0.rhsIdx (ix3 t r h) ((contrEquiv1 dot_S4x512x512_S4x512x256_S4x512x256_2_1_1_2_0_0 512 rfl rfl).symm k) = ix3 t k h := funext fun c => Fin.ext (by
    match c with
    | ⟨0, _⟩ => exact pv_rhs_0 _ _
    | ⟨1, _⟩ => exact (pv_rhs_1 _ _).trans hk
    | ⟨2, _⟩ => exact pv_rhs_2 _ _)
  rw [el, er]

/-! ## The new weighted sum -/

/-- A column broadcast along the 256 features times an array, plus the product of a weight block and a value block,
    at (t, r, h). -/
theorem acc_at (p : FVec Ideal S4x512x512 .f32) (e : FVec Ideal S4x512x1 .f32) (a : FVec Ideal S4x512x256 .f32)
    (v : FVec Ideal S4x512x256 .bf16) (hb : S4x512x1.Broadcasts S4x512x256) (hs : S4x512x256.ShapeCasts S4x512x256)
    (hlt : FTy.bf16.bits < FTy.f32.bits) (t : Fin 4) (r : Fin 512) (h : Fin 256) :
    addf (mulf (broadcastTo S4x512x256 e hb) a)
        (matmul dot_S4x512x512_S4x512x256_S4x512x256_2_1_1_2_0_0 none (truncf .bf16 p hlt) (shapeCast S4x512x256 v hs)
          (constant (F := Ideal) S4x512x256 .f32 0x00000000#32)) (ix3 t r h)
      = e (ix3 t r 0) * a (ix3 t r h) + ∑ j : Fin 512, p (ix3 t r j) * v (ix3 t j h) := by
  rw [shapeCast_self]
  show broadcastTo S4x512x256 e hb (ix3 t r h) * a (ix3 t r h)
    + matmul dot_S4x512x512_S4x512x256_S4x512x256_2_1_1_2_0_0 none (truncf .bf16 p hlt) v
        (constant (F := Ideal) S4x512x256 .f32 0x00000000#32) (ix3 t r h) = _
  rw [bcast_col256_apply, matmul_pv]
  rfl

/-- The new running weighted sum at (t, r, h): the old one rescaled plus the sum over the block's key rows of the
    exponential times the value. -/
theorem aNew_at (x0 x1 x2 : Vec Ideal S4x512x256 .bf16) (x3 : Vec Ideal S4x512x512 .i32) (m0 : Vec Ideal S4x512x1 .f32)
    (a0 : Vec Ideal S4x512x256 .f32) (t : Fin 4) (r : Fin 512) (h : Fin 256) :
    aNew (F := Ideal) x0 x1 x2 x3 m0 a0 (ix3 t r h)
      = Ideal.exp (m0 (ix3 t r 0) - max (m0 (ix3 t r 0)) (Finset.univ.fold max ⊥ (blockScore x0 x1 x3 t r))) * a0 (ix3 t r h)
        + ∑ c : Fin 512, Ideal.exp (blockScore x0 x1 x3 t r c - max (m0 (ix3 t r 0)) (Finset.univ.fold max ⊥ (blockScore x0 x1 x3 t r)))
            * x2 (ix3 t c h) := by
  unfold aNew k1_pay2 k1_pay8
  refine (congrFun (shapeCast_self _ _) _).trans ?_
  refine (acc_at (k1_pay12 (F := Ideal) x0 x1 x3 m0) (k1_pay11 (F := Ideal) x0 x1 x3 m0 m0) a0 x2 _ _ _ t r h).trans ?_
  rw [pay11_at]
  exact congrArg (fun y => _ + y) (Finset.sum_congr rfl fun c _ => congrArg (fun y => y * x2 (ix3 t c h)) (pay12_at x0 x1 x3 m0 t r c))

/-! ## One update -/

/-- **One grid point is one online update.**  At row (t, r) and feature h the new running maximum, sum and weighted sum
    are the online update of the old ones by the block's scores of the row and the block's values of feature h. -/
theorem update_at (x0 x1 x2 : Vec Ideal S4x512x256 .bf16) (x3 : Vec Ideal S4x512x512 .i32) (m0 l0 : Vec Ideal S4x512x1 .f32)
    (a0 : Vec Ideal S4x512x256 .f32) (t : Fin 4) (r : Fin 512) (h : Fin 256) :
    (mNew (F := Ideal) x0 x1 x3 m0 (ix3 t r 0), lNew (F := Ideal) x0 x1 x3 m0 l0 (ix3 t r 0),
        aNew (F := Ideal) x0 x1 x2 x3 m0 a0 (ix3 t r h))
      = OnlineAttention.step3 (blockScore x0 x1 x3 t r) (fun j => x2 (ix3 t j h))
          (m0 (ix3 t r 0), l0 (ix3 t r 0), a0 (ix3 t r h)) := by
  rw [mNew_at, lNew_at, aNew_at]
  rfl

/-! ## The output and the start state -/

/-- The output block at (t, r, h): the weighted sum divided by the sum of row (t, r). -/
theorem oNew_at (a : Vec Ideal S4x512x256 .f32) (l : Vec Ideal S4x512x1 .f32) (t : Fin 4) (r : Fin 512) (h : Fin 256) :
    oNew (F := Ideal) a l (ix3 t r h) = Ideal.div (a (ix3 t r h)) (l (ix3 t r 0)) := by
  unfold oNew k1_pay4
  exact congrArg (Ideal.div (a (ix3 t r h))) (bcast_col256_apply l _ t r h)

/-- The start maximum is the bottom element: the word is that of -inf. -/
theorem init_m (t : Fin 4) (r : Fin 512) : k1_pay5 (F := Ideal) (ix3 t r 0) = ⊥ := by
  unfold k1_pay5
  exact (congrFun (shapeCast_self _ _) _).trans OnlineAttention.ofBits_neg_inf

/-- The start sum is 0. -/
theorem init_l (t : Fin 4) (r : Fin 512) : k1_pay6 (F := Ideal) (ix3 t r 0) = 0 := by
  unfold k1_pay6
  exact (congrFun (shapeCast_self _ _) _).trans Ideal.ofBits_zero_f32

/-- The start weighted sum is 0. -/
theorem init_a (t : Fin 4) (r : Fin 512) (h : Fin 256) : k1_pay7 (F := Ideal) (ix3 t r h) = 0 := by
  unfold k1_pay7
  exact (congrFun (shapeCast_self _ _) _).trans Ideal.ofBits_zero_f32

end Cert.KernelIdeal.Hand

end
-- ==== Proof.Spec.lean ====
/-
  The mathematics both programs compute, as functions of coordinates over the extended reals.

  A projection is a row of inner products plus a bias: proj x w b (t, s, h) = (∑ d, x t s d · w h d) + b h.
  A score is the inner product of a query row and a key row times 1/16 (the head dimension is 256 and
  √256 = 16), replaced by 0 where the mask word is 0.  The attention output is the softmax-weighted mean of
  the value rows: with M the maximum of row (t, s) of the scores,
  attn sc v (t, s, h) = ∑ j, (e^(sc t s j − M) / ∑ j', e^(sc t s j' − M)) · v t j h.
  A row of 4096 entries read as 8 blocks of 512 is blk f j c = f (j·512 + c).
-/
import Mathlib
import Idealize.ShloMosaic.PureOps.Ideal

noncomputable section

namespace Cert.Spec

open Idealize.ShloMosaic
open scoped BigOperators

/-- A linear projection with bias: row `(t, s)` of `x` against row `h` of `w`, plus `b h`. -/
def proj (x : Fin 4 → Fin 4096 → Fin 1024 → EReal) (w : Fin 256 → Fin 1024 → EReal) (b : Fin 256 → EReal) :
    Fin 4 → Fin 4096 → Fin 256 → EReal :=
  fun t s h => (∑ d : Fin 1024, x t s d * w h d) + b h

/-- The scaled, masked score of query row `s` against key row `j` of batch `t`. -/
def score (q k : Fin 4 → Fin 4096 → Fin 256 → EReal) (mask : Fin 4 → Fin 4096 → Fin 4096 → BitVec 32) :
    Fin 4 → Fin 4096 → Fin 4096 → EReal :=
  fun t s j => if mask t s j = 0#32 then 0 else (∑ d : Fin 256, q t s d * k t j d) * ((1 / 16 : ℝ) : EReal)

/-- The softmax over row `(t, s)` of the scores, applied to the value rows. -/
def attn (sc : Fin 4 → Fin 4096 → Fin 4096 → EReal) (v : Fin 4 → Fin 4096 → Fin 256 → EReal) :
    Fin 4 → Fin 4096 → Fin 256 → EReal :=
  fun t s h => ∑ j : Fin 4096,
    Ideal.div (Ideal.exp (sc t s j - Finset.univ.fold max ⊥ (sc t s)))
      (∑ j' : Fin 4096, Ideal.exp (sc t s j' - Finset.univ.fold max ⊥ (sc t s))) * v t j h

/-- The whole computation from the ten arguments. -/
def out (xq xk xv : Fin 4 → Fin 4096 → Fin 1024 → EReal) (mask : Fin 4 → Fin 4096 → Fin 4096 → BitVec 32)
    (wq : Fin 256 → Fin 1024 → EReal) (bq : Fin 256 → EReal) (wk : Fin 256 → Fin 1024 → EReal) (bk : Fin 256 → EReal)
    (wv : Fin 256 → Fin 1024 → EReal) (bv : Fin 256 → EReal) : Fin 4 → Fin 4096 → Fin 256 → EReal :=
  attn (score (proj xq wq bq) (proj xk wk bk) mask) (proj xv wv bv)

/-- A row of 4096 entries read as 8 blocks of 512 (zero past the eighth block). -/
def blk (f : Fin 4096 → EReal) : ℕ → Fin 512 → EReal :=
  fun j c => if h : j < 8 then f ⟨j * 512 + c.val, by omega⟩ else 0

end Cert.Spec

end
-- ==== Proof.SpecLaws.lean ====
/-
  Laws of the specification: the blocked online computation of a row ends in the row's softmax-weighted sum, and the
  projections and scores of real arguments are real.

  A row of 4096 real scores and a row of 4096 real values are read as 8 blocks of 512.  After the eighth block the online
  state holds the row maximum M, the positive real L = ∑ e^(sc j − M) and the real A = ∑ e^(sc j − M) · y j.  Dividing
  by the nonzero real L is multiplying by 1/L, so A / L = A · (1 / L) = ∑ (e^(sc j − M) / L) · y j, which is the
  attention output of the row.  A finite sum of products of reals plus a real is a real; so is such a sum times 1/16,
  and so is 0.
-/
import proofs.«133710_j6906307412546_2_alg».proof.Proof.Spec
import proofs.«133710_j6906307412546_2_alg».proof.Proof.LibOnlineAttention

noncomputable section

namespace Cert.Spec

open Idealize.ShloMosaic OnlineSoftmax OnlineAttention
open scoped BigOperators

/-! ## Division by a nonzero real -/

/-- Dividing by a nonzero real is multiplying by the quotient of 1 by it, whatever the dividend. -/
theorem div_eq_mul_div_one {L : ℝ} (h : L ≠ 0) (A : EReal) :
    Ideal.div A (L : EReal) = A * Ideal.div 1 (L : EReal) := by
  rw [Ideal.div_coe h, Ideal.div_coe h, one_mul]

/-! ## Blocks of a row -/

/-- Block j < 8 of a row, at column c, is the row at j · 512 + c. -/
theorem blk_apply (f : Fin 4096 → EReal) (j : Fin 8) (c : Fin 512) :
    blk f j.val c = f ⟨j.val * 512 + c.val, by omega⟩ := by
  unfold blk
  rw [dif_pos j.isLt]

/-- The running sum after the eight blocks of a real row is a nonzero real. -/
theorem run3_sum_real (sc y : Fin 4096 → EReal) (hsc : ∀ j, ∃ r : ℝ, sc j = (r : EReal)) :
    ∃ L : ℝ, L ≠ 0 ∧ (run3 (blk sc) (blk y) 8).2.1 = (L : EReal) := by
  choose r hr using hsc
  have htop : ∀ i, sc i ≠ ⊤ := fun i => by rw [hr i]; exact EReal.coe_ne_top _
  have hbot : ∀ i, sc i ≠ ⊥ := fun i => by rw [hr i]; exact EReal.coe_ne_bot _
  obtain ⟨Mw, L, hL, -, -, -, h3⟩ := run_eq_onepass (B := 8) (K := 512) (by norm_num) sc (blk sc)
    (fun j c => blk_apply sc j c) htop (fun j => ⟨⟨0, by norm_num⟩, hbot _⟩)
  refine ⟨L, hL.ne', ?_⟩
  have hfs := run3_fst (blk sc) (blk y) 8
  rw [← h3, ← hfs]

/-- **The online computation of a row is the row's attention output.**  For a row of real scores and a row of real
    values, the accumulator after the eight blocks divided by the running sum is the softmax-weighted sum of the
    values. -/
theorem online_final (sc y : Fin 4096 → EReal) (hsc : ∀ j, ∃ r : ℝ, sc j = (r : EReal))
    (hy : ∀ j, ∃ r : ℝ, y j = (r : EReal)) :
    Ideal.div (run3 (blk sc) (blk y) 8).2.2 (run3 (blk sc) (blk y) 8).2.1
      = ∑ j : Fin 4096, Ideal.div (Ideal.exp (sc j - Finset.univ.fold max ⊥ sc))
          (∑ j' : Fin 4096, Ideal.exp (sc j' - Finset.univ.fold max ⊥ sc)) * y j := by
  obtain ⟨L, hL, hrun⟩ := run3_sum_real sc y hsc
  have hfin := run3_final (B := 8) (K := 512) (by norm_num) (by norm_num) sc y (blk sc) (blk y)
    (fun j c => blk_apply sc j c) (fun j c => blk_apply y j c) hsc hy
  rw [← hfin, hrun, div_eq_mul_div_one hL]

/-! ## Real arguments give real projections and scores -/

/-- A projection of real activations, weights and biases is real. -/
theorem proj_real (x : Fin 4 → Fin 4096 → Fin 1024 → EReal) (w : Fin 256 → Fin 1024 → EReal) (b : Fin 256 → EReal)
    (hx : ∀ t s d, ∃ r : ℝ, x t s d = (r : EReal)) (hw : ∀ h d, ∃ r : ℝ, w h d = (r : EReal))
    (hb : ∀ h, ∃ r : ℝ, b h = (r : EReal)) (t : Fin 4) (s : Fin 4096) (h : Fin 256) :
    ∃ r : ℝ, proj x w b t s h = (r : EReal) := by
  obtain ⟨r1, h1⟩ := real_sum_mul (fun d => x t s d) (fun d => w h d) (fun d => hx t s d) (fun d => hw h d)
  obtain ⟨r2, h2⟩ := hb h
  refine ⟨r1 + r2, ?_⟩
  unfold proj
  rw [h1, h2, EReal.coe_add]

/-- A score of real queries and keys is real: it is 0, or a real sum times 1/16. -/
theorem score_real (q k : Fin 4 → Fin 4096 → Fin 256 → EReal) (mask : Fin 4 → Fin 4096 → Fin 4096 → BitVec 32)
    (hq : ∀ t s d, ∃ r : ℝ, q t s d = (r : EReal)) (hk : ∀ t s d, ∃ r : ℝ, k t s d = (r : EReal))
    (t : Fin 4) (s j : Fin 4096) :
    ∃ r : ℝ, score q k mask t s j = (r : EReal) := by
  unfold score
  by_cases hm : mask t s j = 0#32
  · exact ⟨0, by rw [if_pos hm, EReal.coe_zero]⟩
  · obtain ⟨r1, h1⟩ := real_sum_mul (fun d => q t s d) (fun d => k t j d) (fun d => hq t s d) (fun d => hk t j d)
    exact ⟨r1 * (1 / 16), by rw [if_neg hm, h1, EReal.coe_mul]⟩

/-! ## The attention output by the online computation -/

/-- The attention output of real scores and real values at (t, s, h) is the online computation over row (t, s) of the
    scores and column h of the values. -/
theorem attn_eq_online (sc : Fin 4 → Fin 4096 → Fin 4096 → EReal) (v : Fin 4 → Fin 4096 → Fin 256 → EReal)
    (hsc : ∀ t s j, ∃ r : ℝ, sc t s j = (r : EReal)) (hv : ∀ t j h, ∃ r : ℝ, v t j h = (r : EReal))
    (t : Fin 4) (s : Fin 4096) (h : Fin 256) :
    attn sc v t s h
      = Ideal.div (run3 (blk (sc t s)) (blk (fun j => v t j h)) 8).2.2 (run3 (blk (sc t s)) (blk (fun j => v t j h)) 8).2.1 :=
  (online_final (sc t s) (fun j => v t j h) (hsc t s) (fun j => hv t j h)).symm

/-- The whole computation of real arguments at (t, s, h) is the online computation over row (t, s) of the masked scaled
    scores of the projected queries and keys, and column h of the projected values. -/
theorem out_eq_online (xq xk xv : Fin 4 → Fin 4096 → Fin 1024 → EReal) (mask : Fin 4 → Fin 4096 → Fin 4096 → BitVec 32)
    (wq : Fin 256 → Fin 1024 → EReal) (bq : Fin 256 → EReal) (wk : Fin 256 → Fin 1024 → EReal) (bk : Fin 256 → EReal)
    (wv : Fin 256 → Fin 1024 → EReal) (bv : Fin 256 → EReal)
    (hxq : ∀ t s d, ∃ r : ℝ, xq t s d = (r : EReal)) (hxk : ∀ t s d, ∃ r : ℝ, xk t s d = (r : EReal))
    (hxv : ∀ t s d, ∃ r : ℝ, xv t s d = (r : EReal))
    (hwq : ∀ h d, ∃ r : ℝ, wq h d = (r : EReal)) (hbq : ∀ h, ∃ r : ℝ, bq h = (r : EReal))
    (hwk : ∀ h d, ∃ r : ℝ, wk h d = (r : EReal)) (hbk : ∀ h, ∃ r : ℝ, bk h = (r : EReal))
    (hwv : ∀ h d, ∃ r : ℝ, wv h d = (r : EReal)) (hbv : ∀ h, ∃ r : ℝ, bv h = (r : EReal))
    (t : Fin 4) (s : Fin 4096) (h : Fin 256) :
    out xq xk xv mask wq bq wk bk wv bv t s h
      = Ideal.div
          (run3 (blk (score (proj xq wq bq) (proj xk wk bk) mask t s)) (blk (fun j => proj xv wv bv t j h)) 8).2.2
          (run3 (blk (score (proj xq wq bq) (proj xk wk bk) mask t s)) (blk (fun j => proj xv wv bv t j h)) 8).2.1 :=
  attn_eq_online (score (proj xq wq bq) (proj xk wk bk) mask) (proj xv wv bv)
    (score_real _ _ mask (proj_real xq wq bq hxq hwq hbq) (proj_real xk wk bk hxk hwk hbk))
    (proj_real xv wv bv hxv hwv hbv) t s h

end Cert.Spec

end
-- ==== Proof.AttnArr.lean ====
/-
  The attention call's output array as one function of the arrays it is entered with: entry (t, s, h) is the online
  softmax state of row s of the scores of batch t against column h of the values after all eight key blocks, the
  weighted sum divided by the sum.
-/
import proofs.«133710_j6906307412546_2_alg».proof.KernelIdeal
import proofs.«133710_j6906307412546_2_alg».proof.Proof.Spec
import proofs.«133710_j6906307412546_2_alg».proof.Proof.LibOnlineAttention
import Idealize.ShloMosaic.Lib.ValueIdx

noncomputable section

namespace Cert.KernelIdeal.Hand

open Cert.KernelIdeal Idealize.ShloMosaic Idealize.ShloMosaic.ValueIdx

/-- A 4×4096×256 array and the 4×4096×4096 mask, by coordinates. -/
abbrev crd (X : S4x4096x256.Idx → EReal) : Fin 4 → Fin 4096 → Fin 256 → EReal := fun t s d => X (ix3 t s d)
abbrev crdM (X : S4x4096x4096.Idx → BitVec 32) : Fin 4 → Fin 4096 → Fin 4096 → BitVec 32 := fun t s j => X (ix3 t s j)

/-- Row `s` of the scores of batch `b`. -/
abbrev scRow (Q K : S4x4096x256.Idx → EReal) (Mk : S4x4096x4096.Idx → BitVec 32) (b : Fin 4) (s : Fin 4096) : Fin 4096 → EReal :=
  Cert.Spec.score (crd Q) (crd K) (crdM Mk) b s

/-- The online state of row `s` of batch `b` against column `h` of the values after `n` key blocks. -/
abbrev stateAt (Q K Vv : S4x4096x256.Idx → EReal) (Mk : S4x4096x4096.Idx → BitVec 32) (b : Fin 4) (s : Fin 4096) (h : Fin 256) (n : ℕ) :
    EReal × EReal × EReal :=
  OnlineAttention.run3 (Cert.Spec.blk (scRow Q K Mk b s)) (Cert.Spec.blk (fun j : Fin 4096 => Vv (ix3 b j h))) n

/-- The output entry at coordinates. -/
def attnAt (Q K Vv : S4x4096x256.Idx → EReal) (Mk : S4x4096x4096.Idx → BitVec 32) (b : Fin 4) (s : Fin 4096) (h : Fin 256) : EReal :=
  Ideal.div (stateAt Q K Vv Mk b s h 8).2.2 (stateAt Q K Vv Mk b s h 8).2.1

/-- The output array. -/
def attnArr (Q K Vv : S4x4096x256.Idx → EReal) (Mk : S4x4096x4096.Idx → BitVec 32) : S4x4096x256.Idx → EReal :=
  fun i => attnAt Q K Vv Mk (i 0) (i 1) (i 2)

end Cert.KernelIdeal.Hand

end
-- ==== Proof.Region1Blocks.lean ====
/-
  The attention call at the ideal instance: the block a window stages at grid point t = 8·qi + ki is a rectangle of its
  array — query rows 512·qi + r, key and value rows 512·ki + j, mask entries (512·qi + r, 512·ki + j) — so the block of
  scores the body forms there is key block ki of a row of the whole score matrix, and the eight query blocks' write-backs
  at ki = 7 tile the output array.
-/
import proofs.«133710_j6906307412546_2_alg».proof.Proof.Region1Frame
import proofs.«133710_j6906307412546_2_alg».proof.Proof.Region1StepScore
import proofs.«133710_j6906307412546_2_alg».proof.Proof.SpecLaws
import proofs.«133710_j6906307412546_2_alg».proof.Proof.AttnArr
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open OnlineAttention
open scoped BigOperators

variable (V : (c : Dev nD) → (b : Ref sig .tc) → Buf (Elt Ideal) ((c : Thread nD τ).loc b))

/-! ## The index maps over the grid -/

/-- At point `t` = 8·qi + ki the query, mask and output blocks sit at row block qi, the key and value blocks at row
    block ki, the mask block at column block ki. -/
theorem idx_facts1 : ∀ t : Fin cfg1.N,
    (win1_0.index t (0 : Fin 3) = 0 ∧ win1_0.index t (1 : Fin 3) = t.val / 8 ∧ win1_0.index t (2 : Fin 3) = 0)
    ∧ (win1_1.index t (0 : Fin 3) = 0 ∧ win1_1.index t (1 : Fin 3) = t.val % 8 ∧ win1_1.index t (2 : Fin 3) = 0)
    ∧ (win1_2.index t (0 : Fin 3) = 0 ∧ win1_2.index t (1 : Fin 3) = t.val % 8 ∧ win1_2.index t (2 : Fin 3) = 0)
    ∧ (win1_3.index t (0 : Fin 3) = 0 ∧ win1_3.index t (1 : Fin 3) = t.val / 8 ∧ win1_3.index t (2 : Fin 3) = t.val % 8)
    ∧ (win1_4.index t (0 : Fin 3) = 0 ∧ win1_4.index t (1 : Fin 3) = t.val / 8 ∧ win1_4.index t (2 : Fin 3) = 0) :=
  (by decide +kernel : ∀ t : Fin grid1.N, _)

/-! ## Each input block read at an index of its array -/

theorem iblk1_0_apply (c : Dev nD) (t : Fin cfg1.N) (b : Fin 4) (r : Fin 512) (d : Fin 256) (s : Fin 4096) (hs : s.val = 512 * (t.val / 8) + r.val) :
    (iblk1 V c 0 t : S4x512x256.Idx → EReal) (ix3 b r d) = (V c main_v4 : S4x4096x256.Idx → EReal) (ix3 b s d) := by
  obtain ⟨⟨ea, eb, ec⟩, -, -, -, -⟩ := idx_facts1 t
  unfold iblk1
  rw [View.read_apply]
  show V c main_v4 _ = V c main_v4 _
  refine congrArg _ (funext fun a => Fin.ext ?_)
  match a with
  | ⟨0, _⟩ => show win1_0.index t (0 : Fin 3) * 4 + 1 * b.val = b.val; rw [ea]; omega
  | ⟨1, _⟩ => show win1_0.index t (1 : Fin 3) * 512 + 1 * r.val = s.val; rw [eb, hs]; omega
  | ⟨2, _⟩ => show win1_0.index t (2 : Fin 3) * 256 + 1 * d.val = d.val; rw [ec]; omega

theorem iblk1_1_apply (c : Dev nD) (t : Fin cfg1.N) (b : Fin 4) (j : Fin 512) (d : Fin 256) (s : Fin 4096) (hs : s.val = 512 * (t.val % 8) + j.val) :
    (iblk1 V c 1 t : S4x512x256.Idx → EReal) (ix3 b j d) = (V c main_v5 : S4x4096x256.Idx → EReal) (ix3 b s d) := by
  obtain ⟨-, ⟨ea, eb, ec⟩, -, -, -⟩ := idx_facts1 t
  unfold iblk1
  rw [View.read_apply]
  show V c main_v5 _ = V c main_v5 _
  refine congrArg _ (funext fun a => Fin.ext ?_)
  match a with
  | ⟨0, _⟩ => show win1_1.index t (0 : Fin 3) * 4 + 1 * b.val = b.val; rw [ea]; omega
  | ⟨1, _⟩ => show win1_1.index t (1 : Fin 3) * 512 + 1 * j.val = s.val; rw [eb, hs]; omega
  | ⟨2, _⟩ => show win1_1.index t (2 : Fin 3) * 256 + 1 * d.val = d.val; rw [ec]; omega

theorem iblk1_2_apply (c : Dev nD) (t : Fin cfg1.N) (b : Fin 4) (j : Fin 512) (d : Fin 256) (s : Fin 4096) (hs : s.val = 512 * (t.val % 8) + j.val) :
    (iblk1 V c 2 t : S4x512x256.Idx → EReal) (ix3 b j d) = (V c main_v6 : S4x4096x256.Idx → EReal) (ix3 b s d) := by
  obtain ⟨-, -, ⟨ea, eb, ec⟩, -, -⟩ := idx_facts1 t
  unfold iblk1
  rw [View.read_apply]
  show V c main_v6 _ = V c main_v6 _
  refine congrArg _ (funext fun a => Fin.ext ?_)
  match a with
  | ⟨0, _⟩ => show win1_2.index t (0 : Fin 3) * 4 + 1 * b.val = b.val; rw [ea]; omega
  | ⟨1, _⟩ => show win1_2.index t (1 : Fin 3) * 512 + 1 * j.val = s.val; rw [eb, hs]; omega
  | ⟨2, _⟩ => show win1_2.index t (2 : Fin 3) * 256 + 1 * d.val = d.val; rw [ec]; omega

theorem iblk1_3_apply (c : Dev nD) (t : Fin cfg1.N) (b : Fin 4) (r : Fin 512) (j : Fin 512) (s : Fin 4096) (s' : Fin 4096)
    (hs : s.val = 512 * (t.val / 8) + r.val) (hs' : s'.val = 512 * (t.val % 8) + j.val) :
    (iblk1 V c 3 t : S4x512x512.Idx → BitVec 32) (ix3 b r j) = (V c main_arg3 : S4x4096x4096.Idx → BitVec 32) (ix3 b s s') := by
  obtain ⟨-, -, -, ⟨ea, eb, ec⟩, -⟩ := idx_facts1 t
  unfold iblk1
  rw [View.read_apply]
  show V c main_arg3 _ = V c main_arg3 _
  refine congrArg _ (funext fun a => Fin.ext ?_)
  match a with
  | ⟨0, _⟩ => show win1_3.index t (0 : Fin 3) * 4 + 1 * b.val = b.val; rw [ea]; omega
  | ⟨1, _⟩ => show win1_3.index t (1 : Fin 3) * 512 + 1 * r.val = s.val; rw [eb, hs]; omega
  | ⟨2, _⟩ => show win1_3.index t (2 : Fin 3) * 512 + 1 * j.val = s'.val; rw [ec, hs']; omega

/-! ## The block of scores at a point is a key block of a row of the score matrix -/

/-- The scores the body forms at point `t` for query row `r` of batch `b` are key block `t % 8` of row
    `512 (t / 8) + r` of the whole score matrix. -/
theorem blockScore_eq (c : Dev nD) (t : Fin cfg1.N) (b : Fin 4) (r : Fin 512) (s : Fin 4096) (hs : s.val = 512 * (t.val / 8) + r.val) :
    blockScore (iblk1 V c 0 t) (iblk1 V c 1 t) (iblk1 V c 3 t) b r
      = Cert.Spec.blk (scRow (V c main_v4) (V c main_v5) (V c main_arg3) b s) (t.val % 8) := by
  funext j
  have h8 : t.val % 8 < 8 := Nat.mod_lt _ (by decide)
  have hj : j.val < 512 := j.isLt
  have hk : t.val % 8 * 512 + j.val < 4096 := by omega
  have hk' : (⟨t.val % 8 * 512 + j.val, hk⟩ : Fin 4096).val = 512 * (t.val % 8) + j.val := by
    show t.val % 8 * 512 + j.val = 512 * (t.val % 8) + j.val; omega
  unfold Cert.Spec.blk
  rw [dif_pos h8]
  have e3 : (iblk1 V c 3 t : S4x512x512.Idx → BitVec 32) (ix3 b r j)
      = (V c main_arg3 : S4x4096x4096.Idx → BitVec 32) (ix3 b s ⟨t.val % 8 * 512 + j.val, hk⟩) :=
    iblk1_3_apply V c t b r j s ⟨t.val % 8 * 512 + j.val, hk⟩ hs hk'
  show blockScore (iblk1 V c 0 t) (iblk1 V c 1 t) (iblk1 V c 3 t) b r j
      = Cert.Spec.score (crd (V c main_v4)) (crd (V c main_v5)) (crdM (V c main_arg3)) b s ⟨t.val % 8 * 512 + j.val, hk⟩
  unfold blockScore Cert.Spec.score
  refine if_congr (by rw [e3]) rfl ?_
  refine congrArg (· * ((1 / 16 : ℝ) : EReal)) (Finset.sum_congr rfl fun d _ => congrArg₂ (· * ·) ?_ ?_)
  · exact iblk1_0_apply V c t b r d s hs
  · exact iblk1_1_apply V c t b j d ⟨t.val % 8 * 512 + j.val, hk⟩ hk'

/-- Column `h` of the value block at point `t` is key block `t % 8` of column `h` of the value array. -/
theorem valcol_eq (c : Dev nD) (t : Fin cfg1.N) (b : Fin 4) (h : Fin 256) :
    (fun j : Fin 512 => (iblk1 V c 2 t : S4x512x256.Idx → EReal) (ix3 b j h))
      = Cert.Spec.blk (fun j : Fin 4096 => (V c main_v6 : S4x4096x256.Idx → EReal) (ix3 b j h)) (t.val % 8) := by
  funext j
  have h8 : t.val % 8 < 8 := Nat.mod_lt _ (by decide)
  have hj : j.val < 512 := j.isLt
  have hk : t.val % 8 * 512 + j.val < 4096 := by omega
  unfold Cert.Spec.blk
  rw [dif_pos h8]
  exact iblk1_2_apply V c t b j h ⟨t.val % 8 * 512 + j.val, hk⟩
    (by show t.val % 8 * 512 + j.val = 512 * (t.val % 8) + j.val; omega)

/-! ## The output window's blocks -/

/-- Entry `(b, r, h)` of the output block at point `t` sits in the output array at row `512 (t / 8) + r`. -/
theorem emb4_eq (t : Fin cfg1.N) (b : Fin 4) (r : Fin 512) (h : Fin 256) (s : Fin 4096) (hs : s.val = 512 * (t.val / 8) + r.val) :
    ((cfg1.win 4).blk t).view.emb (ix3 b r h) = (ix3 b s h : S4x4096x256.Idx) := by
  obtain ⟨-, -, -, -, ⟨ea, eb, ec⟩⟩ := idx_facts1 t
  funext a
  apply Fin.ext
  match a with
  | ⟨0, _⟩ => show win1_4.index t (0 : Fin 3) * 4 + 1 * b.val = b.val; rw [ea]; omega
  | ⟨1, _⟩ => show win1_4.index t (1 : Fin 3) * 512 + 1 * r.val = s.val; rw [eb, hs]; omega
  | ⟨2, _⟩ => show win1_4.index t (2 : Fin 3) * 256 + 1 * h.val = h.val; rw [ec]; omega

/-- An index of the output array is in point `t`'s block iff each coordinate is in the block's range on its axis. -/
theorem mem_blk4 (t : Fin cfg1.N) (i : S4x4096x256.Idx) :
    i ∈ ((cfg1.win 4).blk t).view.set ↔ ∀ a : Fin 3, win1_4.index t a * S4x512x256.size a ≤ (i a).val ∧ (i a).val < win1_4.index t a * S4x512x256.size a + S4x512x256.size a := by
  show i ∈ ((View.whole main_v7).slice (win1_4.rect t)).set ↔ _
  rw [View.set_slice_whole, Rect.mem_set_unit]
  exact Iff.rfl

/-- Row `s` of the output array is written back by the last point of query block `s / 512`. -/
theorem cover4 (i : S4x4096x256.Idx) : ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 256 := (i 2).isLt
  have hN : cfg1.N = 64 := N_1
  have ht : (i 1).val / 512 * 8 + 7 < cfg1.N := by rw [hN]; omega
  refine ⟨⟨(i 1).val / 512 * 8 + 7, ht⟩, (flush1_4 _).mpr (by show ((i 1).val / 512 * 8 + 7) % 8 = 7; omega), ?_⟩
  rw [mem_blk4]
  obtain ⟨-, -, -, -, ⟨ea, eb, ec⟩⟩ := idx_facts1 ⟨(i 1).val / 512 * 8 + 7, ht⟩
  intro a
  match a with
  | ⟨0, _⟩ =>
    show win1_4.index ⟨(i 1).val / 512 * 8 + 7, ht⟩ (0 : Fin 3) * 4 ≤ (i 0).val ∧ (i 0).val < win1_4.index ⟨(i 1).val / 512 * 8 + 7, ht⟩ (0 : Fin 3) * 4 + 4
    rw [ea]; omega
  | ⟨1, _⟩ =>
    show win1_4.index ⟨(i 1).val / 512 * 8 + 7, ht⟩ (1 : Fin 3) * 512 ≤ (i 1).val ∧ (i 1).val < win1_4.index ⟨(i 1).val / 512 * 8 + 7, ht⟩ (1 : Fin 3) * 512 + 512
    rw [eb]
    show ((i 1).val / 512 * 8 + 7) / 8 * 512 ≤ (i 1).val ∧ (i 1).val < ((i 1).val / 512 * 8 + 7) / 8 * 512 + 512
    omega
  | ⟨2, _⟩ =>
    show win1_4.index ⟨(i 1).val / 512 * 8 + 7, ht⟩ (2 : Fin 3) * 256 ≤ (i 2).val ∧ (i 2).val < win1_4.index ⟨(i 1).val / 512 * 8 + 7, ht⟩ (2 : Fin 3) * 256 + 256
    rw [ec]; omega

end Cert.KernelIdeal.Hand

end
-- ==== Proof.Region1Value.lean ====
/-
  The attention call at the ideal instance: its output array, entry by entry.

  At every grid point t = 8·qi + ki the three scratch buffers hold, at row r and column h, the online-softmax state of
  row 512·qi + r of the scores against column h of the values after ki + 1 key blocks — by induction along the grid: a
  first key block starts from (−∞, 0, 0), a later one from what the point before left, and one update of the body is
  one step of the recurrence on the block of scores and the block of values the point stages.  At ki = 7 the body stores
  the weighted sum over the sum, and the eight query blocks tile the 4096 rows of the output array.
-/
import proofs.«133710_j6906307412546_2_alg».proof.Proof.Region1Pieces
import proofs.«133710_j6906307412546_2_alg».proof.Proof.Region1Step
import proofs.«133710_j6906307412546_2_alg».proof.Proof.Region1Blocks
import proofs.«133710_j6906307412546_2_alg».proof.Proof.AttnArr
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open OnlineAttention
open scoped BigOperators

variable (V : (c : Dev nD) → (b : Ref sig .tc) → Buf (Elt Ideal) ((c : Thread nD τ).loc b))

/-! ## One point is one step of the recurrence -/

/-- A first key block leaves the state after one block. -/
theorem caseA_state (c : Dev nD) (t : Fin cfg1.N) (hh0 : cond1_0 (grid1.coords t)) (hh1 : ¬cond1_1 (grid1.coords t))
    (b : Fin 4) (r : Fin 512) (h : Fin 256) (s : Fin 4096) (hs : s.val = 512 * (t.val / 8) + r.val) (hk : t.val % 8 = 0) :
    ((caseA (F := Ideal) V c t hh0 hh1).2.1 (ix3 b r (0 : Fin 1)), (caseA (F := Ideal) V c t hh0 hh1).2.2.1 (ix3 b r (0 : Fin 1)), (caseA (F := Ideal) V c t hh0 hh1).2.2.2 (ix3 b r h)) = stateAt (V c main_v4) (V c main_v5) (V c main_v6) (V c main_arg3) b s h 1 := by
  unfold caseA
  dsimp only
  rw [sout1_A_0_eq, sout1_A_1_eq, sout1_A_2_eq, update_at, init_m, init_l, init_a, blockScore_eq V c t b r s hs, valcol_eq V c t b h, hk]
  rfl

/-- A middle key block takes the state after `k` blocks to the state after `k + 1`. -/
theorem caseB_state (c : Dev nD) (t : Fin cfg1.N) (hh0 : ¬cond1_0 (grid1.coords t)) (hh1 : ¬cond1_1 (grid1.coords t))
    (xs0 xs1 : Vec Ideal S4x512x1 .f32) (xs2 : Vec Ideal S4x512x256 .f32)
    (b : Fin 4) (r : Fin 512) (h : Fin 256) (s : Fin 4096) (hs : s.val = 512 * (t.val / 8) + r.val) (k : ℕ) (hk : t.val % 8 = k)
    (hprev : (xs0 (ix3 b r (0 : Fin 1)), xs1 (ix3 b r (0 : Fin 1)), xs2 (ix3 b r h)) = stateAt (V c main_v4) (V c main_v5) (V c main_v6) (V c main_arg3) b s h k) :
    ((caseB (F := Ideal) V c t hh0 hh1 xs0 xs1 xs2).2.1 (ix3 b r (0 : Fin 1)), (caseB (F := Ideal) V c t hh0 hh1 xs0 xs1 xs2).2.2.1 (ix3 b r (0 : Fin 1)), (caseB (F := Ideal) V c t hh0 hh1 xs0 xs1 xs2).2.2.2 (ix3 b r h)) = stateAt (V c main_v4) (V c main_v5) (V c main_v6) (V c main_arg3) b s h (k + 1) := by
  unfold caseB
  dsimp only
  rw [sout1_B_0_eq, sout1_B_1_eq, sout1_B_2_eq, update_at, hprev, blockScore_eq V c t b r s hs, valcol_eq V c t b h, hk]
  rfl

/-- So does the last key block. -/
theorem caseC_state (c : Dev nD) (t : Fin cfg1.N) (hh0 : ¬cond1_0 (grid1.coords t)) (hh1 : cond1_1 (grid1.coords t))
    (xs0 xs1 : Vec Ideal S4x512x1 .f32) (xs2 : Vec Ideal S4x512x256 .f32)
    (b : Fin 4) (r : Fin 512) (h : Fin 256) (s : Fin 4096) (hs : s.val = 512 * (t.val / 8) + r.val) (k : ℕ) (hk : t.val % 8 = k)
    (hprev : (xs0 (ix3 b r (0 : Fin 1)), xs1 (ix3 b r (0 : Fin 1)), xs2 (ix3 b r h)) = stateAt (V c main_v4) (V c main_v5) (V c main_v6) (V c main_arg3) b s h k) :
    ((caseC (F := Ideal) V c t hh0 hh1 xs0 xs1 xs2).2.1 (ix3 b r (0 : Fin 1)), (caseC (F := Ideal) V c t hh0 hh1 xs0 xs1 xs2).2.2.1 (ix3 b r (0 : Fin 1)), (caseC (F := Ideal) V c t hh0 hh1 xs0 xs1 xs2).2.2.2 (ix3 b r h)) = stateAt (V c main_v4) (V c main_v5) (V c main_v6) (V c main_arg3) b s h (k + 1) := by
  unfold caseC
  dsimp only
  rw [sout1_C_0_eq, sout1_C_1_eq, sout1_C_2_eq, update_at, hprev, blockScore_eq V c t b r s hs, valcol_eq V c t b h, hk]
  rfl

/-! ## The scratch buffers along the grid -/

/-- After position `n` = 8·qi + ki the scratch buffers hold, at row `r` and column `h`, the state of row 512·qi + r after
    ki + 1 key blocks. -/
theorem scratch_eq (c : Dev nD) : ∀ (n : ℕ) (hn : n < cfg1.N) (b : Fin 4) (r : Fin 512) (h : Fin 256) (s : Fin 4096),
    s.val = 512 * (n / 8) + r.val →
    ((outsAt1 (F := Ideal) V c n hn).2.1 (ix3 b r (0 : Fin 1)), (outsAt1 (F := Ideal) V c n hn).2.2.1 (ix3 b r (0 : Fin 1)), (outsAt1 (F := Ideal) V c n hn).2.2.2 (ix3 b r h)) = stateAt (V c main_v4) (V c main_v5) (V c main_v6) (V c main_arg3) b s h (n % 8 + 1) := by
  intro n
  induction n with
  | zero =>
    intro hn b r h s hs
    rw [outsAt1_A V c ⟨0, hn⟩ rfl (by show ¬(0 % 8 = 7); decide)]
    exact caseA_state V c ⟨0, hn⟩ _ _ b r h s hs rfl
  | succ n ih =>
    intro hn b r h s hs
    by_cases h0 : (n + 1) % 8 = 0
    · have h1 : ¬(n + 1) % 8 = 7 := by omega
      rw [outsAt1_A V c ⟨n + 1, hn⟩ h0 h1]
      exact (caseA_state V c ⟨n + 1, hn⟩ _ _ b r h s hs h0).trans (by rw [h0])
    · have hs' : s.val = 512 * (n / 8) + r.val := by omega
      have hk : (n + 1) % 8 = n % 8 + 1 := by omega
      have hp := ih (Nat.lt_of_succ_lt hn) b r h s hs'
      by_cases h1 : (n + 1) % 8 = 7
      · rw [outsAt1_C V c ⟨n + 1, hn⟩ h0 h1]
        exact (caseC_state V c ⟨n + 1, hn⟩ _ _ _ _ _ b r h s hs (n % 8 + 1) hk hp).trans (by rw [hk])
      · rw [outsAt1_B V c ⟨n + 1, hn⟩ h0 h1]
        exact (caseB_state V c ⟨n + 1, hn⟩ _ _ _ _ _ b r h s hs (n % 8 + 1) hk hp).trans (by rw [hk])

/-! ## The output block at a last key block -/

/-- At a last key block the output buffer holds the new weighted sum over the new sum. -/
theorem out_eq_div (c : Dev nD) (t : Fin cfg1.N) (h0 : ¬t.val % 8 = 0) (h7 : t.val % 8 = 7) (b : Fin 4) (r : Fin 512) (h : Fin 256) :
    (outsAt1 (F := Ideal) V c t.val t.isLt).1 (ix3 b r h)
      = Ideal.div ((outsAt1 (F := Ideal) V c t.val t.isLt).2.2.2 (ix3 b r h)) ((outsAt1 (F := Ideal) V c t.val t.isLt).2.2.1 (ix3 b r (0 : Fin 1))) := by
  rw [outsAt1_C V c t h0 h7]
  unfold caseC
  dsimp only
  rw [out1_C_4_eq, sout1_C_1_eq, sout1_C_2_eq, oNew_at]

/-- What a last key block writes back is its query block's rows of the output array. -/
theorem flushed4_eq (c : Dev nD) (t : Fin cfg1.N) (hf : (cfg1.win 4).flush t = true) :
    (dat1 (F := Ideal) V c).flushed 4 t
      = ((cfg1.win 4).blk t).view.read (Elt Ideal) (attnArr (V c main_v4) (V c main_v5) (V c main_v6) (V c main_arg3)) := by
  have h7 : t.val % 8 = 7 := (flush1_4 t).mp hf
  have h0 : ¬t.val % 8 = 0 := by omega
  have hN : t.val < 64 := lt_of_lt_of_eq t.isLt (show cfg1.N = 64 from N_1)
  show (cfg1.win 4).cut (grid1.coords t) ((dat1 V c).after 4 t) = _
  rw [after1_4]
  funext j
  obtain ⟨b, r, h, rfl⟩ : ∃ (b : Fin 4) (r : Fin 512) (h : Fin 256), j = ix3 b r h := ⟨j 0, j 1, j 2, eq_ix3 j⟩
  have hr : r.val < 512 := r.isLt
  show (outsAt1 (F := Ideal) V c t.val t.isLt).1 (ix3 b r h)
    = attnArr (V c main_v4) (V c main_v5) (V c main_v6) (V c main_arg3) (((cfg1.win 4).blk t).view.emb (ix3 b r h))
  rw [emb4_eq t b r h ⟨512 * (t.val / 8) + r.val, by omega⟩ rfl, out_eq_div V c t h0 h7 b r h]
  have hst := scratch_eq V c t.val t.isLt b r h ⟨512 * (t.val / 8) + r.val, by omega⟩ rfl
  rw [h7] at hst
  have e1 := congrArg (fun p : EReal × EReal × EReal => p.2.1) hst
  have e2 := congrArg (fun p : EReal × EReal × EReal => p.2.2) hst
  dsimp only at e1 e2
  rw [e1, e2]
  rfl

/-- The output array after the run. -/
theorem arr1_4 (c : Dev nD) :
    (dat1 (F := Ideal) V c).arrAt 4 cfg1.N = attnArr (V c main_v4) (V c main_v5) (V c main_v6) (V c main_arg3) :=
  (dat1 (F := Ideal) V c).arrAt_eq_of_cover 4 _ (fun t hf => flushed4_eq V c t hf) cover4

end Cert.KernelIdeal.Hand

end
-- ==== Proof.Region0Value.lean ====
import proofs.«133710_j6906307412546_2_alg».proof.Proof.Region0
import proofs.«133710_j6906307412546_2_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The projection region at the ideal instance: each projected array, entry by entry

Over the extended reals every float operation is exact and a change of format is the identity, so the block
the body stores at a grid point is, entry `(p, q)`, the inner product of row `p` of the activation block
with row `q` of the weight matrix, plus entry `q` of the bias.  Row `p` of the block at point `t` is row
`512 t + p` of the activation array, the weights and the bias are whole at every point, and the 32 output
blocks tile the 16384 rows; so each projected array is, at `(r, q)`,
`(∑ d, x (r, d) · w (q, d)) + b q` of the arrays the region found.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! ## One block's payload at an index -/

/-- The body's contraction: axis 1 of the activation block against axis 1 of the weight. -/
abbrev DD := dot_S512x1024_S256x1024_S512x256_1_1_0_0_n_n

/-- The matrix unit into a zero accumulator, at `(p, q)`: the inner product of row `p` of the left operand and
    row `q` of the right one. -/
theorem lhs_0 (i : S512x256.Idx) (k : DD.contr.Idx) : (DD.lhsIdx i k 0).val = (i 0).val := by
  unfold DotDims.lhsIdx
  rw [dif_neg (show ¬(0 : Fin S512x1024.rank) ∈ DD.lhsBatch by decide), dif_pos (show (0 : Fin S512x1024.rank) ∈ DD.lhsNonContracting by decide)]
  rfl
theorem lhs_1 (i : S512x256.Idx) (k : DD.contr.Idx) : (DD.lhsIdx i k 1).val = (k ⟨0, by decide⟩).val :=
  DD.lhsIdx_val_of_single rfl i k
theorem rhs_0 (i : S512x256.Idx) (k : DD.contr.Idx) : (DD.rhsIdx i k 0).val = (i 1).val := by
  unfold DotDims.rhsIdx
  rw [dif_neg (show ¬(0 : Fin S256x1024.rank) ∈ DD.rhsBatch by decide), dif_pos (show (0 : Fin S256x1024.rank) ∈ DD.rhsNonContracting by decide)]
  rfl
theorem rhs_1 (i : S512x256.Idx) (k : DD.contr.Idx) : (DD.rhsIdx i k 1).val = (k ⟨0, by decide⟩).val :=
  DD.rhsIdx_val_of_single rfl i k

theorem mm_apply (l : FVec Ideal S512x1024 .bf16) (r : FVec Ideal S256x1024 .bf16) (p : Fin 512) (q : Fin 256) :
    FloatOps.matmul DD none l r (constant (F := Ideal) S512x256 .f32 0x00000000#32) (ix2 p q)
      = ∑ d : Fin 1024, l (ix2 p d) * r (ix2 q d) := by
  rw [Ideal.matmul_constant_zero_apply, ← Equiv.sum_comp (contrEquiv1 DD 1024 rfl rfl).symm]
  refine Finset.sum_congr rfl fun k _ => ?_
  have hk := contrEquiv1_symm_val DD 1024 rfl rfl k
  have el : DD.lhsIdx (ix2 p q) ((contrEquiv1 DD 1024 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 1024 rfl rfl).symm k) = ix2 q k := funext fun a => Fin.ext (by
    match a with
    | ⟨0, _⟩ => exact rhs_0 _ _
    | ⟨1, _⟩ => exact (rhs_1 _ _).trans hk)
  rw [el, er]

/-- The bias laid along every row, at `(p, q)`: entry `q`. -/
theorem bias_apply (b : FVec Ideal S256 .f32) (p : Fin 512) (q : Fin 256) :
    broadcastTo S512x256 (shapeCast S1x256 b shapeCasts_S256_S1x256) broadcasts_S1x256_S512x256 (ix2 p q) = b (ix1 q) :=
  (broadcastTo_1b_ab_apply _ broadcasts_S1x256_S512x256 p q).trans (shapeCast_a_1a_apply b shapeCasts_S256_S1x256 0 q)

/-- A projection block from its three loads: entry `(p, q)` is `(∑ d, x (p, d) · w (q, d)) + b q`. -/
def projBlk (x : FVec Ideal S512x1024 .f32) (w : FVec Ideal S256x1024 .f32) (b : FVec Ideal S256 .f32) : FVec Ideal S512x256 .bf16 :=
  fun j => (∑ d : Fin 1024, x (ix2 (j 0) d) * w (ix2 (j 1) d)) + b (ix1 (j 1))

theorem pay1_eq (x : FVec Ideal S512x1024 .f32) (w : FVec Ideal S256x1024 .f32) (b : FVec Ideal S256 .f32) :
    k0_pay1 (F := Ideal) x w b = projBlk x w b := by
  funext j
  obtain ⟨p, q, rfl⟩ : ∃ (p : Fin 512) (q : Fin 256), j = ix2 p q := ⟨j 0, j 1, eq_ix2 j⟩
  unfold k0_pay1
  simp only [shapeCast_self]
  show FloatOps.matmul DD none _ _ (constant (F := Ideal) S512x256 .f32 0x00000000#32) (ix2 p q)
      + broadcastTo S512x256 (shapeCast S1x256 b shapeCasts_S256_S1x256) broadcasts_S1x256_S512x256 (ix2 p q) = _
  refine (congrArg₂ (· + ·) (mm_apply _ _ p q) (bias_apply b p q)).trans ?_
  rfl

theorem pay2_eq (x : FVec Ideal S512x1024 .f32) (w : FVec Ideal S256x1024 .f32) (b : FVec Ideal S256 .f32) :
    k0_pay2 (F := Ideal) x w b = projBlk x w b := by
  funext j
  obtain ⟨p, q, rfl⟩ : ∃ (p : Fin 512) (q : Fin 256), j = ix2 p q := ⟨j 0, j 1, eq_ix2 j⟩
  unfold k0_pay2
  simp only [shapeCast_self]
  show FloatOps.matmul DD none _ _ (constant (F := Ideal) S512x256 .f32 0x00000000#32) (ix2 p q)
      + broadcastTo S512x256 (shapeCast S1x256 b shapeCasts_S256_S1x256) broadcasts_S1x256_S512x256 (ix2 p q) = _
  refine (congrArg₂ (· + ·) (mm_apply _ _ p q) (bias_apply b p q)).trans ?_
  rfl

theorem pay3_eq (x : FVec Ideal S512x1024 .f32) (w : FVec Ideal S256x1024 .f32) (b : FVec Ideal S256 .f32) :
    k0_pay3 (F := Ideal) x w b = projBlk x w b := by
  funext j
  obtain ⟨p, q, rfl⟩ : ∃ (p : Fin 512) (q : Fin 256), j = ix2 p q := ⟨j 0, j 1, eq_ix2 j⟩
  unfold k0_pay3
  simp only [shapeCast_self]
  show FloatOps.matmul DD none _ _ (constant (F := Ideal) S512x256 .f32 0x00000000#32) (ix2 p q)
      + broadcastTo S512x256 (shapeCast S1x256 b shapeCasts_S256_S1x256) broadcasts_S1x256_S512x256 (ix2 p q) = _
  refine (congrArg₂ (· + ·) (mm_apply _ _ p q) (bias_apply b p q)).trans ?_
  rfl

/-! ## From blocks to the array -/

theorem hz2 : (![0, 0] : Fin 2 → Nat) = fun _ => 0 := funext fun a => by fin_cases a <;> rfl
theorem hz1 : (![0] : Fin 1 → Nat) = fun _ => 0 := funext fun a => by fin_cases a; rfl

/-- A whole projected array from the three arrays it is computed from: entry `(r, q)` is
    `(∑ d, x (r, d) · w (q, d)) + b q`. -/
def projArr (x : S16384x1024.Idx → EReal) (w : S256x1024.Idx → EReal) (b : S256.Idx → EReal) : S16384x256.Idx → EReal :=
  fun i => (∑ d : Fin 1024, x (ix2 (i 0) d) * w (ix2 (i 1) d)) + b (ix1 (i 1))

/-- `projArr` at an index, written out. -/
theorem projArr_apply (x : S16384x1024.Idx → EReal) (w : S256x1024.Idx → EReal) (b : S256.Idx → EReal) (i : S16384x256.Idx) :
    projArr x w b i = (∑ d : Fin 1024, x (ix2 (i 0) d) * w (ix2 (i 1) d)) + b (ix1 (i 1)) := rfl

/-- The index maps over the grid: at point `t` the activation and output blocks are block `t` along the rows, and the
    weight and bias blocks are the whole arrays. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0 ∧ win0_7.index t (0 : Fin 1) = 0 ∧ win0_8.index t (0 : Fin 1) = 0
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

variable (V : (c : Dev nD) → (b : Ref sig .tc) → Buf (Elt Ideal) ((c : Thread nD τ).loc b))

/-! ### Each input block read at an index of its array -/

/-- Row `p` of activation window 0's block at point `t` is row `512 t + p` of its array. -/
theorem iblk0_0_apply (c : Dev nD) (t : Fin cfg0.N) (p : Fin 512) (d : Fin 1024) (r : Fin 16384) (hr : r.val = 512 * t.val + p.val) :
    (iblk0 V c 0 t : S512x1024.Idx → EReal) (ix2 p d) = (V c main_v0 : S16384x1024.Idx → EReal) (ix2 r d) := by
  obtain ⟨⟨e0a, e0b⟩, -, -, -, -, -, -, -, -, -, -, -⟩ := idx_facts t
  unfold iblk0
  rw [View.read_apply]
  show V c main_v0 _ = V c main_v0 _
  refine congrArg _ (funext fun a => Fin.ext ?_)
  match a with
  | ⟨0, _⟩ => show win0_0.index t (0 : Fin 2) * 512 + 1 * p.val = r.val; rw [e0a, hr]; omega
  | ⟨1, _⟩ => show win0_0.index t (1 : Fin 2) * 1024 + 1 * d.val = d.val; rw [e0b]; omega

/-- Row `p` of activation window 1's block at point `t` is row `512 t + p` of its array. -/
theorem iblk0_1_apply (c : Dev nD) (t : Fin cfg0.N) (p : Fin 512) (d : Fin 1024) (r : Fin 16384) (hr : r.val = 512 * t.val + p.val) :
    (iblk0 V c 1 t : S512x1024.Idx → EReal) (ix2 p d) = (V c main_v1 : S16384x1024.Idx → EReal) (ix2 r d) := by
  obtain ⟨-, ⟨e1a, e1b⟩, -, -, -, -, -, -, -, -, -, -⟩ := idx_facts t
  unfold iblk0
  rw [View.read_apply]
  show V c main_v1 _ = V c main_v1 _
  refine congrArg _ (funext fun a => Fin.ext ?_)
  match a with
  | ⟨0, _⟩ => show win0_1.index t (0 : Fin 2) * 512 + 1 * p.val = r.val; rw [e1a, hr]; omega
  | ⟨1, _⟩ => show win0_1.index t (1 : Fin 2) * 1024 + 1 * d.val = d.val; rw [e1b]; omega

/-- Row `p` of activation window 2's block at point `t` is row `512 t + p` of its array. -/
theorem iblk0_2_apply (c : Dev nD) (t : Fin cfg0.N) (p : Fin 512) (d : Fin 1024) (r : Fin 16384) (hr : r.val = 512 * t.val + p.val) :
    (iblk0 V c 2 t : S512x1024.Idx → EReal) (ix2 p d) = (V c main_v2 : S16384x1024.Idx → EReal) (ix2 r d) := by
  obtain ⟨-, -, ⟨e2a, e2b⟩, -, -, -, -, -, -, -, -, -⟩ := idx_facts t
  unfold iblk0
  rw [View.read_apply]
  show V c main_v2 _ = V c main_v2 _
  refine congrArg _ (funext fun a => Fin.ext ?_)
  match a with
  | ⟨0, _⟩ => show win0_2.index t (0 : Fin 2) * 512 + 1 * p.val = r.val; rw [e2a, hr]; omega
  | ⟨1, _⟩ => show win0_2.index t (1 : Fin 2) * 1024 + 1 * d.val = d.val; rw [e2b]; omega

/-- Weight window 3's block at every point is its whole array. -/
theorem iblk0_3_apply (c : Dev nD) (t : Fin cfg0.N) (q : Fin 256) (d : Fin 1024) (q' : Fin 256) (hq : q'.val = q.val) :
    (iblk0 V c 3 t : S256x1024.Idx → EReal) (ix2 q d) = (V c main_arg4 : S256x1024.Idx → EReal) (ix2 q' d) := by
  obtain ⟨-, -, -, ⟨e3a, e3b⟩, -, -, -, -, -, -, -, -⟩ := idx_facts t
  unfold iblk0
  rw [View.read_apply]
  show V c main_arg4 _ = V c main_arg4 _
  refine congrArg _ (funext fun a => Fin.ext ?_)
  match a with
  | ⟨0, _⟩ => show win0_3.index t (0 : Fin 2) * 256 + 1 * q.val = q'.val; rw [e3a, hq]; omega
  | ⟨1, _⟩ => show win0_3.index t (1 : Fin 2) * 1024 + 1 * d.val = d.val; rw [e3b]; omega

/-- Weight window 4's block at every point is its whole array. -/
theorem iblk0_4_apply (c : Dev nD) (t : Fin cfg0.N) (q : Fin 256) (d : Fin 1024) (q' : Fin 256) (hq : q'.val = q.val) :
    (iblk0 V c 4 t : S256x1024.Idx → EReal) (ix2 q d) = (V c main_arg6 : S256x1024.Idx → EReal) (ix2 q' d) := by
  obtain ⟨-, -, -, -, ⟨e4a, e4b⟩, -, -, -, -, -, -, -⟩ := idx_facts t
  unfold iblk0
  rw [View.read_apply]
  show V c main_arg6 _ = V c main_arg6 _
  refine congrArg _ (funext fun a => Fin.ext ?_)
  match a with
  | ⟨0, _⟩ => show win0_4.index t (0 : Fin 2) * 256 + 1 * q.val = q'.val; rw [e4a, hq]; omega
  | ⟨1, _⟩ => show win0_4.index t (1 : Fin 2) * 1024 + 1 * d.val = d.val; rw [e4b]; omega

/-- Weight window 5's block at every point is its whole array. -/
theorem iblk0_5_apply (c : Dev nD) (t : Fin cfg0.N) (q : Fin 256) (d : Fin 1024) (q' : Fin 256) (hq : q'.val = q.val) :
    (iblk0 V c 5 t : S256x1024.Idx → EReal) (ix2 q d) = (V c main_arg8 : S256x1024.Idx → EReal) (ix2 q' d) := by
  obtain ⟨-, -, -, -, -, ⟨e5a, e5b⟩, -, -, -, -, -, -⟩ := idx_facts t
  unfold iblk0
  rw [View.read_apply]
  show V c main_arg8 _ = V c main_arg8 _
  refine congrArg _ (funext fun a => Fin.ext ?_)
  match a with
  | ⟨0, _⟩ => show win0_5.index t (0 : Fin 2) * 256 + 1 * q.val = q'.val; rw [e5a, hq]; omega
  | ⟨1, _⟩ => show win0_5.index t (1 : Fin 2) * 1024 + 1 * d.val = d.val; rw [e5b]; omega

/-- Bias window 6's block at every point is its whole array. -/
theorem iblk0_6_apply (c : Dev nD) (t : Fin cfg0.N) (q : Fin 256) (q' : Fin 256) (hq : q'.val = q.val) :
    (iblk0 V c 6 t : S256.Idx → EReal) (ix1 q) = (V c main_arg5 : S256.Idx → EReal) (ix1 q') := by
  obtain ⟨-, -, -, -, -, -, e6, -, -, -, -, -⟩ := idx_facts t
  unfold iblk0
  rw [View.read_apply]
  show V c main_arg5 _ = V c main_arg5 _
  refine congrArg _ (funext fun a => Fin.ext ?_)
  match a with
  | ⟨0, _⟩ => show win0_6.index t (0 : Fin 1) * 256 + 1 * q.val = q'.val; rw [e6, hq]; omega

/-- Bias window 7's block at every point is its whole array. -/
theorem iblk0_7_apply (c : Dev nD) (t : Fin cfg0.N) (q : Fin 256) (q' : Fin 256) (hq : q'.val = q.val) :
    (iblk0 V c 7 t : S256.Idx → EReal) (ix1 q) = (V c main_arg7 : S256.Idx → EReal) (ix1 q') := by
  obtain ⟨-, -, -, -, -, -, -, e7, -, -, -, -⟩ := idx_facts t
  unfold iblk0
  rw [View.read_apply]
  show V c main_arg7 _ = V c main_arg7 _
  refine congrArg _ (funext fun a => Fin.ext ?_)
  match a with
  | ⟨0, _⟩ => show win0_7.index t (0 : Fin 1) * 256 + 1 * q.val = q'.val; rw [e7, hq]; omega

/-- Bias window 8's block at every point is its whole array. -/
theorem iblk0_8_apply (c : Dev nD) (t : Fin cfg0.N) (q : Fin 256) (q' : Fin 256) (hq : q'.val = q.val) :
    (iblk0 V c 8 t : S256.Idx → EReal) (ix1 q) = (V c main_arg9 : S256.Idx → EReal) (ix1 q') := by
  obtain ⟨-, -, -, -, -, -, -, -, e8, -, -, -⟩ := idx_facts t
  unfold iblk0
  rw [View.read_apply]
  show V c main_arg9 _ = V c main_arg9 _
  refine congrArg _ (funext fun a => Fin.ext ?_)
  match a with
  | ⟨0, _⟩ => show win0_8.index t (0 : Fin 1) * 256 + 1 * q.val = q'.val; rw [e8, hq]; omega

/-! ### Output window 9 -/

/-- What point `t` writes back of output 9 is block `t` of the projection of the arrays the region found. -/
theorem flushed9_eq (c : Dev nD) (t : Fin cfg0.N) :
    (dat0 (F := Ideal) V c).flushed 9 t
      = ((cfg0.win 9).blk t).view.read (Elt Ideal) (projArr (V c main_v0) (V c main_arg4) (V c main_arg5)) := by
  show (cfg0.win 9).cut (grid0.coords t) ((dat0 V c).after 9 t) = _
  rw [after0_9]
  unfold out0_9
  rw [View.canon_unit_zero hz2]
  simp only [View.ld_unit_zero (S := S512x1024) hz2, View.ld_unit_zero (S := S256x1024) hz2, View.ld_unit_zero (S := S256) hz1]
  rw [pay1_eq (iblk0 V c 0 t) (iblk0 V c 3 t) (iblk0 V c 6 t)]
  obtain ⟨-, -, -, -, -, -, -, -, -, ⟨e9a, e9b⟩, -, -⟩ := idx_facts t
  funext j
  show projBlk (iblk0 V c 0 t) (iblk0 V c 3 t) (iblk0 V c 6 t) j
    = projArr (V c main_v0) (V c main_arg4) (V c main_arg5) (((cfg0.win 9).blk t).view.emb j)
  unfold projBlk projArr
  have h0 : ((((cfg0.win 9).blk t).view.emb j) 0).val = 512 * t.val + (j 0).val := by
    show win0_9.index t (0 : Fin 2) * 512 + 1 * (j 0).val = _; rw [e9a]; omega
  have h1 : ((((cfg0.win 9).blk t).view.emb j) 1).val = (j 1).val := by
    show win0_9.index t (1 : Fin 2) * 256 + 1 * (j 1).val = _; rw [e9b]; omega
  refine congrArg₂ (· + ·) (Finset.sum_congr rfl fun d _ => congrArg₂ (· * ·) ?_ ?_) ?_
  · exact iblk0_0_apply V c t (j 0) d _ h0
  · exact iblk0_3_apply V c t (j 1) d _ h1
  · exact iblk0_6_apply V c t (j 1) _ h1

/-- An index of the array is in point `t`'s block iff each coordinate is in the block's range on its axis. -/
theorem mem_blk9 (t : Fin cfg0.N) (i : S16384x256.Idx) :
    i ∈ ((cfg0.win 9).blk t).view.set ↔ ∀ a : Fin 2, win0_9.index t a * S512x256.size a ≤ (i a).val ∧ (i a).val < win0_9.index t a * S512x256.size a + S512x256.size a := by
  show i ∈ ((View.whole main_v3_0).slice (win0_9.rect t)).set ↔ _
  rw [View.set_slice_whole, Rect.mem_set_unit]
  exact Iff.rfl

/-- Row `r` of the array is written back by point `r / 512`. -/
theorem cover9 (i : S16384x256.Idx) : ∃ t : Fin cfg0.N, (cfg0.win 9).flush t = true ∧ i ∈ ((cfg0.win 9).blk t).view.set := by
  have hi0 : (i 0).val < 16384 := (i 0).isLt
  have hi1 : (i 1).val < 256 := (i 1).isLt
  have hN : cfg0.N = 32 := N_0
  have ht : (i 0).val / 512 < cfg0.N := by rw [hN]; omega
  refine ⟨⟨(i 0).val / 512, ht⟩, flush0_9 _, ?_⟩
  rw [mem_blk9]
  obtain ⟨-, -, -, -, -, -, -, -, -, ⟨e9a, e9b⟩, -, -⟩ := idx_facts ⟨(i 0).val / 512, ht⟩
  intro a
  match a with
  | ⟨0, _⟩ =>
    show win0_9.index ⟨(i 0).val / 512, ht⟩ (0 : Fin 2) * 512 ≤ (i 0).val ∧ (i 0).val < win0_9.index ⟨(i 0).val / 512, ht⟩ (0 : Fin 2) * 512 + 512
    rw [e9a]; show (i 0).val / 512 * 512 ≤ (i 0).val ∧ (i 0).val < (i 0).val / 512 * 512 + 512; omega
  | ⟨1, _⟩ =>
    show win0_9.index ⟨(i 0).val / 512, ht⟩ (1 : Fin 2) * 256 ≤ (i 1).val ∧ (i 1).val < win0_9.index ⟨(i 0).val / 512, ht⟩ (1 : Fin 2) * 256 + 256
    rw [e9b]; omega

/-- The array after the run: the projection of the arrays the region found, entry by entry. -/
theorem arr0_9 (c : Dev nD) :
    (dat0 (F := Ideal) V c).arrAt 9 cfg0.N = projArr (V c main_v0) (V c main_arg4) (V c main_arg5) :=
  (dat0 (F := Ideal) V c).arrAt_eq_of_cover 9 _ (fun t _ => flushed9_eq V c t) cover9

/-! ### Output window 10 -/

/-- What point `t` writes back of output 10 is block `t` of the projection of the arrays the region found. -/
theorem flushed10_eq (c : Dev nD) (t : Fin cfg0.N) :
    (dat0 (F := Ideal) V c).flushed 10 t
      = ((cfg0.win 10).blk t).view.read (Elt Ideal) (projArr (V c main_v1) (V c main_arg6) (V c main_arg7)) := by
  show (cfg0.win 10).cut (grid0.coords t) ((dat0 V c).after 10 t) = _
  rw [after0_10]
  unfold out0_10
  rw [View.canon_unit_zero hz2]
  simp only [View.ld_unit_zero (S := S512x1024) hz2, View.ld_unit_zero (S := S256x1024) hz2, View.ld_unit_zero (S := S256) hz1]
  rw [pay2_eq (iblk0 V c 1 t) (iblk0 V c 4 t) (iblk0 V c 7 t)]
  obtain ⟨-, -, -, -, -, -, -, -, -, -, ⟨e10a, e10b⟩, -⟩ := idx_facts t
  funext j
  show projBlk (iblk0 V c 1 t) (iblk0 V c 4 t) (iblk0 V c 7 t) j
    = projArr (V c main_v1) (V c main_arg6) (V c main_arg7) (((cfg0.win 10).blk t).view.emb j)
  unfold projBlk projArr
  have h0 : ((((cfg0.win 10).blk t).view.emb j) 0).val = 512 * t.val + (j 0).val := by
    show win0_10.index t (0 : Fin 2) * 512 + 1 * (j 0).val = _; rw [e10a]; omega
  have h1 : ((((cfg0.win 10).blk t).view.emb j) 1).val = (j 1).val := by
    show win0_10.index t (1 : Fin 2) * 256 + 1 * (j 1).val = _; rw [e10b]; omega
  refine congrArg₂ (· + ·) (Finset.sum_congr rfl fun d _ => congrArg₂ (· * ·) ?_ ?_) ?_
  · exact iblk0_1_apply V c t (j 0) d _ h0
  · exact iblk0_4_apply V c t (j 1) d _ h1
  · exact iblk0_7_apply V c t (j 1) _ h1

/-- An index of the array is in point `t`'s block iff each coordinate is in the block's range on its axis. -/
theorem mem_blk10 (t : Fin cfg0.N) (i : S16384x256.Idx) :
    i ∈ ((cfg0.win 10).blk t).view.set ↔ ∀ a : Fin 2, win0_10.index t a * S512x256.size a ≤ (i a).val ∧ (i a).val < win0_10.index t a * S512x256.size a + S512x256.size a := by
  show i ∈ ((View.whole main_v3_1).slice (win0_10.rect t)).set ↔ _
  rw [View.set_slice_whole, Rect.mem_set_unit]
  exact Iff.rfl

/-- Row `r` of the array is written back by point `r / 512`. -/
theorem cover10 (i : S16384x256.Idx) : ∃ t : Fin cfg0.N, (cfg0.win 10).flush t = true ∧ i ∈ ((cfg0.win 10).blk t).view.set := by
  have hi0 : (i 0).val < 16384 := (i 0).isLt
  have hi1 : (i 1).val < 256 := (i 1).isLt
  have hN : cfg0.N = 32 := N_0
  have ht : (i 0).val / 512 < cfg0.N := by rw [hN]; omega
  refine ⟨⟨(i 0).val / 512, ht⟩, flush0_10 _, ?_⟩
  rw [mem_blk10]
  obtain ⟨-, -, -, -, -, -, -, -, -, -, ⟨e10a, e10b⟩, -⟩ := idx_facts ⟨(i 0).val / 512, ht⟩
  intro a
  match a with
  | ⟨0, _⟩ =>
    show win0_10.index ⟨(i 0).val / 512, ht⟩ (0 : Fin 2) * 512 ≤ (i 0).val ∧ (i 0).val < win0_10.index ⟨(i 0).val / 512, ht⟩ (0 : Fin 2) * 512 + 512
    rw [e10a]; show (i 0).val / 512 * 512 ≤ (i 0).val ∧ (i 0).val < (i 0).val / 512 * 512 + 512; omega
  | ⟨1, _⟩ =>
    show win0_10.index ⟨(i 0).val / 512, ht⟩ (1 : Fin 2) * 256 ≤ (i 1).val ∧ (i 1).val < win0_10.index ⟨(i 0).val / 512, ht⟩ (1 : Fin 2) * 256 + 256
    rw [e10b]; omega

/-- The array after the run: the projection of the arrays the region found, entry by entry. -/
theorem arr0_10 (c : Dev nD) :
    (dat0 (F := Ideal) V c).arrAt 10 cfg0.N = projArr (V c main_v1) (V c main_arg6) (V c main_arg7) :=
  (dat0 (F := Ideal) V c).arrAt_eq_of_cover 10 _ (fun t _ => flushed10_eq V c t) cover10

/-! ### Output window 11 -/

/-- What point `t` writes back of output 11 is block `t` of the projection of the arrays the region found. -/
theorem flushed11_eq (c : Dev nD) (t : Fin cfg0.N) :
    (dat0 (F := Ideal) V c).flushed 11 t
      = ((cfg0.win 11).blk t).view.read (Elt Ideal) (projArr (V c main_v2) (V c main_arg8) (V c main_arg9)) := by
  show (cfg0.win 11).cut (grid0.coords t) ((dat0 V c).after 11 t) = _
  rw [after0_11]
  unfold out0_11
  rw [View.canon_unit_zero hz2]
  simp only [View.ld_unit_zero (S := S512x1024) hz2, View.ld_unit_zero (S := S256x1024) hz2, View.ld_unit_zero (S := S256) hz1]
  rw [pay3_eq (iblk0 V c 2 t) (iblk0 V c 5 t) (iblk0 V c 8 t)]
  obtain ⟨-, -, -, -, -, -, -, -, -, -, -, ⟨e11a, e11b⟩⟩ := idx_facts t
  funext j
  show projBlk (iblk0 V c 2 t) (iblk0 V c 5 t) (iblk0 V c 8 t) j
    = projArr (V c main_v2) (V c main_arg8) (V c main_arg9) (((cfg0.win 11).blk t).view.emb j)
  unfold projBlk projArr
  have h0 : ((((cfg0.win 11).blk t).view.emb j) 0).val = 512 * t.val + (j 0).val := by
    show win0_11.index t (0 : Fin 2) * 512 + 1 * (j 0).val = _; rw [e11a]; omega
  have h1 : ((((cfg0.win 11).blk t).view.emb j) 1).val = (j 1).val := by
    show win0_11.index t (1 : Fin 2) * 256 + 1 * (j 1).val = _; rw [e11b]; omega
  refine congrArg₂ (· + ·) (Finset.sum_congr rfl fun d _ => congrArg₂ (· * ·) ?_ ?_) ?_
  · exact iblk0_2_apply V c t (j 0) d _ h0
  · exact iblk0_5_apply V c t (j 1) d _ h1
  · exact iblk0_8_apply V c t (j 1) _ h1

/-- An index of the array is in point `t`'s block iff each coordinate is in the block's range on its axis. -/
theorem mem_blk11 (t : Fin cfg0.N) (i : S16384x256.Idx) :
    i ∈ ((cfg0.win 11).blk t).view.set ↔ ∀ a : Fin 2, win0_11.index t a * S512x256.size a ≤ (i a).val ∧ (i a).val < win0_11.index t a * S512x256.size a + S512x256.size a := by
  show i ∈ ((View.whole main_v3_2).slice (win0_11.rect t)).set ↔ _
  rw [View.set_slice_whole, Rect.mem_set_unit]
  exact Iff.rfl

/-- Row `r` of the array is written back by point `r / 512`. -/
theorem cover11 (i : S16384x256.Idx) : ∃ t : Fin cfg0.N, (cfg0.win 11).flush t = true ∧ i ∈ ((cfg0.win 11).blk t).view.set := by
  have hi0 : (i 0).val < 16384 := (i 0).isLt
  have hi1 : (i 1).val < 256 := (i 1).isLt
  have hN : cfg0.N = 32 := N_0
  have ht : (i 0).val / 512 < cfg0.N := by rw [hN]; omega
  refine ⟨⟨(i 0).val / 512, ht⟩, flush0_11 _, ?_⟩
  rw [mem_blk11]
  obtain ⟨-, -, -, -, -, -, -, -, -, -, -, ⟨e11a, e11b⟩⟩ := idx_facts ⟨(i 0).val / 512, ht⟩
  intro a
  match a with
  | ⟨0, _⟩ =>
    show win0_11.index ⟨(i 0).val / 512, ht⟩ (0 : Fin 2) * 512 ≤ (i 0).val ∧ (i 0).val < win0_11.index ⟨(i 0).val / 512, ht⟩ (0 : Fin 2) * 512 + 512
    rw [e11a]; show (i 0).val / 512 * 512 ≤ (i 0).val ∧ (i 0).val < (i 0).val / 512 * 512 + 512; omega
  | ⟨1, _⟩ =>
    show win0_11.index ⟨(i 0).val / 512, ht⟩ (1 : Fin 2) * 256 ≤ (i 1).val ∧ (i 1).val < win0_11.index ⟨(i 0).val / 512, ht⟩ (1 : Fin 2) * 256 + 256
    rw [e11b]; omega

/-- The array after the run: the projection of the arrays the region found, entry by entry. -/
theorem arr0_11 (c : Dev nD) :
    (dat0 (F := Ideal) V c).arrAt 11 cfg0.N = projArr (V c main_v2) (V c main_arg8) (V c main_arg9) :=
  (dat0 (F := Ideal) V c).arrAt_eq_of_cover 11 _ (fun t _ => flushed11_eq V c t) cover11

end Cert.KernelIdeal.Hand

end
-- ==== Proof.Glue.lean ====
import proofs.«133710_j6906307412546_2_alg».proof.Proof.Launch
import proofs.«133710_j6906307412546_2_alg».proof.Proof.Region0Value
import proofs.«133710_j6906307412546_2_alg».proof.Proof.Spec

/-!
# Between the two calls: the attention call's operands are the three projections of the arguments

The program reshapes each activation argument [4, 4096, 1024] to [16384, 1024], runs the projection call,
and reshapes each projected array [16384, 256] back to [4, 4096, 256].  A reshape keeps the row-major
position, so entry `(t, s, ·)` of the three-axis array is row `4096 t + s` of the two-axis one.  The
projection call leaves row `r`, column `h` at `(∑ d, x (r, d) · w (h, d)) + b h`; the weights, the biases
and the mask are written by no host operation and by no region before the attention call.  Together: the
attention call finds its three float operands at the specification's projections of the arguments, and the
mask as launched.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat)
open scoped BigOperators

variable (m : (ℓ : Loc nD τ sig) → Buf (Elt Ideal) ℓ) (ρ : Dev nD → PrngReg)

/-- Row `4096 t + s` of a 16384-row array. -/
def rowIx (t : Fin 4) (s : Fin 4096) : Fin 16384 := ⟨t.val * 4096 + s.val, by omega⟩

/-! ## Before the projection call -/

/-- The reshaped activation `main_v0` at row `4096 t + s` is the argument `main_arg0` at `(t, s, ·)`. -/
theorem V1_main_v0_apply (c : Dev nD) (t : Fin 4) (s : Fin 4096) (d : Fin 1024) :
    (V1 (F := Ideal) m ρ c main_v0 : S16384x1024.Idx → EReal) (ix2 (rowIx t s) d) = (m ((c.tc : Thread nD τ).loc main_arg0) : S4x4096x1024.Idx → EReal) (ix3 t s d) := by
  have e : (V1 (F := Ideal) m ρ c main_v0 : S16384x1024.Idx → EReal)
      = shapeCast S16384x1024 (m ((c.tc : Thread nD τ).loc main_arg0) : S4x4096x1024.Idx → EReal) shapeCasts_S4x4096x1024_S16384x1024 := by
    show StableHlo.after hostOps0 (W0 m ρ c) (Proc.devRef .tc main_v0) = _
    dsimp only [hostOps0]; after_results; rfl
  rw [e]
  refine shapeCast_apply _ _ _ _ ?_
  show (S4x4096x1024.rowMajor (ix3 t s d)).val = (S16384x1024.rowMajor (ix2 (rowIx t s) d)).val
  rw [Shape.rowMajor_val_two, Shape.rowMajor_val_three]
  show (t.val * 4096 + s.val) * 1024 + d.val = (t.val * 4096 + s.val) * 1024 + d.val
  rfl

/-- The reshaped activation `main_v1` at row `4096 t + s` is the argument `main_arg1` at `(t, s, ·)`. -/
theorem V1_main_v1_apply (c : Dev nD) (t : Fin 4) (s : Fin 4096) (d : Fin 1024) :
    (V1 (F := Ideal) m ρ c main_v1 : S16384x1024.Idx → EReal) (ix2 (rowIx t s) d) = (m ((c.tc : Thread nD τ).loc main_arg1) : S4x4096x1024.Idx → EReal) (ix3 t s d) := by
  have e : (V1 (F := Ideal) m ρ c main_v1 : S16384x1024.Idx → EReal)
      = shapeCast S16384x1024 (m ((c.tc : Thread nD τ).loc main_arg1) : S4x4096x1024.Idx → EReal) shapeCasts_S4x4096x1024_S16384x1024 := by
    show StableHlo.after hostOps0 (W0 m ρ c) (Proc.devRef .tc main_v1) = _
    dsimp only [hostOps0]; after_results; rfl
  rw [e]
  refine shapeCast_apply _ _ _ _ ?_
  show (S4x4096x1024.rowMajor (ix3 t s d)).val = (S16384x1024.rowMajor (ix2 (rowIx t s) d)).val
  rw [Shape.rowMajor_val_two, Shape.rowMajor_val_three]
  show (t.val * 4096 + s.val) * 1024 + d.val = (t.val * 4096 + s.val) * 1024 + d.val
  rfl

/-- The reshaped activation `main_v2` at row `4096 t + s` is the argument `main_arg2` at `(t, s, ·)`. -/
theorem V1_main_v2_apply (c : Dev nD) (t : Fin 4) (s : Fin 4096) (d : Fin 1024) :
    (V1 (F := Ideal) m ρ c main_v2 : S16384x1024.Idx → EReal) (ix2 (rowIx t s) d) = (m ((c.tc : Thread nD τ).loc main_arg2) : S4x4096x1024.Idx → EReal) (ix3 t s d) := by
  have e : (V1 (F := Ideal) m ρ c main_v2 : S16384x1024.Idx → EReal)
      = shapeCast S16384x1024 (m ((c.tc : Thread nD τ).loc main_arg2) : S4x4096x1024.Idx → EReal) shapeCasts_S4x4096x1024_S16384x1024 := by
    show StableHlo.after hostOps0 (W0 m ρ c) (Proc.devRef .tc main_v2) = _
    dsimp only [hostOps0]; after_results; rfl
  rw [e]
  refine shapeCast_apply _ _ _ _ ?_
  show (S4x4096x1024.rowMajor (ix3 t s d)).val = (S16384x1024.rowMajor (ix2 (rowIx t s) d)).val
  rw [Shape.rowMajor_val_two, Shape.rowMajor_val_three]
  show (t.val * 4096 + s.val) * 1024 + d.val = (t.val * 4096 + s.val) * 1024 + d.val
  rfl

/-- No reshape writes `main_arg4`: the projection call finds it as launched. -/
theorem V1_main_arg4 (c : Dev nD) : V1 (F := Ideal) m ρ c main_arg4 = m ((c.tc : Thread nD τ).loc main_arg4) :=
  (StableHlo.after_of_writes_sub hostOps0 _ hostOps0_writes (by decide)).trans rfl

/-- No reshape writes `main_arg5`: the projection call finds it as launched. -/
theorem V1_main_arg5 (c : Dev nD) : V1 (F := Ideal) m ρ c main_arg5 = m ((c.tc : Thread nD τ).loc main_arg5) :=
  (StableHlo.after_of_writes_sub hostOps0 _ hostOps0_writes (by decide)).trans rfl

/-- No reshape writes `main_arg6`: the projection call finds it as launched. -/
theorem V1_main_arg6 (c : Dev nD) : V1 (F := Ideal) m ρ c main_arg6 = m ((c.tc : Thread nD τ).loc main_arg6) :=
  (StableHlo.after_of_writes_sub hostOps0 _ hostOps0_writes (by decide)).trans rfl

/-- No reshape writes `main_arg7`: the projection call finds it as launched. -/
theorem V1_main_arg7 (c : Dev nD) : V1 (F := Ideal) m ρ c main_arg7 = m ((c.tc : Thread nD τ).loc main_arg7) :=
  (StableHlo.after_of_writes_sub hostOps0 _ hostOps0_writes (by decide)).trans rfl

/-- No reshape writes `main_arg8`: the projection call finds it as launched. -/
theorem V1_main_arg8 (c : Dev nD) : V1 (F := Ideal) m ρ c main_arg8 = m ((c.tc : Thread nD τ).loc main_arg8) :=
  (StableHlo.after_of_writes_sub hostOps0 _ hostOps0_writes (by decide)).trans rfl

/-- No reshape writes `main_arg9`: the projection call finds it as launched. -/
theorem V1_main_arg9 (c : Dev nD) : V1 (F := Ideal) m ρ c main_arg9 = m ((c.tc : Thread nD τ).loc main_arg9) :=
  (StableHlo.after_of_writes_sub hostOps0 _ hostOps0_writes (by decide)).trans rfl

/-! ## After the projection call -/

/-- The reshaped projected array `main_v4` at `(t, s, h)` is what the projection call left at row `4096 t + s`. -/
theorem V3_main_v4_apply (c : Dev nD) (t : Fin 4) (s : Fin 4096) (h : Fin 256) :
    (V3 (F := Ideal) m ρ c main_v4 : S4x4096x256.Idx → EReal) (ix3 t s h)
      = ((dat0 (F := Ideal) (V1 m ρ) c).arrAt 9 cfg0.N : S16384x256.Idx → EReal) (ix2 (rowIx t s) h) := by
  have e : (V3 (F := Ideal) m ρ c main_v4 : S4x4096x256.Idx → EReal)
      = shapeCast S4x4096x256 (W2 m ρ c (Proc.devRef .tc main_v3_0) : S16384x256.Idx → EReal) shapeCasts_S16384x256_S4x4096x256 := by
    show StableHlo.after hostOps1 (W2 m ρ c) (Proc.devRef .tc main_v4) = shapeCast S4x4096x256 (W2 m ρ c (Proc.devRef .tc main_v3_0) : S16384x256.Idx → EReal) shapeCasts_S16384x256_S4x4096x256
    generalize W2 m ρ c = W
    dsimp only [hostOps1]; after_results; rfl
  have e2 : W2 m ρ c (Proc.devRef .tc main_v3_0) = (dat0 (F := Ideal) (V1 m ρ) c).arrAt 9 cfg0.N := W2_arr m ρ c 9
  rw [e, e2]
  refine shapeCast_apply _ _ _ _ ?_
  show (S16384x256.rowMajor (ix2 (rowIx t s) h)).val = (S4x4096x256.rowMajor (ix3 t s h)).val
  rw [Shape.rowMajor_val_two, Shape.rowMajor_val_three]
  show (t.val * 4096 + s.val) * 256 + h.val = (t.val * 4096 + s.val) * 256 + h.val
  rfl

/-- The attention call finds `main_v4` at the projection of the arguments. -/
theorem q_eq (c : Dev nD) (t : Fin 4) (s : Fin 4096) (h : Fin 256) :
    V3 (F := Ideal) m ρ c main_v4 (ix3 t s h)
      = Cert.Spec.proj (fun t s d => m ((c.tc : Thread nD τ).loc main_arg0) (ix3 t s d)) (fun h d => m ((c.tc : Thread nD τ).loc main_arg4) (ix2 h d))
          (fun h => m ((c.tc : Thread nD τ).loc main_arg5) (ix1 h)) t s h := by
  refine (V3_main_v4_apply m ρ c t s h).trans ?_
  rw [arr0_9 (V1 m ρ) c, projArr_apply]
  unfold Cert.Spec.proj
  refine congrArg₂ (· + ·) (Finset.sum_congr rfl fun d _ => congrArg₂ (· * ·) ?_ ?_) ?_
  · exact V1_main_v0_apply m ρ c t s d
  · exact congrFun (V1_main_arg4 m ρ c) _
  · exact congrFun (V1_main_arg5 m ρ c) _

/-- The reshaped projected array `main_v5` at `(t, s, h)` is what the projection call left at row `4096 t + s`. -/
theorem V3_main_v5_apply (c : Dev nD) (t : Fin 4) (s : Fin 4096) (h : Fin 256) :
    (V3 (F := Ideal) m ρ c main_v5 : S4x4096x256.Idx → EReal) (ix3 t s h)
      = ((dat0 (F := Ideal) (V1 m ρ) c).arrAt 10 cfg0.N : S16384x256.Idx → EReal) (ix2 (rowIx t s) h) := by
  have e : (V3 (F := Ideal) m ρ c main_v5 : S4x4096x256.Idx → EReal)
      = shapeCast S4x4096x256 (W2 m ρ c (Proc.devRef .tc main_v3_1) : S16384x256.Idx → EReal) shapeCasts_S16384x256_S4x4096x256 := by
    show StableHlo.after hostOps1 (W2 m ρ c) (Proc.devRef .tc main_v5) = shapeCast S4x4096x256 (W2 m ρ c (Proc.devRef .tc main_v3_1) : S16384x256.Idx → EReal) shapeCasts_S16384x256_S4x4096x256
    generalize W2 m ρ c = W
    dsimp only [hostOps1]; after_results; rfl
  have e2 : W2 m ρ c (Proc.devRef .tc main_v3_1) = (dat0 (F := Ideal) (V1 m ρ) c).arrAt 10 cfg0.N := W2_arr m ρ c 10
  rw [e, e2]
  refine shapeCast_apply _ _ _ _ ?_
  show (S16384x256.rowMajor (ix2 (rowIx t s) h)).val = (S4x4096x256.rowMajor (ix3 t s h)).val
  rw [Shape.rowMajor_val_two, Shape.rowMajor_val_three]
  show (t.val * 4096 + s.val) * 256 + h.val = (t.val * 4096 + s.val) * 256 + h.val
  rfl

/-- The attention call finds `main_v5` at the projection of the arguments. -/
theorem k_eq (c : Dev nD) (t : Fin 4) (s : Fin 4096) (h : Fin 256) :
    V3 (F := Ideal) m ρ c main_v5 (ix3 t s h)
      = Cert.Spec.proj (fun t s d => m ((c.tc : Thread nD τ).loc main_arg1) (ix3 t s d)) (fun h d => m ((c.tc : Thread nD τ).loc main_arg6) (ix2 h d))
          (fun h => m ((c.tc : Thread nD τ).loc main_arg7) (ix1 h)) t s h := by
  refine (V3_main_v5_apply m ρ c t s h).trans ?_
  rw [arr0_10 (V1 m ρ) c, projArr_apply]
  unfold Cert.Spec.proj
  refine congrArg₂ (· + ·) (Finset.sum_congr rfl fun d _ => congrArg₂ (· * ·) ?_ ?_) ?_
  · exact V1_main_v1_apply m ρ c t s d
  · exact congrFun (V1_main_arg6 m ρ c) _
  · exact congrFun (V1_main_arg7 m ρ c) _

/-- The reshaped projected array `main_v6` at `(t, s, h)` is what the projection call left at row `4096 t + s`. -/
theorem V3_main_v6_apply (c : Dev nD) (t : Fin 4) (s : Fin 4096) (h : Fin 256) :
    (V3 (F := Ideal) m ρ c main_v6 : S4x4096x256.Idx → EReal) (ix3 t s h)
      = ((dat0 (F := Ideal) (V1 m ρ) c).arrAt 11 cfg0.N : S16384x256.Idx → EReal) (ix2 (rowIx t s) h) := by
  have e : (V3 (F := Ideal) m ρ c main_v6 : S4x4096x256.Idx → EReal)
      = shapeCast S4x4096x256 (W2 m ρ c (Proc.devRef .tc main_v3_2) : S16384x256.Idx → EReal) shapeCasts_S16384x256_S4x4096x256 := by
    show StableHlo.after hostOps1 (W2 m ρ c) (Proc.devRef .tc main_v6) = shapeCast S4x4096x256 (W2 m ρ c (Proc.devRef .tc main_v3_2) : S16384x256.Idx → EReal) shapeCasts_S16384x256_S4x4096x256
    generalize W2 m ρ c = W
    dsimp only [hostOps1]; after_results; rfl
  have e2 : W2 m ρ c (Proc.devRef .tc main_v3_2) = (dat0 (F := Ideal) (V1 m ρ) c).arrAt 11 cfg0.N := W2_arr m ρ c 11
  rw [e, e2]
  refine shapeCast_apply _ _ _ _ ?_
  show (S16384x256.rowMajor (ix2 (rowIx t s) h)).val = (S4x4096x256.rowMajor (ix3 t s h)).val
  rw [Shape.rowMajor_val_two, Shape.rowMajor_val_three]
  show (t.val * 4096 + s.val) * 256 + h.val = (t.val * 4096 + s.val) * 256 + h.val
  rfl

/-- The attention call finds `main_v6` at the projection of the arguments. -/
theorem v_eq (c : Dev nD) (t : Fin 4) (s : Fin 4096) (h : Fin 256) :
    V3 (F := Ideal) m ρ c main_v6 (ix3 t s h)
      = Cert.Spec.proj (fun t s d => m ((c.tc : Thread nD τ).loc main_arg2) (ix3 t s d)) (fun h d => m ((c.tc : Thread nD τ).loc main_arg8) (ix2 h d))
          (fun h => m ((c.tc : Thread nD τ).loc main_arg9) (ix1 h)) t s h := by
  refine (V3_main_v6_apply m ρ c t s h).trans ?_
  rw [arr0_11 (V1 m ρ) c, projArr_apply]
  unfold Cert.Spec.proj
  refine congrArg₂ (· + ·) (Finset.sum_congr rfl fun d _ => congrArg₂ (· * ·) ?_ ?_) ?_
  · exact V1_main_v2_apply m ρ c t s d
  · exact congrFun (V1_main_arg8 m ρ c) _
  · exact congrFun (V1_main_arg9 m ρ c) _

/-- No host operation and no write-back of the projection call touches the mask. -/
theorem mask_eq (c : Dev nD) : V3 (F := Ideal) m ρ c main_arg3 = m ((c.tc : Thread nD τ).loc main_arg3) :=
  calc W3 m ρ c (Proc.devRef .tc main_arg3)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c.tc : Thread nD τ).loc main_arg3) := rfl

end Cert.KernelIdeal.Hand

end
-- ==== Proof.Finite.lean ====
import proofs.«133710_j6906307412546_2_alg».proof.Defs
import Idealize.ShloMosaic.Lib.ReduceAll
import Idealize.ShloMosaic.Lib.ValueIdx

/-!
# Every float argument entry is a real

The precondition is a conjunction, over the nine float arguments, of "every entry `x` has `|x| < +∞`",
computed as a reduction by `and` of the entry-wise comparisons.  Over the extended reals `|x|` is
`max x (-x)`, and `max x (-x) < ⊤` excludes both infinities, so each entry is the image of a real number.
-/

noncomputable section

namespace Cert.Finite

open Idealize.ShloMosaic Idealize.ShloMosaic.TcCoe Idealize.SL.Sem
open Cert.Pre_finite_inputs

/-- The scalar shape has one index. -/
instance : Subsingleton S_.Idx := ⟨fun a b => funext fun d => d.elim0⟩

/-- An extended real whose absolute value is below the word of `+∞` is a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  have hlt : max x (-x) < ⊤ := by
    by_contra hn
    simp [hn] at h'
  rw [max_lt_iff] at hlt
  induction x using EReal.rec with
  | bot => simp at hlt
  | coe r => exact ⟨r, rfl⟩
  | top => simp at hlt

/-- An array all of whose entries pass the test has only real entries. -/
theorem real_of_all {s : Shape} (x : FVec Ideal s .f32) (hb : S_.BroadcastsInDim s (![] : Fin 0 → Fin s.rank))
    (axes : List (Fin s.rank)) (hr : s.ReducesTo axes S_) (hu : 0 < S_.numel)
    (e : Host.reduce IntOp.andi (cmpf .olt (Host.absf x) (broadcastInDim s ![] hb (constant (F := Ideal) S_ .f32 0x7F800000#32)))
        (constantI S_ 1 1#1) hr hu ValueIdx.ix0 = 1#1) (i : s.Idx) : ∃ r : ℝ, x i = (r : EReal) :=
  real_of_abs_lt (x i) (Host.reduce_andi_all _ _ hr hu ValueIdx.ix0 e i)

variable [Cert.Pre_finite_inputs.Facts]

theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal)) := by
  have h0 := congrFun (h c) ValueIdx.ix0
  dsimp only [Cert.Pre_finite_inputs.fn, Cert.Pre_finite_inputs.fn_part1, Cert.Pre_finite_inputs.fn_part2] at h0
  obtain ⟨h1, e9⟩ := IntOp.andi_eq_one.1 h0
  obtain ⟨h2, e8⟩ := IntOp.andi_eq_one.1 h1
  obtain ⟨h3, e7⟩ := IntOp.andi_eq_one.1 h2
  obtain ⟨h4, e6⟩ := IntOp.andi_eq_one.1 h3
  obtain ⟨h5, e5⟩ := IntOp.andi_eq_one.1 h4
  obtain ⟨h6, e4⟩ := IntOp.andi_eq_one.1 h5
  obtain ⟨h7, e2⟩ := IntOp.andi_eq_one.1 h6
  obtain ⟨e0, e1⟩ := IntOp.andi_eq_one.1 h7
  exact ⟨real_of_all _ _ _ _ _ e0, real_of_all _ _ _ _ _ e1, real_of_all _ _ _ _ _ e2, real_of_all _ _ _ _ _ e4,
    real_of_all _ _ _ _ _ e5, real_of_all _ _ _ _ _ e6, real_of_all _ _ _ _ _ e7, real_of_all _ _ _ _ _ e8,
    real_of_all _ _ _ _ _ e9⟩

end Cert.Finite

end
-- ==== Proof.RefImports.lean ====
import proofs.«133710_j6906307412546_2_alg».proof.Proof.Gen.ReferenceIdeal.Run
import proofs.«133710_j6906307412546_2_alg».proof.Proof.Gen.ReferenceIdeal.Read
-- ==== Proof.RefSide.lean ====
/-
  The reference program's result is the specification's attention output of its ten arguments, index by index.

  Each stage of the reference is read at an index by coordinates.  A projection's element (t, s, h) is the inner
  product of row (t, s) of the activations with row h of the weights, plus bias h.  A score's element (t, s, j) is
  the inner product of query row s and key row j of batch t divided by 16, which is the product with 1/16 since
  16 is a nonzero real, and it is replaced by 0 where the mask word equals 0: the comparison's flag is one exactly
  when the words are equal, and the select takes its first branch on a flag of one.  The row maximum is the fold
  of max from the bottom element over the row, -inf being the bottom element of the extended reals, and a further
  maximum with -inf changes nothing.  The row sum starts from the zero word, so it is the plain sum.  The result's
  element (t, s, h) is the sum over j of the softmax weight of (t, s, j) times the value projection's (t, j, h).
  No step needs the arguments to be finite.
-/
import proofs.«133710_j6906307412546_2_alg».proof.Proof.RefImports
import proofs.«133710_j6906307412546_2_alg».proof.Proof.Spec
import proofs.«133710_j6906307412546_2_alg».proof.Proof.LibOnlineAttention

noncomputable section

namespace Cert.RefSide

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open scoped BigOperators

/-! ## The arguments by coordinates -/

/-- An activation array [4, 4096, 1024] by coordinates. -/
abbrev act (x : (⟨S4x4096x1024, .f32⟩ : BufTy).Contents (Elt Ideal)) : Fin 4 → Fin 4096 → Fin 1024 → EReal :=
  fun t s d => x (ix3 t s d)
/-- A weight matrix [256, 1024] by coordinates. -/
abbrev wgt (w : (⟨S256x1024, .f32⟩ : BufTy).Contents (Elt Ideal)) : Fin 256 → Fin 1024 → EReal :=
  fun h d => w (ix2 h d)
/-- A bias vector [256] by coordinates. -/
abbrev bias (b : (⟨S256, .f32⟩ : BufTy).Contents (Elt Ideal)) : Fin 256 → EReal :=
  fun h => b (ix1 h)
/-- The mask [4, 4096, 4096] by coordinates. -/
abbrev msk (x : (⟨S4x4096x4096, .i32⟩ : BufTy).Contents (Elt Ideal)) : Fin 4 → Fin 4096 → Fin 4096 → BitVec 32 :=
  fun t s j => x (ix3 t s j)

/-! ## The three projections -/

theorem lidx_v0 (t : Fin 4) (s : Fin 4096) (h : Fin 256) (k : Fin 1024) :
    lidx_main_v0 (ix3 t s h) k = ix3 t s k :=
  funext fun a => Fin.ext (by match a with | ⟨0, _⟩ => rfl | ⟨1, _⟩ => rfl | ⟨2, _⟩ => rfl)
theorem ridx_v0 (t : Fin 4) (s : Fin 4096) (h : Fin 256) (k : Fin 1024) :
    ridx_main_v0 (ix3 t s h) k = ix2 h k :=
  funext fun a => Fin.ext (by match a with | ⟨0, _⟩ => rfl | ⟨1, _⟩ => rfl)
theorem bidx_v2 (t : Fin 4) (s : Fin 4096) (h : Fin 256) :
    idx_main_v1 (idx_main_v2 (ix3 t s h)) = ix1 h :=
  funext fun a => Fin.ext (by match a with | ⟨0, _⟩ => rfl)

/-- The query projection read at (t, s, h): the row of inner products plus the bias. -/
theorem proj_q (x0 : (⟨S4x4096x1024, .f32⟩ : BufTy).Contents (Elt Ideal)) (x4 : (⟨S256x1024, .f32⟩ : BufTy).Contents (Elt Ideal))
    (x5 : (⟨S256, .f32⟩ : BufTy).Contents (Elt Ideal)) (t : Fin 4) (s : Fin 4096) (h : Fin 256) :
    val_main_v3 (F := Ideal) x0 x4 x5 (ix3 t s h) = Cert.Spec.proj (act x0) (wgt x4) (bias x5) t s h := by
  rw [val_main_v3_apply, val_main_v0_apply, val_main_v2_apply, val_main_v1_apply, bidx_v2]
  simp only [lidx_v0, ridx_v0, Ideal.addf_def]
  rfl

theorem lidx_v4 (t : Fin 4) (s : Fin 4096) (h : Fin 256) (k : Fin 1024) :
    lidx_main_v4 (ix3 t s h) k = ix3 t s k :=
  funext fun a => Fin.ext (by match a with | ⟨0, _⟩ => rfl | ⟨1, _⟩ => rfl | ⟨2, _⟩ => rfl)
theorem ridx_v4 (t : Fin 4) (s : Fin 4096) (h : Fin 256) (k : Fin 1024) :
    ridx_main_v4 (ix3 t s h) k = ix2 h k :=
  funext fun a => Fin.ext (by match a with | ⟨0, _⟩ => rfl | ⟨1, _⟩ => rfl)
theorem bidx_v6 (t : Fin 4) (s : Fin 4096) (h : Fin 256) :
    idx_main_v5 (idx_main_v6 (ix3 t s h)) = ix1 h :=
  funext fun a => Fin.ext (by match a with | ⟨0, _⟩ => rfl)

/-- The key projection read at (t, s, h). -/
theorem proj_k (x1 : (⟨S4x4096x1024, .f32⟩ : BufTy).Contents (Elt Ideal)) (x6 : (⟨S256x1024, .f32⟩ : BufTy).Contents (Elt Ideal))
    (x7 : (⟨S256, .f32⟩ : BufTy).Contents (Elt Ideal)) (t : Fin 4) (s : Fin 4096) (h : Fin 256) :
    val_main_v7 (F := Ideal) x1 x6 x7 (ix3 t s h) = Cert.Spec.proj (act x1) (wgt x6) (bias x7) t s h := by
  rw [val_main_v7_apply, val_main_v4_apply, val_main_v6_apply, val_main_v5_apply, bidx_v6]
  simp only [lidx_v4, ridx_v4, Ideal.addf_def]
  rfl

theorem lidx_v8 (t : Fin 4) (s : Fin 4096) (h : Fin 256) (k : Fin 1024) :
    lidx_main_v8 (ix3 t s h) k = ix3 t s k :=
  funext fun a => Fin.ext (by match a with | ⟨0, _⟩ => rfl | ⟨1, _⟩ => rfl | ⟨2, _⟩ => rfl)
theorem ridx_v8 (t : Fin 4) (s : Fin 4096) (h : Fin 256) (k : Fin 1024) :
    ridx_main_v8 (ix3 t s h) k = ix2 h k :=
  funext fun a => Fin.ext (by match a with | ⟨0, _⟩ => rfl | ⟨1, _⟩ => rfl)
theorem bidx_v10 (t : Fin 4) (s : Fin 4096) (h : Fin 256) :
    idx_main_v9 (idx_main_v10 (ix3 t s h)) = ix1 h :=
  funext fun a => Fin.ext (by match a with | ⟨0, _⟩ => rfl)

/-- The value projection read at (t, s, h). -/
theorem proj_v (x2 : (⟨S4x4096x1024, .f32⟩ : BufTy).Contents (Elt Ideal)) (x8 : (⟨S256x1024, .f32⟩ : BufTy).Contents (Elt Ideal))
    (x9 : (⟨S256, .f32⟩ : BufTy).Contents (Elt Ideal)) (t : Fin 4) (s : Fin 4096) (h : Fin 256) :
    val_main_v11 (F := Ideal) x2 x8 x9 (ix3 t s h) = Cert.Spec.proj (act x2) (wgt x8) (bias x9) t s h := by
  rw [val_main_v11_apply, val_main_v8_apply, val_main_v10_apply, val_main_v9_apply, bidx_v10]
  simp only [lidx_v8, ridx_v8, Ideal.addf_def]
  rfl

/-! ## The scores -/

section Scores

variable (x0 x1 : (⟨S4x4096x1024, .f32⟩ : BufTy).Contents (Elt Ideal)) (x3 : (⟨S4x4096x4096, .i32⟩ : BufTy).Contents (Elt Ideal))
  (x4 : (⟨S256x1024, .f32⟩ : BufTy).Contents (Elt Ideal)) (x5 : (⟨S256, .f32⟩ : BufTy).Contents (Elt Ideal))
  (x6 : (⟨S256x1024, .f32⟩ : BufTy).Contents (Elt Ideal)) (x7 : (⟨S256, .f32⟩ : BufTy).Contents (Elt Ideal))

/-- The scores of the arguments, as the specification states them. -/
abbrev sc : Fin 4 → Fin 4096 → Fin 4096 → EReal :=
  Cert.Spec.score (Cert.Spec.proj (act x0) (wgt x4) (bias x5)) (Cert.Spec.proj (act x1) (wgt x6) (bias x7)) (msk x3)

theorem lidx_v12 (t : Fin 4) (s j : Fin 4096) (k : Fin 256) :
    lidx_main_v12 (ix3 t s j) k = ix3 t s k :=
  funext fun a => Fin.ext (by match a with | ⟨0, _⟩ => rfl | ⟨1, _⟩ => rfl | ⟨2, _⟩ => rfl)
theorem ridx_v12 (t : Fin 4) (s j : Fin 4096) (k : Fin 256) :
    ridx_main_v12 (ix3 t s j) k = ix3 t j k :=
  funext fun a => Fin.ext (by match a with | ⟨0, _⟩ => rfl | ⟨1, _⟩ => rfl | ⟨2, _⟩ => rfl)

/-- A select on the flag of an equality test is the if on the equality. -/
theorem select_cmpi_eq {α : Type} (x y : BitVec 32) (a b : α) :
    Scalar.select (IntOp.cmpi .eq x y) a b = if x = y then a else b := by
  unfold Scalar.select
  exact if_congr IntOp.cmpi_eq rfl rfl

/-- The masked, scaled score read at (t, s, j): the division by the constant 16 is the product with 1/16, and the
    select against the comparison of the mask word with 0 is the specification's if. -/
theorem score_read (t : Fin 4) (s j : Fin 4096) :
    val_main_v17 (F := Ideal) x0 x1 x3 x4 x5 x6 x7 (ix3 t s j) = sc x0 x1 x3 x4 x5 x6 x7 t s j := by
  rw [val_main_v17_apply, val_main_v16_apply, val_main_v15_apply, val_main_c_apply, val_main_call0_v0_apply,
    val_main_cst_0_apply, val_main_v14_apply, val_main_v13_apply, val_main_cst_apply, val_main_v12_apply,
    select_cmpi_eq]
  simp only [lidx_v12, ridx_v12, proj_q, proj_k, Ideal.hostDivf_def, Ideal.ofBits_def, Ideal.ofBits_zero_f32,
    OnlineAttention.ofBits_16]
  rw [Ideal.div_coe (by norm_num : (16 : ℝ) ≠ 0)]
  rfl

end Scores

/-! ## The softmax of a row -/

section Softmax

variable (x0 x1 : (⟨S4x4096x1024, .f32⟩ : BufTy).Contents (Elt Ideal)) (x3 : (⟨S4x4096x4096, .i32⟩ : BufTy).Contents (Elt Ideal))
  (x4 : (⟨S256x1024, .f32⟩ : BufTy).Contents (Elt Ideal)) (x5 : (⟨S256, .f32⟩ : BufTy).Contents (Elt Ideal))
  (x6 : (⟨S256x1024, .f32⟩ : BufTy).Contents (Elt Ideal)) (x7 : (⟨S256, .f32⟩ : BufTy).Contents (Elt Ideal))

/-- The reduced index (t, s) with column k put back on the dropped axis is (t, s, k). -/
theorem lift_row (h : S4x4096x4096.Reduces [2] S4x4096) (t : Fin 4) (s : Fin 4096) (k : Fin (S4x4096x4096.size 2)) :
    h.lift (ix2 t s) k = ix3 t s (⟨k.val, k.isLt⟩ : Fin 4096) := by
  funext c; apply Fin.ext
  fin_cases c <;> rfl

/-- The maximum of row (t, s): the reduce from -inf over the last axis is the fold of max from the bottom
    element over the row, and the further maximum with -inf changes nothing. -/
theorem rowmax_read (t : Fin 4) (s : Fin 4096) :
    val_main_v20 (F := Ideal) x0 x1 x3 x4 x5 x6 x7 (ix2 t s) = Finset.univ.fold max ⊥ (sc x0 x1 x3 x4 x5 x6 x7 t s) := by
  have h : S4x4096x4096.Reduces [2] S4x4096 := by decide
  rw [val_main_v20_apply, val_main_v19_apply, val_main_cst_2_apply]
  unfold val_main_v18
  rw [Host.reduce_eq_fold_single FloatOps.maximumf _ _ reducesTo_S4x4096x4096_S4x4096_d2 h h_S_]
  have hf : (val_main_v17 (F := Ideal) x0 x1 x3 x4 x5 x6 x7 ∘ h.lift (ix2 t s)) = sc x0 x1 x3 x4 x5 x6 x7 t s :=
    funext fun k => by
      show val_main_v17 (F := Ideal) x0 x1 x3 x4 x5 x6 x7 (h.lift (ix2 t s) k) = _
      rw [lift_row, score_read]
      rfl
  rw [hf]
  show max (Ideal.ofBits .f32 0xFF800000#32)
    (Finset.fold max (Ideal.ofBits .f32 0xFF800000#32) (sc x0 x1 x3 x4 x5 x6 x7 t s) Finset.univ) = _
  rw [OnlineAttention.ofBits_neg_inf, max_eq_right bot_le]

theorem midx_v22 (t : Fin 4) (s j : Fin 4096) : idx_main_v21 (idx_main_v22 (ix3 t s j)) = ix2 t s :=
  funext fun a => Fin.ext (by match a with | ⟨0, _⟩ => rfl | ⟨1, _⟩ => rfl)

/-- The exponential of a score less its row's maximum. -/
theorem exp_read (t : Fin 4) (s j : Fin 4096) :
    val_main_v24 (F := Ideal) x0 x1 x3 x4 x5 x6 x7 (ix3 t s j)
      = Ideal.exp (sc x0 x1 x3 x4 x5 x6 x7 t s j - Finset.univ.fold max ⊥ (sc x0 x1 x3 x4 x5 x6 x7 t s)) := by
  rw [val_main_v24_apply, val_main_v23_apply, val_main_v22_apply, val_main_v21_apply, midx_v22, rowmax_read, score_read]
  rfl

theorem sidx_v25 (t : Fin 4) (s : Fin 4096) (k : Fin 4096) : idx_main_v25 (ix2 t s) k = ix3 t s k :=
  funext fun a => Fin.ext (by match a with | ⟨0, _⟩ => rfl | ⟨1, _⟩ => rfl | ⟨2, _⟩ => rfl)

/-- The sum of the exponentials over row (t, s): the reduce's initial value is the zero word. -/
theorem rowsum_read (t : Fin 4) (s : Fin 4096) :
    val_main_v25 (F := Ideal) x0 x1 x3 x4 x5 x6 x7 (ix2 t s)
      = ∑ j : Fin 4096, Ideal.exp (sc x0 x1 x3 x4 x5 x6 x7 t s j - Finset.univ.fold max ⊥ (sc x0 x1 x3 x4 x5 x6 x7 t s)) := by
  rw [val_main_v25_apply, val_main_cst_3_apply]
  simp only [sidx_v25, exp_read, Ideal.ofBits_def, Ideal.ofBits_zero_f32, zero_add]

theorem midx_v27 (t : Fin 4) (s j : Fin 4096) : idx_main_v26 (idx_main_v27 (ix3 t s j)) = ix2 t s :=
  funext fun a => Fin.ext (by match a with | ⟨0, _⟩ => rfl | ⟨1, _⟩ => rfl)

/-- The softmax weight of column j in row (t, s). -/
theorem weight_read (t : Fin 4) (s j : Fin 4096) :
    val_main_v28 (F := Ideal) x0 x1 x3 x4 x5 x6 x7 (ix3 t s j)
      = Ideal.div (Ideal.exp (sc x0 x1 x3 x4 x5 x6 x7 t s j - Finset.univ.fold max ⊥ (sc x0 x1 x3 x4 x5 x6 x7 t s)))
          (∑ j' : Fin 4096, Ideal.exp (sc x0 x1 x3 x4 x5 x6 x7 t s j' - Finset.univ.fold max ⊥ (sc x0 x1 x3 x4 x5 x6 x7 t s))) := by
  rw [val_main_v28_apply, val_main_v27_apply, val_main_v26_apply, midx_v27, rowsum_read, exp_read]
  rfl

end Softmax

/-! ## The result -/

theorem lidx_v29 (t : Fin 4) (s : Fin 4096) (h : Fin 256) (k : Fin 4096) :
    lidx_main_v29 (ix3 t s h) k = ix3 t s k :=
  funext fun a => Fin.ext (by match a with | ⟨0, _⟩ => rfl | ⟨1, _⟩ => rfl | ⟨2, _⟩ => rfl)
theorem ridx_v29 (t : Fin 4) (s : Fin 4096) (h : Fin 256) (k : Fin 4096) :
    ridx_main_v29 (ix3 t s h) k = ix3 t k h :=
  funext fun a => Fin.ext (by match a with | ⟨0, _⟩ => rfl | ⟨1, _⟩ => rfl | ⟨2, _⟩ => rfl)

section Result

variable (x0 x1 x2 : (⟨S4x4096x1024, .f32⟩ : BufTy).Contents (Elt Ideal)) (x3 : (⟨S4x4096x4096, .i32⟩ : BufTy).Contents (Elt Ideal))
  (x4 : (⟨S256x1024, .f32⟩ : BufTy).Contents (Elt Ideal)) (x5 : (⟨S256, .f32⟩ : BufTy).Contents (Elt Ideal))
  (x6 : (⟨S256x1024, .f32⟩ : BufTy).Contents (Elt Ideal)) (x7 : (⟨S256, .f32⟩ : BufTy).Contents (Elt Ideal))
  (x8 : (⟨S256x1024, .f32⟩ : BufTy).Contents (Elt Ideal)) (x9 : (⟨S256, .f32⟩ : BufTy).Contents (Elt Ideal))

/-- The reference's result at (t, s, h) is the specification's attention output of the ten arguments. -/
theorem ref_eq_out_ix (t : Fin 4) (s : Fin 4096) (h : Fin 256) :
    val_main_v29 (F := Ideal) x0 x1 x2 x3 x4 x5 x6 x7 x8 x9 (ix3 t s h)
      = Cert.Spec.out (act x0) (act x1) (act x2) (msk x3) (wgt x4) (bias x5) (wgt x6) (bias x7) (wgt x8) (bias x9) t s h := by
  rw [val_main_v29_apply]
  simp only [lidx_v29, ridx_v29, weight_read, proj_v]
  rfl

/-- The same at an index of the result's shape. -/
theorem ref_eq_out (i : S4x4096x256.Idx) :
    val_main_v29 (F := Ideal) x0 x1 x2 x3 x4 x5 x6 x7 x8 x9 i
      = Cert.Spec.out (act x0) (act x1) (act x2) (msk x3) (wgt x4) (bias x5) (wgt x6) (bias x7) (wgt x8) (bias x9)
          (i 0) (i 1) (i 2) := by
  obtain ⟨t, s, h, rfl⟩ : ∃ (t : Fin 4) (s : Fin 4096) (h : Fin 256), i = ix3 t s h := ⟨i 0, i 1, i 2, eq_ix3 i⟩
  exact ref_eq_out_ix x0 x1 x2 x3 x4 x5 x6 x7 x8 x9 t s h

end Result

/-! ## The run's result term -/

/-- The term the reference's run leaves in its result buffer, at an index, is the specification's output of the
    arguments' contents at launch. -/
theorem res_eq_out (m : (ℓ : Loc nD τ sig) → Buf (Elt Ideal) ℓ) (c : Dev nD) (i : S4x4096x256.Idx) :
    Cert.ReferenceIdeal.Value.res_main_v29 (F := Ideal) m c i
      = Cert.Spec.out (act (m ((c.tc : Thread nD τ).loc main_arg0))) (act (m ((c.tc : Thread nD τ).loc main_arg1)))
          (act (m ((c.tc : Thread nD τ).loc main_arg2))) (msk (m ((c.tc : Thread nD τ).loc main_arg3)))
          (wgt (m ((c.tc : Thread nD τ).loc main_arg4))) (bias (m ((c.tc : Thread nD τ).loc main_arg5)))
          (wgt (m ((c.tc : Thread nD τ).loc main_arg6))) (bias (m ((c.tc : Thread nD τ).loc main_arg7)))
          (wgt (m ((c.tc : Thread nD τ).loc main_arg8))) (bias (m ((c.tc : Thread nD τ).loc main_arg9)))
          (i 0) (i 1) (i 2) := by
  rw [Cert.ReferenceIdeal.Read.val_main_v29_eq]
  exact ref_eq_out _ _ _ _ _ _ _ _ _ _ i

end Cert.RefSide

end
-- ==== Proof.KernelOut.lean ====
/-
  The kernel's output array is the specification's output of the ten arguments.

  The attention call's output array, entry (t, s, h), is the online softmax state of row s of the scores of batch t
  against column h of the values after the eight key blocks, the weighted sum divided by the sum.  The call is entered
  with the three projections of the arguments and with the mask as launched.  Under the precondition every float
  argument is entrywise real, so the projections and the masked scaled scores are real, and the online computation of
  a real row ends in the row's softmax-weighted sum: the specification's attention output.
-/
import proofs.«133710_j6906307412546_2_alg».proof.Proof.AttnArr
import proofs.«133710_j6906307412546_2_alg».proof.Proof.Glue
import proofs.«133710_j6906307412546_2_alg».proof.Proof.Finite
import proofs.«133710_j6906307412546_2_alg».proof.Proof.SpecLaws
import proofs.«133710_j6906307412546_2_alg».proof.Proof.RefSide

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- **The attention call's output array of projected arrays is the specification's output.**  If the three arrays the
    call is entered with are the projections of real activations, weights and biases, and its mask is the given one,
    then entry i of the output array is the specification's attention output at i's coordinates: the online computation
    over a row of real scores and a column of real values ends in the row's softmax-weighted sum. -/
theorem attnArr_eq_out_of
    (xq xk xv : Fin 4 → Fin 4096 → Fin 1024 → EReal) (mask : Fin 4 → Fin 4096 → Fin 4096 → BitVec 32)
    (wq : Fin 256 → Fin 1024 → EReal) (bq : Fin 256 → EReal) (wk : Fin 256 → Fin 1024 → EReal) (bk : Fin 256 → EReal)
    (wv : Fin 256 → Fin 1024 → EReal) (bv : Fin 256 → EReal)
    (hxq : ∀ t s d, ∃ r : ℝ, xq t s d = (r : EReal)) (hxk : ∀ t s d, ∃ r : ℝ, xk t s d = (r : EReal))
    (hxv : ∀ t s d, ∃ r : ℝ, xv t s d = (r : EReal))
    (hwq : ∀ h d, ∃ r : ℝ, wq h d = (r : EReal)) (hbq : ∀ h, ∃ r : ℝ, bq h = (r : EReal))
    (hwk : ∀ h d, ∃ r : ℝ, wk h d = (r : EReal)) (hbk : ∀ h, ∃ r : ℝ, bk h = (r : EReal))
    (hwv : ∀ h d, ∃ r : ℝ, wv h d = (r : EReal)) (hbv : ∀ h, ∃ r : ℝ, bv h = (r : EReal))
    (Q K Vv : S4x4096x256.Idx → EReal) (Mk : S4x4096x4096.Idx → BitVec 32)
    (hq : ∀ (t : Fin 4) (s : Fin 4096) (h : Fin 256), Q (ix3 t s h) = Cert.Spec.proj xq wq bq t s h)
    (hk : ∀ (t : Fin 4) (s : Fin 4096) (h : Fin 256), K (ix3 t s h) = Cert.Spec.proj xk wk bk t s h)
    (hv : ∀ (t : Fin 4) (s : Fin 4096) (h : Fin 256), Vv (ix3 t s h) = Cert.Spec.proj xv wv bv t s h)
    (hm : ∀ (t : Fin 4) (s j : Fin 4096), Mk (ix3 t s j) = mask t s j)
    (i : S4x4096x256.Idx) :
    attnArr Q K Vv Mk i = Cert.Spec.out xq xk xv mask wq bq wk bk wv bv (i 0) (i 1) (i 2) := by
  obtain ⟨t, s, h, rfl⟩ : ∃ (t : Fin 4) (s : Fin 4096) (h : Fin 256), i = ix3 t s h := ⟨i 0, i 1, i 2, eq_ix3 i⟩
  have hQ : crd Q = Cert.Spec.proj xq wq bq := funext fun t => funext fun s => funext fun h => hq t s h
  have hK : crd K = Cert.Spec.proj xk wk bk := funext fun t => funext fun s => funext fun h => hk t s h
  have hM : crdM Mk = mask := funext fun t => funext fun s => funext fun j => hm t s j
  have hV : (fun j : Fin 4096 => Vv (ix3 t j h)) = fun j => Cert.Spec.proj xv wv bv t j h := funext fun j => hv t j h
  show Ideal.div
      (OnlineAttention.run3 (Cert.Spec.blk (Cert.Spec.score (crd Q) (crd K) (crdM Mk) t s)) (Cert.Spec.blk (fun j : Fin 4096 => Vv (ix3 t j h))) 8).2.2
      (OnlineAttention.run3 (Cert.Spec.blk (Cert.Spec.score (crd Q) (crd K) (crdM Mk) t s)) (Cert.Spec.blk (fun j : Fin 4096 => Vv (ix3 t j h))) 8).2.1
    = Cert.Spec.out xq xk xv mask wq bq wk bk wv bv t s h
  rw [hQ, hK, hM, hV]
  exact (Cert.Spec.out_eq_online xq xk xv mask wq bq wk bk wv bv hxq hxk hxv hwq hbq hwk hbk hwv hbv t s h).symm

/-- The same over ten abstract buffers of the arguments' types, read by coordinates as the reference side reads them:
    both programs' results are then the one term, the specification's output of those buffers. -/
theorem attnArr_eq_out'
    (x0 x1 x2 : (⟨Cert.ReferenceIdeal.S4x4096x1024, .f32⟩ : BufTy).Contents (Elt Ideal))
    (x3 : (⟨Cert.ReferenceIdeal.S4x4096x4096, .i32⟩ : BufTy).Contents (Elt Ideal))
    (x4 : (⟨Cert.ReferenceIdeal.S256x1024, .f32⟩ : BufTy).Contents (Elt Ideal)) (x5 : (⟨Cert.ReferenceIdeal.S256, .f32⟩ : BufTy).Contents (Elt Ideal))
    (x6 : (⟨Cert.ReferenceIdeal.S256x1024, .f32⟩ : BufTy).Contents (Elt Ideal)) (x7 : (⟨Cert.ReferenceIdeal.S256, .f32⟩ : BufTy).Contents (Elt Ideal))
    (x8 : (⟨Cert.ReferenceIdeal.S256x1024, .f32⟩ : BufTy).Contents (Elt Ideal)) (x9 : (⟨Cert.ReferenceIdeal.S256, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal))
    (h4 : ∀ i, ∃ r : ℝ, x4 i = (r : EReal)) (h5 : ∀ i, ∃ r : ℝ, x5 i = (r : EReal)) (h6 : ∀ i, ∃ r : ℝ, x6 i = (r : EReal))
    (h7 : ∀ i, ∃ r : ℝ, x7 i = (r : EReal)) (h8 : ∀ i, ∃ r : ℝ, x8 i = (r : EReal)) (h9 : ∀ i, ∃ r : ℝ, x9 i = (r : EReal))
    (Q K Vv : S4x4096x256.Idx → EReal) (Mk : S4x4096x4096.Idx → BitVec 32)
    (hq : ∀ (t : Fin 4) (s : Fin 4096) (h : Fin 256),
      Q (ix3 t s h) = Cert.Spec.proj (Cert.RefSide.act x0) (Cert.RefSide.wgt x4) (Cert.RefSide.bias x5) t s h)
    (hk : ∀ (t : Fin 4) (s : Fin 4096) (h : Fin 256),
      K (ix3 t s h) = Cert.Spec.proj (Cert.RefSide.act x1) (Cert.RefSide.wgt x6) (Cert.RefSide.bias x7) t s h)
    (hv : ∀ (t : Fin 4) (s : Fin 4096) (h : Fin 256),
      Vv (ix3 t s h) = Cert.Spec.proj (Cert.RefSide.act x2) (Cert.RefSide.wgt x8) (Cert.RefSide.bias x9) t s h)
    (hm : Mk = x3) (i : S4x4096x256.Idx) :
    attnArr Q K Vv Mk i
      = Cert.Spec.out (Cert.RefSide.act x0) (Cert.RefSide.act x1) (Cert.RefSide.act x2) (Cert.RefSide.msk x3)
          (Cert.RefSide.wgt x4) (Cert.RefSide.bias x5) (Cert.RefSide.wgt x6) (Cert.RefSide.bias x7)
          (Cert.RefSide.wgt x8) (Cert.RefSide.bias x9) (i 0) (i 1) (i 2) :=
  attnArr_eq_out_of _ _ _ _ _ _ _ _ _ _
    (fun t s d => h0 (ix3 t s d)) (fun t s d => h1 (ix3 t s d)) (fun t s d => h2 (ix3 t s d))
    (fun h d => h4 (ix2 h d)) (fun h => h5 (ix1 h)) (fun h d => h6 (ix2 h d)) (fun h => h7 (ix1 h))
    (fun h d => h8 (ix2 h d)) (fun h => h9 (ix1 h))
    Q K Vv Mk hq hk hv (fun t s j => congrFun hm (ix3 t s j)) i

variable [Cert.Pre_finite_inputs.Facts]

/-- **The kernel's output array is the specification of the arguments.**  Under the precondition every float argument
    is entrywise real; the attention call is entered with the three projections of the arguments and the mask as
    launched; so entry i of its output array is the specification's output of the ten arguments at i's coordinates. -/
theorem attnArr_eq_out (m : (ℓ : Loc nD τ sig) → Buf (Elt Ideal) ℓ) (ρ : Dev nD → PrngReg) (hpre : Cert.Pre_KernelIdeal m)
    (c : Dev nD) (i : S4x4096x256.Idx) :
    attnArr (V3 (F := Ideal) m ρ c main_v4) (V3 (F := Ideal) m ρ c main_v5) (V3 (F := Ideal) m ρ c main_v6)
        (V3 (F := Ideal) m ρ c main_arg3) i
      = Cert.Spec.out (fun t s d => m ((c.tc : Thread nD τ).loc main_arg0) (ix3 t s d))
          (fun t s d => m ((c.tc : Thread nD τ).loc main_arg1) (ix3 t s d))
          (fun t s d => m ((c.tc : Thread nD τ).loc main_arg2) (ix3 t s d))
          (fun t s j => m ((c.tc : Thread nD τ).loc main_arg3) (ix3 t s j))
          (fun h d => m ((c.tc : Thread nD τ).loc main_arg4) (ix2 h d)) (fun h => m ((c.tc : Thread nD τ).loc main_arg5) (ix1 h))
          (fun h d => m ((c.tc : Thread nD τ).loc main_arg6) (ix2 h d)) (fun h => m ((c.tc : Thread nD τ).loc main_arg7) (ix1 h))
          (fun h d => m ((c.tc : Thread nD τ).loc main_arg8) (ix2 h d)) (fun h => m ((c.tc : Thread nD τ).loc main_arg9) (ix1 h))
          (i 0) (i 1) (i 2) := by
  obtain ⟨r0, r1, r2, r4, r5, r6, r7, r8, r9⟩ := Cert.Finite.real_of_pre m hpre c
  exact attnArr_eq_out_of _ _ _ _ _ _ _ _ _ _
    (fun t s d => r0 (ix3 t s d)) (fun t s d => r1 (ix3 t s d)) (fun t s d => r2 (ix3 t s d))
    (fun h d => r4 (ix2 h d)) (fun h => r5 (ix1 h)) (fun h d => r6 (ix2 h d)) (fun h => r7 (ix1 h))
    (fun h d => r8 (ix2 h d)) (fun h => r9 (ix1 h))
    _ _ _ _ (q_eq m ρ c) (k_eq m ρ c) (v_eq m ρ c) (fun t s j => congrFun (mask_eq m ρ c) (ix3 t s j)) i

end Cert.KernelIdeal.Hand

end
-- ==== Proof.Final.lean ====
/-
  The five claims, assembled.

  Both idealized programs end holding, at entry (t, s, h) of their result array, the specification's output of the ten
  arguments: the kernel's attention call leaves the online softmax state's weighted sum over its sum, which over real
  scores and values is the one-pass softmax-weighted mean; the reference computes that mean directly.  The frames are the
  programs' runs with the results dropped; the ideal pass rewrote nothing.
-/
import proofs.«133710_j6906307412546_2_alg».proof.Defs
import proofs.«133710_j6906307412546_2_alg».proof.Proof.Launch
import proofs.«133710_j6906307412546_2_alg».proof.Proof.KLaunch
import proofs.«133710_j6906307412546_2_alg».proof.Proof.Region1Value
import proofs.«133710_j6906307412546_2_alg».proof.Proof.KernelOut
import proofs.«133710_j6906307412546_2_alg».proof.Proof.RefSide
import proofs.«133710_j6906307412546_2_alg».proof.Proof.Gen.Pre_finite_inputs

noncomputable section

namespace Cert.Proof.Claims

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The result both programs end with: the specification's output of the kernel's argument buffers. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v7) :=
  fun i => Cert.Spec.out (Cert.RefSide.act (m ((c.tc : Thread Cert.KernelIdeal.nD Cert.KernelIdeal.τ).loc Cert.KernelIdeal.main_arg0))) (Cert.RefSide.act (m ((c.tc : Thread Cert.KernelIdeal.nD Cert.KernelIdeal.τ).loc Cert.KernelIdeal.main_arg1))) (Cert.RefSide.act (m ((c.tc : Thread Cert.KernelIdeal.nD Cert.KernelIdeal.τ).loc Cert.KernelIdeal.main_arg2))) (Cert.RefSide.msk (m ((c.tc : Thread Cert.KernelIdeal.nD Cert.KernelIdeal.τ).loc Cert.KernelIdeal.main_arg3))) (Cert.RefSide.wgt (m ((c.tc : Thread Cert.KernelIdeal.nD Cert.KernelIdeal.τ).loc Cert.KernelIdeal.main_arg4))) (Cert.RefSide.bias (m ((c.tc : Thread Cert.KernelIdeal.nD Cert.KernelIdeal.τ).loc Cert.KernelIdeal.main_arg5))) (Cert.RefSide.wgt (m ((c.tc : Thread Cert.KernelIdeal.nD Cert.KernelIdeal.τ).loc Cert.KernelIdeal.main_arg6))) (Cert.RefSide.bias (m ((c.tc : Thread Cert.KernelIdeal.nD Cert.KernelIdeal.τ).loc Cert.KernelIdeal.main_arg7))) (Cert.RefSide.wgt (m ((c.tc : Thread Cert.KernelIdeal.nD Cert.KernelIdeal.τ).loc Cert.KernelIdeal.main_arg8))) (Cert.RefSide.bias (m ((c.tc : Thread Cert.KernelIdeal.nD Cert.KernelIdeal.τ).loc Cert.KernelIdeal.main_arg9))) (i 0) (i 1) (i 2)

open Cert.KernelIdeal.Hand in
/-- The idealized kernel's run with its result array named. -/
theorem kernel_run (m : (ℓ : Loc Cert.KernelIdeal.nD Cert.KernelIdeal.τ Cert.KernelIdeal.sig) → Buf (Elt Ideal) ℓ) (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v7) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run _ _ _).mono (fun _ h c =>
    ⟨(h c _ (mem_uc Cert.KernelIdeal.main_v7 (by decide))).trans ((W4_main_v7 m ρ c).trans ((arr1_4 (V3 m ρ) c).trans (funext fun i => attnArr_eq_out m ρ hpre c i))),
      (h c _ (mem_uc Cert.KernelIdeal.main_arg0 (by decide))).trans (W4_main_arg0 m ρ c),
      (h c _ (mem_uc Cert.KernelIdeal.main_arg1 (by decide))).trans (W4_main_arg1 m ρ c),
      (h c _ (mem_uc Cert.KernelIdeal.main_arg2 (by decide))).trans (W4_main_arg2 m ρ c),
      (h c _ (mem_uc Cert.KernelIdeal.main_arg3 (by decide))).trans (W4_main_arg3 m ρ c),
      (h c _ (mem_uc Cert.KernelIdeal.main_arg4 (by decide))).trans (W4_main_arg4 m ρ c),
      (h c _ (mem_uc Cert.KernelIdeal.main_arg5 (by decide))).trans (W4_main_arg5 m ρ c),
      (h c _ (mem_uc Cert.KernelIdeal.main_arg6 (by decide))).trans (W4_main_arg6 m ρ c),
      (h c _ (mem_uc Cert.KernelIdeal.main_arg7 (by decide))).trans (W4_main_arg7 m ρ c),
      (h c _ (mem_uc Cert.KernelIdeal.main_arg8 (by decide))).trans (W4_main_arg8 m ρ c),
      (h c _ (mem_uc Cert.KernelIdeal.main_arg9 (by decide))).trans (W4_main_arg9 m ρ c)⟩)
    (run_all (F := Ideal) m ρ)

theorem algebraic : Cert.algebraic_KernelIdeal_ReferenceIdeal := by
  intro m ρ m' ρ' hpre hagree
  refine ⟨result m, kernel_run m ρ hpre, ?_⟩
  refine (θ_run Cert.ReferenceIdeal.defs _ _).mono (fun _ h c => ⟨(h c).1.trans ?_, (h c).2⟩)
    (Cert.ReferenceIdeal.Value.run (F := Ideal) m' ρ')
  funext i
  rw [Cert.RefSide.res_eq_out, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1, (hagree c).2.2.2.2.2.2.2.2.2]
  rfl

end Cert.Proof.Claims

end
-- ==== Proof.lean ====
/-
  The certificate's claim: a fused query/key/value projection followed by a blocked attention with an online softmax
  computes, over the extended reals and on finite inputs, what the plain projections, scaled masked scores, softmax
  and weighted sum compute.

  The program is two kernel regions among reshapes.  The projection region stores, per block of 512 rows, the inner
  products of the rows with the weight rows plus the bias.  The attention region walks an 8 × 8 grid of (query block,
  key block): three scratch buffers carry the running maximum, the running sum of exponentials and the running weighted
  sum across the key blocks of one query block, and the last key block stores their quotient.  One update of the body is
  one step of the online softmax recurrence, so after eight key blocks the quotient is the softmax-weighted mean of the
  value rows: the reference's result.  Finiteness of the inputs makes every score and value a real number, which is
  what the rescaling of the running sums needs.  The three frames are the programs' runs with the results dropped, and
  the ideal pass rewrote nothing.
-/
import proofs.«133710_j6906307412546_2_alg».proof.Defs
import proofs.«133710_j6906307412546_2_alg».proof.Proof.Final
import proofs.«133710_j6906307412546_2_alg».proof.Proof.Gen.Kernel
import proofs.«133710_j6906307412546_2_alg».proof.Proof.Gen.KernelIdeal
import proofs.«133710_j6906307412546_2_alg».proof.Proof.Gen.ReferenceIdeal
import proofs.«133710_j6906307412546_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
